-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v102_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S5x256x256 : Shape := ⟨3, ![5, 256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S5x256x256 : S_.BroadcastsInDim S5x256x256 (![] : Fin 0 → Fin S5x256x256.rank)
  reducesTo_S5x256x256_S_d0_1_2 : S5x256x256.ReducesTo [0, 1, 2] S_

variable [Facts]

def fn {F : FTy → Type} [FloatOps F] (main_arg0 : FVec F S50000x256 .f32) (main_arg1 : IVec S2x800000 32) (main_arg2 : FVec F S5x256x256 .f32) (main_arg3 : FVec F S5x256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S5x256x256 .f32 := Host.absf main_arg2
  let main_cst_0 : FVec F S_ .f32 := constant S_ .f32 0x7F800000#32
  let main_v5 : FVec F S5x256x256 .f32 := broadcastInDim S5x256x256 ![] bcast_S_S5x256x256 main_cst_0
  let main_v6 : IVec S5x256x256 1 := cmpf .olt main_v4 main_v5
  let main_c_1 : IVec S_ 1 := constantI S_ 1 1#1
  let main_v7 : IVec S_ 1 := (fun x v => Host.reduce IntOp.andi x v reducesTo_S5x256x256_S_d0_1_2 h_S_) main_v6 main_c_1
  let main_v8 : IVec S_ 1 := andi main_v3 main_v7
  let main_v9 : FVec F S5x256x256 .f32 := Host.absf main_arg3
  let main_cst_2 : FVec F S_ .f32 := constant S_ .f32 0x7F800000#32
  let main_v10 : FVec F S5x256x256 .f32 := broadcastInDim S5x256x256 ![] bcast_S_S5x256x256 main_cst_2
  let main_v11 : IVec S5x256x256 1 := cmpf .olt main_v9 main_v10
  let main_c_3 : IVec S_ 1 := constantI S_ 1 1#1
  let main_v12 : IVec S_ 1 := (fun x v => Host.reduce IntOp.andi x v reducesTo_S5x256x256_S_d0_1_2 h_S_) main_v11 main_c_3
  let main_v13 : IVec S_ 1 := andi main_v8 main_v12
  main_v13
-- ==== Kernel.lean ====
abbrev S50000x256 : Shape := ⟨2, ![50000, 256]⟩
abbrev S2x800000 : Shape := ⟨2, ![2, 800000]⟩
abbrev S5x256x256 : Shape := ⟨3, ![5, 256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256x256 : Shape := ⟨3, ![1, 256, 256]⟩
abbrev S256x256 : Shape := ⟨2, ![256, 256]⟩
abbrev S2000x256 : Shape := ⟨2, ![2000, 256]⟩
abbrev S2000x1 : Shape := ⟨2, ![2000, 1]⟩

abbrev nBuf : Space → Nat
  | .hbm => 137
  | .vmem => 60
  | .smem => 0
  | _ => 0

abbrev hbmTy0_0 (i : Nat) : BufTy := match i % 128 with
  | 0 => ⟨S50000x256, .f32⟩
  | 1 => ⟨S2x800000, .i32⟩
  | 2 => ⟨S5x256x256, .f32⟩
  | 3 => ⟨S5x256x256, .f32⟩
  | 4 => ⟨S1x800000, .i32⟩
  | 5 => ⟨S800000, .i32⟩
  | 6 => ⟨S1x800000, .i32⟩
  | 7 => ⟨S800000, .i32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .i1⟩
  | 17 => ⟨S_, .f32⟩
  | 18 => ⟨S50000, .f32⟩
  | 19 => ⟨S50000, .i1⟩
  | 20 => ⟨S_, .f32⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S50000x1, .f32⟩
  | 30 => ⟨S5x256x256, .f32⟩
  | 31 => ⟨S5x256x256, .bf16⟩
  | 32 => ⟨S5x256x256, .f32⟩
  | 33 => ⟨S5x256x256, .bf16⟩
  | 34 => ⟨S50000x256, .f32⟩
  | 35 => ⟨S50000x256, .f32⟩
  | 36 => ⟨S50000x256, .bf16⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x256, .bf16⟩
  | 46 => ⟨S800000x256, .f32⟩
  | 47 => ⟨S_, .f32⟩
  | 48 => ⟨S50000x256, .f32⟩
  | 49 => ⟨S800000x1, .i32⟩
  | 50 => ⟨S50000x256, .f32⟩
  | 51 => ⟨S1x256x256, .bf16⟩
  | 52 => ⟨S256x256, .bf16⟩
  | 53 => ⟨S1x256x256, .bf16⟩
  | 54 => ⟨S256x256, .bf16⟩
  | 55 => ⟨S50000x256, .f32⟩
  | 56 => ⟨S50000x256, .bf16⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x256, .bf16⟩
  | 66 => ⟨S800000x256, .f32⟩
  | 67 => ⟨S_, .f32⟩
  | 68 => ⟨S50000x256, .f32⟩
  | 69 => ⟨S800000x1, .i32⟩
  | 70 => ⟨S50000x256, .f32⟩
  | 71 => ⟨S1x256x256, .bf16⟩
  | 72 => ⟨S256x256, .bf16⟩
  | 73 => ⟨S1x256x256, .bf16⟩
  | 74 => ⟨S256x256, .bf16⟩
  | 75 => ⟨S50000x256, .f32⟩
  | 76 => ⟨S50000x256, .bf16⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x256, .bf16⟩
  | 86 => ⟨S800000x256, .f32⟩
  | 87 => ⟨S_, .f32⟩
  | 88 => ⟨S50000x256, .f32⟩
  | 89 => ⟨S800000x1, .i32⟩
  | 90 => ⟨S50000x256, .f32⟩
  | 91 => ⟨S1x256x256, .bf16⟩
  | 92 => ⟨S256x256, .bf16⟩
  | 93 => ⟨S1x256x256, .bf16⟩
  | 94 => ⟨S256x256, .bf16⟩
  | 95 => ⟨S50000x256, .f32⟩
  | 96 => ⟨S50000x256, .bf16⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x256, .bf16⟩
  | 106 => ⟨S800000x256, .f32⟩
  | 107 => ⟨S_, .f32⟩
  | 108 => ⟨S50000x256, .f32⟩
  | 109 => ⟨S800000x1, .i32⟩
  | 110 => ⟨S50000x256, .f32⟩
  | 111 => ⟨S1x256x256, .bf16⟩
  | 112 => ⟨S256x256, .bf16⟩
  | 113 => ⟨S1x256x256, .bf16⟩
  | 114 => ⟨S256x256, .bf16⟩
  | 115 => ⟨S50000x256, .f32⟩
  | 116 => ⟨S50000x256, .bf16⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x256, .bf16⟩
  | 126 => ⟨S800000x256, .f32⟩
  | 127 => ⟨S_, .f32⟩
  | _ => ⟨S50000x256, .f32⟩

abbrev hbmTy0_1 (i : Nat) : BufTy := match i % 128 with
  | 0 => ⟨S50000x256, .f32⟩
  | 1 => ⟨S800000x1, .i32⟩
  | 2 => ⟨S50000x256, .f32⟩
  | 3 => ⟨S1x256x256, .bf16⟩
  | 4 => ⟨S256x256, .bf16⟩
  | 5 => ⟨S1x256x256, .bf16⟩
  | 6 => ⟨S256x256, .bf16⟩
  | 7 => ⟨S50000x256, .f32⟩
  | 8 => ⟨S50000x256, .bf16⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x1, .f32⟩
  | .local _ .vmem, ⟨5, _⟩ => ⟨S2000x1, .f32⟩
  | .local _ .vmem, ⟨6, _⟩ => ⟨S256x256, .bf16⟩
  | .local _ .vmem, ⟨7, _⟩ => ⟨S256x256, .bf16⟩
  | .local _ .vmem, ⟨8, _⟩ => ⟨S2000x256, .f32⟩
  | .local _ .vmem, ⟨9, _⟩ => ⟨S2000x256, .f32⟩
  | .local _ .vmem, ⟨10, _⟩ => ⟨S2000x256, .bf16⟩
  | .local _ .vmem, ⟨11, _⟩ => ⟨S2000x256, .bf16⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x1, .f32⟩
  | .local _ .vmem, ⟨17, _⟩ => ⟨S2000x1, .f32⟩
  | .local _ .vmem, ⟨18, _⟩ => ⟨S256x256, .bf16⟩
  | .local _ .vmem, ⟨19, _⟩ => ⟨S256x256, .bf16⟩
  | .local _ .vmem, ⟨20, _⟩ => ⟨S2000x256, .f32⟩
  | .local _ .vmem, ⟨21, _⟩ => ⟨S2000x256, .f32⟩
  | .local _ .vmem, ⟨22, _⟩ => ⟨S2000x256, .bf16⟩
  | .local _ .vmem, ⟨23, _⟩ => ⟨S2000x256, .bf16⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x1, .f32⟩
  | .local _ .vmem, ⟨29, _⟩ => ⟨S2000x1, .f32⟩
  | .local _ .vmem, ⟨30, _⟩ => ⟨S256x256, .bf16⟩
  | .local _ .vmem, ⟨31, _⟩ => ⟨S256x256, .bf16⟩
  | .local _ .vmem, ⟨32, _⟩ => ⟨S2000x256, .f32⟩
  | .local _ .vmem, ⟨33, _⟩ => ⟨S2000x256, .f32⟩
  | .local _ .vmem, ⟨34, _⟩ => ⟨S2000x256, .bf16⟩
  | .local _ .vmem, ⟨35, _⟩ => ⟨S2000x256, .bf16⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x1, .f32⟩
  | .local _ .vmem, ⟨41, _⟩ => ⟨S2000x1, .f32⟩
  | .local _ .vmem, ⟨42, _⟩ => ⟨S256x256, .bf16⟩
  | .local _ .vmem, ⟨43, _⟩ => ⟨S256x256, .bf16⟩
  | .local _ .vmem, ⟨44, _⟩ => ⟨S2000x256, .f32⟩
  | .local _ .vmem, ⟨45, _⟩ => ⟨S2000x256, .f32⟩
  | .local _ .vmem, ⟨46, _⟩ => ⟨S2000x256, .bf16⟩
  | .local _ .vmem, ⟨47, _⟩ => ⟨S2000x256, .bf16⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S2000x1, .f32⟩
  | .local _ .vmem, ⟨53, _⟩ => ⟨S2000x1, .f32⟩
  | .local _ .vmem, ⟨54, _⟩ => ⟨S256x256, .bf16⟩
  | .local _ .vmem, ⟨55, _⟩ => ⟨S256x256, .bf16⟩
  | .local _ .vmem, ⟨56, _⟩ => ⟨S2000x256, .f32⟩
  | .local _ .vmem, ⟨57, _⟩ => ⟨S2000x256, .f32⟩
  | .local _ .vmem, ⟨58, _⟩ => ⟨S2000x256, .bf16⟩
  | .local _ .vmem, ⟨59, _⟩ => ⟨S2000x256, .bf16⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54_0 : Ref sig .tc := ⟨.hbm, 75, rfl⟩
abbrev main_v54_1 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70_0 : Ref sig .tc := ⟨.hbm, 95, rfl⟩
abbrev main_v70_1 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_c_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86_0 : Ref sig .tc := ⟨.hbm, 115, rfl⟩
abbrev main_v86_1 : Ref sig .tc := ⟨.hbm, 116, rfl⟩
abbrev main_c_16 : Ref sig .tc := ⟨.hbm, 117, rfl⟩
abbrev main_v87 : Ref sig .tc := ⟨.hbm, 118, rfl⟩
abbrev main_v88 : Ref sig .tc := ⟨.hbm, 119, rfl⟩
abbrev main_c_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102_0 : Ref sig .tc := ⟨.hbm, 135, rfl⟩
abbrev main_v102_1 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg5_1 : Ref sig .tc := ⟨.vmem, 57, rfl⟩
abbrev cc4_stg6_0 : Ref sig .tc := ⟨.vmem, 58, rfl⟩
abbrev cc4_stg6_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem6_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc4_sem5_0 : DmaSem sig := 56
abbrev cc4_sem5_1 : DmaSem sig := 57
abbrev cc4_sem6_0 : DmaSem sig := 58
abbrev cc4_sem6_1 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  transposes_S5x256x256_S5x256x256_0_2_1 : S5x256x256.Transposes [0, 2, 1] S5x256x256
  bitsLt_bf16_f32 : FTy.bits .bf16 < FTy.bits .f32
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  slices_S5x256x256_S1x256x256_0_0_0 : S5x256x256.Slices ![0, 0, 0] S1x256x256
  shapeCasts_S1x256x256_S256x256 : S1x256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S2000x256_S2000x256_0_0 : (Rect.unit (s := S2000x256) ![0, 0] S2000x256.size inb_S2000x256_S2000x256_0_0).PackedRows (EltTy.packing .bf16)
  slices_S5x256x256_S1x256x256_1_0_0 : S5x256x256.Slices ![1, 0, 0] S1x256x256
  slices_S5x256x256_S1x256x256_2_0_0 : S5x256x256.Slices ![2, 0, 0] S1x256x256
  slices_S5x256x256_S1x256x256_3_0_0 : S5x256x256.Slices ![3, 0, 0] S1x256x256
  slices_S5x256x256_S1x256x256_4_0_0 : S5x256x256.Slices ![4, 0, 0] S1x256x256
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .bf16 = 32 ∨ (Rect.block (s := S50000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .bf16 = 32 ∨ (Rect.block (s := S50000x256) S2000x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .bf16 = 32 ∨ (Rect.block (s := S50000x256) S2000x256.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .bf16 = 32 ∨ (Rect.block (s := S50000x256) S2000x256.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .bf16 = 32 ∨ (Rect.block (s := S256x256) S256x256.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .bf16 = 32 ∨ (Rect.block (s := S256x256) S256x256.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S50000x256.size a
  hwx4_6 : ∀ i : grid4.Coords, EltTy.bits .bf16 = 32 ∨ (Rect.block (s := S50000x256) S2000x256.size (cc4_transform_6 i) (hinb4_6 i)).WholeWords (EltTy.packing .bf16)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v38_1) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v54_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v54_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v70_1) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v70_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v83) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v86_0) S2000x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v86_1) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v86_0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v99) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v101) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v102_0) S2000x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v102_1) S2000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S5x256x256 : Shape := ⟨3, ![5, 256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S1x256x256 : Shape := ⟨3, ![1, 256, 256]⟩
abbrev S256x256 : Shape := ⟨2, ![256, 256]⟩

abbrev nBuf : Space → Nat
  | .hbm => 169
  | .vmem => 0
  | .smem => 0
  | _ => 0

abbrev hbmTy0_0 (i : Nat) : BufTy := match i % 128 with
  | 0 => ⟨S50000x256, .f32⟩
  | 1 => ⟨S2x800000, .i32⟩
  | 2 => ⟨S5x256x256, .f32⟩
  | 3 => ⟨S5x256x256, .f32⟩
  | 4 => ⟨S1x800000, .i32⟩
  | 5 => ⟨S800000, .i32⟩
  | 6 => ⟨S1x800000, .i32⟩
  | 7 => ⟨S800000, .i32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .i1⟩
  | 17 => ⟨S_, .f32⟩
  | 18 => ⟨S50000, .f32⟩
  | 19 => ⟨S50000, .i1⟩
  | 20 => ⟨S_, .f32⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S800000x1, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x256, .f32⟩
  | 58 => ⟨S800000x256, .f32⟩
  | 59 => ⟨S800000x256, .f32⟩
  | 60 => ⟨S_, .f32⟩
  | 61 => ⟨S50000x256, .f32⟩
  | 62 => ⟨S800000x1, .i32⟩
  | 63 => ⟨S50000x256, .f32⟩
  | 64 => ⟨S1x256x256, .f32⟩
  | 65 => ⟨S256x256, .f32⟩
  | 66 => ⟨S256x256, .f32⟩
  | 67 => ⟨S50000x256, .f32⟩
  | 68 => ⟨S1x256x256, .f32⟩
  | 69 => ⟨S256x256, .f32⟩
  | 70 => ⟨S256x256, .f32⟩
  | 71 => ⟨S50000x256, .f32⟩
  | 72 => ⟨S50000x256, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x256, .f32⟩
  | 82 => ⟨S800000x256, .f32⟩
  | 83 => ⟨S800000x256, .f32⟩
  | 84 => ⟨S_, .f32⟩
  | 85 => ⟨S50000x256, .f32⟩
  | 86 => ⟨S800000x1, .i32⟩
  | 87 => ⟨S50000x256, .f32⟩
  | 88 => ⟨S1x256x256, .f32⟩
  | 89 => ⟨S256x256, .f32⟩
  | 90 => ⟨S256x256, .f32⟩
  | 91 => ⟨S50000x256, .f32⟩
  | 92 => ⟨S1x256x256, .f32⟩
  | 93 => ⟨S256x256, .f32⟩
  | 94 => ⟨S256x256, .f32⟩
  | 95 => ⟨S50000x256, .f32⟩
  | 96 => ⟨S50000x256, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x256, .f32⟩
  | 106 => ⟨S800000x256, .f32⟩
  | 107 => ⟨S800000x256, .f32⟩
  | 108 => ⟨S_, .f32⟩
  | 109 => ⟨S50000x256, .f32⟩
  | 110 => ⟨S800000x1, .i32⟩
  | 111 => ⟨S50000x256, .f32⟩
  | 112 => ⟨S1x256x256, .f32⟩
  | 113 => ⟨S256x256, .f32⟩
  | 114 => ⟨S256x256, .f32⟩
  | 115 => ⟨S50000x256, .f32⟩
  | 116 => ⟨S1x256x256, .f32⟩
  | 117 => ⟨S256x256, .f32⟩
  | 118 => ⟨S256x256, .f32⟩
  | 119 => ⟨S50000x256, .f32⟩
  | 120 => ⟨S50000x256, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x256, .f32⟩

abbrev hbmTy0_1 (i : Nat) : BufTy := match i % 128 with
  | 0 => ⟨S800000x1, .i32⟩
  | 1 => ⟨S800000x256, .f32⟩
  | 2 => ⟨S800000x256, .f32⟩
  | 3 => ⟨S800000x256, .f32⟩
  | 4 => ⟨S_, .f32⟩
  | 5 => ⟨S50000x256, .f32⟩
  | 6 => ⟨S800000x1, .i32⟩
  | 7 => ⟨S50000x256, .f32⟩
  | 8 => ⟨S1x256x256, .f32⟩
  | 9 => ⟨S256x256, .f32⟩
  | 10 => ⟨S256x256, .f32⟩
  | 11 => ⟨S50000x256, .f32⟩
  | 12 => ⟨S1x256x256, .f32⟩
  | 13 => ⟨S256x256, .f32⟩
  | 14 => ⟨S256x256, .f32⟩
  | 15 => ⟨S50000x256, .f32⟩
  | 16 => ⟨S50000x256, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x256, .f32⟩
  | 26 => ⟨S800000x256, .f32⟩
  | 27 => ⟨S800000x256, .f32⟩
  | 28 => ⟨S_, .f32⟩
  | 29 => ⟨S50000x256, .f32⟩
  | 30 => ⟨S800000x1, .i32⟩
  | 31 => ⟨S50000x256, .f32⟩
  | 32 => ⟨S1x256x256, .f32⟩
  | 33 => ⟨S256x256, .f32⟩
  | 34 => ⟨S256x256, .f32⟩
  | 35 => ⟨S50000x256, .f32⟩
  | 36 => ⟨S1x256x256, .f32⟩
  | 37 => ⟨S256x256, .f32⟩
  | 38 => ⟨S256x256, .f32⟩
  | 39 => ⟨S50000x256, .f32⟩
  | 40 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_14 : Ref sig .tc := ⟨.hbm, 97, rfl⟩
abbrev main_v73 : Ref sig .tc := ⟨.hbm, 98, rfl⟩
abbrev main_v74 : Ref sig .tc := ⟨.hbm, 99, rfl⟩
abbrev main_c_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_16 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_c_17 : Ref sig .tc := ⟨.hbm, 121, rfl⟩
abbrev main_v94 : Ref sig .tc := ⟨.hbm, 122, rfl⟩
abbrev main_v95 : Ref sig .tc := ⟨.hbm, 123, rfl⟩
abbrev main_c_18 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_19 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_c_20 : Ref sig .tc := ⟨.hbm, 145, rfl⟩
abbrev main_v115 : Ref sig .tc := ⟨.hbm, 146, rfl⟩
abbrev main_v116 : Ref sig .tc := ⟨.hbm, 147, rfl⟩
abbrev main_c_21 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_22 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  slices_S5x256x256_S1x256x256_0_0_0 : S5x256x256.Slices ![0, 0, 0] S1x256x256
  shapeCasts_S1x256x256_S256x256 : S1x256x256.ShapeCasts S256x256
  transposes_S256x256_S256x256_1_0 : S256x256.Transposes [1, 0] S256x256
  slices_S5x256x256_S1x256x256_1_0_0 : S5x256x256.Slices ![1, 0, 0] S1x256x256
  slices_S5x256x256_S1x256x256_2_0_0 : S5x256x256.Slices ![2, 0, 0] S1x256x256
  slices_S5x256x256_S1x256x256_3_0_0 : S5x256x256.Slices ![3, 0, 0] S1x256x256
  slices_S5x256x256_S1x256x256_4_0_0 : S5x256x256.Slices ![4, 0, 0] S1x256x256
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KRun.lean ====
/-
  The idealized kernel program's run with its result named.

  Every weakly fair execution of the program terminates without a fault; in the final state the result array holds
  what the fold of the program's segments (the host stretches' operations, each launch's write-backs) leaves in it,
  and the four argument arrays are as launched.  The argument is the launch theorem for a program of several regions
  over the program's list of segments, the final thread state read against the final memory; it differs from the
  frame alone only in also reading the result buffer.
-/
import proofs.«141509_j41120016892381_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: termination, no fault, the result buffer at the fold's contents, the arguments as launched. -/
theorem run : θ_run defs (onTc (τ := τ) (main (F := F))) ⟨m, fun _ => 0, ρ⟩ (fun r => ∀ c : Dev nD,
      r.2.mem ((c.tc : Thread nD τ).loc main_v102_0) = W14 m ρ c (Proc.devRef .tc main_v102_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v102_0 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c)⟩)

end Cert.KernelIdeal.KRun

end
-- ==== Proof.Spec.lean ====
/-
  The graph convolution both programs compute, as plain sums over the extended reals.

  A node matrix `x : [50000, 256]`, edge lists `row`, `col` of length 800000 and a vector `dinv : [50000]` of
  inverse square-root degrees.  One step sends `x` to `x · W0ₖᵀ + A · W1ₖᵀ`, where the aggregate `A` adds, into
  node `i`, the rows of `x` at the sources of the edges whose target is `i`, each weighted by
  `dinv (source) · dinv (target)`.  The weight can be applied edge by edge (`aggR`) or half before the sum and half
  after it (`aggK`); the two agree because `dinv` is a nonnegative real, over which multiplication distributes
  over any sum of extended reals.
-/
import Idealize.ShloMosaic.PureOps.Ideal
import Idealize.ShloMosaic.Lib.ValueIdx
import Mathlib.Data.EReal.Operations

noncomputable section

open scoped BigOperators

namespace Cert.Tag

open Idealize.ShloMosaic Idealize.ShloMosaic.ValueIdx

abbrev SX : Shape := ⟨2, ![50000, 256]⟩
abbrev SW : Shape := ⟨3, ![5, 256, 256]⟩
abbrev SE : Shape := ⟨1, ![800000]⟩
abbrev SN : Shape := ⟨1, ![50000]⟩
abbrev SN1 : Shape := ⟨2, ![50000, 1]⟩
abbrev SD : Shape := ⟨2, ![256, 256]⟩

/-- The node an edge list names at edge `e`: the entry read signed and clamped into `[0, 49999]`. -/
def src (idx : IVec SE 32) (e : Fin 800000) : Fin 50000 := ⟨min (idx (ix1 e)).toInt.toNat 49999, by omega⟩

/-- The edges whose target entry, read signed, is the node `i`. -/
def tgt (col : IVec SE 32) (i : Fin 50000) : Finset (Fin 800000) :=
  Finset.univ.filter fun e : Fin 800000 => (col (ix1 e)).toInt = (i.val : Int)

/-- The aggregate with each edge weighted by `dinv (source) · dinv (target)`. -/
def aggR (x : SX.Idx → EReal) (dinv : SN.Idx → EReal) (rowN colN col : IVec SE 32) (i : Fin 50000) (c : Fin 256) : EReal :=
  ∑ e ∈ tgt col i, x (ix2 (src rowN e) c) * (dinv (ix1 (src rowN e)) * dinv (ix1 (src colN e)))

/-- The aggregate of the rows scaled by `dinv` at their source, the sum scaled by `dinv` at the target. -/
def aggK (x : SX.Idx → EReal) (dinv : SN.Idx → EReal) (rowN col : IVec SE 32) (i : Fin 50000) (c : Fin 256) : EReal :=
  (∑ e ∈ tgt col i, x (ix2 (src rowN e) c) * dinv (ix1 (src rowN e))) * dinv (ix1 i)

/-- One step at `(i, q)`: `x · W0ₖᵀ + A · W1ₖᵀ`. -/
def nextAt (x : SX.Idx → EReal) (A : Fin 50000 → Fin 256 → EReal) (W0 W1 : SW.Idx → EReal) (k : Fin 5)
    (i : Fin 50000) (q : Fin 256) : EReal :=
  (∑ c : Fin 256, x (ix2 i c) * W0 (ix3 k q c)) + ∑ c : Fin 256, A i c * W1 (ix3 k q c)

/-- A function of the two coordinates as an array. -/
def arr2 (f : Fin 50000 → Fin 256 → EReal) : SX.Idx → EReal :=
  fun j => f ⟨(j 0).val, idx2_lt0 j⟩ ⟨(j 1).val, idx2_lt1 j⟩

theorem arr2_ix2 (f : Fin 50000 → Fin 256 → EReal) (i : Fin 50000) (q : Fin 256) : arr2 f (ix2 i q) = f i q := rfl

/-- Two arrays that agree at every pair of coordinates are equal. -/
theorem ext2 {a b : SX.Idx → EReal} (h : ∀ (i : Fin 50000) (q : Fin 256), a (ix2 i q) = b (ix2 i q)) : a = b := by
  funext j
  rw [eq_ix2 j]
  exact h _ _

def stepR (x : SX.Idx → EReal) (dinv : SN.Idx → EReal) (rowN colN col : IVec SE 32) (W0 W1 : SW.Idx → EReal) (k : Fin 5) :
    SX.Idx → EReal := arr2 (nextAt x (aggR x dinv rowN colN col) W0 W1 k)

def stepK (x : SX.Idx → EReal) (dinv : SN.Idx → EReal) (rowN col : IVec SE 32) (W0 W1 : SW.Idx → EReal) (k : Fin 5) :
    SX.Idx → EReal := arr2 (nextAt x (aggK x dinv rowN col) W0 W1 k)

/-- The five steps, the reference's way. -/
def iterR (x : SX.Idx → EReal) (dinv : SN.Idx → EReal) (rowN colN col : IVec SE 32) (W0 W1 : SW.Idx → EReal) : SX.Idx → EReal :=
  stepR (stepR (stepR (stepR (stepR x dinv rowN colN col W0 W1 0) dinv rowN colN col W0 W1 1) dinv rowN colN col W0 W1 2)
    dinv rowN colN col W0 W1 3) dinv rowN colN col W0 W1 4

/-- The five steps, the kernel's way. -/
def iterK (x : SX.Idx → EReal) (dinv : SN.Idx → EReal) (rowN col : IVec SE 32) (W0 W1 : SW.Idx → EReal) : SX.Idx → EReal :=
  stepK (stepK (stepK (stepK (stepK x dinv rowN col W0 W1 0) dinv rowN col W0 W1 1) dinv rowN col W0 W1 2)
    dinv rowN col W0 W1 3) dinv rowN col W0 W1 4

/-! ## What one launch of the dense kernel writes, as functions of its five operand arrays -/

/-- The first output: `x · w0 + (agg ⊙ d2) · w1`. -/
def blockX (x agg : SX.Idx → EReal) (d2 : SN1.Idx → EReal) (w0 w1 : SD.Idx → EReal) : SX.Idx → EReal :=
  arr2 fun i q => (∑ c : Fin 256, x (ix2 i c) * w0 (ix2 c q))
    + ∑ c : Fin 256, (agg (ix2 i c) * d2 (ix2 i (0 : Fin 1))) * w1 (ix2 c q)

/-- The second output: the first scaled row by row by `d2`. -/
def blockXn (x agg : SX.Idx → EReal) (d2 : SN1.Idx → EReal) (w0 w1 : SD.Idx → EReal) : SX.Idx → EReal :=
  arr2 fun i q => blockX x agg d2 w0 w1 (ix2 i q) * d2 (ix2 i (0 : Fin 1))

theorem blockXn_apply (x agg : SX.Idx → EReal) (d2 : SN1.Idx → EReal) (w0 w1 : SD.Idx → EReal) (i : Fin 50000) (q : Fin 256) :
    blockXn x agg d2 w0 w1 (ix2 i q) = blockX x agg d2 w0 w1 (ix2 i q) * d2 (ix2 i (0 : Fin 1)) := rfl

/-- A launch whose aggregate operand holds the sums of the scaled source rows, whose column operand holds `dinv` and
    whose weight operands hold the transposed slices `k` of `W0`, `W1`, writes the kernel's step. -/
theorem blockX_eq_stepK (x agg : SX.Idx → EReal) (d2 : SN1.Idx → EReal) (w0 w1 : SD.Idx → EReal)
    (dinv : SN.Idx → EReal) (rowN col : IVec SE 32) (W0 W1 : SW.Idx → EReal) (k : Fin 5)
    (hagg : ∀ (i : Fin 50000) (c : Fin 256), agg (ix2 i c) = ∑ e ∈ tgt col i, x (ix2 (src rowN e) c) * dinv (ix1 (src rowN e)))
    (hd2 : ∀ i : Fin 50000, d2 (ix2 i (0 : Fin 1)) = dinv (ix1 i))
    (hw0 : ∀ c q : Fin 256, w0 (ix2 c q) = W0 (ix3 k q c)) (hw1 : ∀ c q : Fin 256, w1 (ix2 c q) = W1 (ix3 k q c)) :
    blockX x agg d2 w0 w1 = stepK x dinv rowN col W0 W1 k := by
  refine ext2 fun i q => ?_
  unfold blockX stepK
  rw [arr2_ix2, arr2_ix2]
  unfold nextAt aggK
  refine congrArg₂ (· + ·) ?_ ?_
  · exact Finset.sum_congr rfl fun c _ => by rw [hw0]
  · exact Finset.sum_congr rfl fun c _ => by rw [hw1, hagg, hd2]

/-! ## The two aggregates agree -/

/-- Multiplication by a nonnegative real distributes over a finite sum of extended reals. -/
theorem sum_mul_coe {ι : Type} (s : Finset ι) (f : ι → EReal) (r : ℝ) (hr : 0 ≤ r) :
    (∑ e ∈ s, f e) * (r : EReal) = ∑ e ∈ s, f e * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

theorem aggK_eq_aggR (x : SX.Idx → EReal) (dinv : SN.Idx → EReal) (rowN colN col : IVec SE 32)
    (hd : ∀ j : SN.Idx, ∃ r : ℝ, 0 ≤ r ∧ dinv j = (r : EReal))
    (hcol : ∀ (e : Fin 800000) (i : Fin 50000), (col (ix1 e)).toInt = (i.val : Int) → src colN e = i) :
    aggK x dinv rowN col = aggR x dinv rowN colN col := by
  funext i c
  unfold aggK aggR
  obtain ⟨r, hr, hdi⟩ := hd (ix1 i)
  rw [hdi, sum_mul_coe _ _ r hr]
  refine Finset.sum_congr rfl fun e he => ?_
  have hi : src colN e = i := hcol e i (by simpa [tgt] using he)
  rw [hi, hdi, mul_assoc]

theorem stepK_eq_stepR (x : SX.Idx → EReal) (dinv : SN.Idx → EReal) (rowN colN col : IVec SE 32) (W0 W1 : SW.Idx → EReal) (k : Fin 5)
    (hd : ∀ j : SN.Idx, ∃ r : ℝ, 0 ≤ r ∧ dinv j = (r : EReal))
    (hcol : ∀ (e : Fin 800000) (i : Fin 50000), (col (ix1 e)).toInt = (i.val : Int) → src colN e = i) :
    stepK x dinv rowN col W0 W1 k = stepR x dinv rowN colN col W0 W1 k := by
  unfold stepK stepR; rw [aggK_eq_aggR x dinv rowN colN col hd hcol]

theorem iterK_eq_iterR (x : SX.Idx → EReal) (dinv : SN.Idx → EReal) (rowN colN col : IVec SE 32) (W0 W1 : SW.Idx → EReal)
    (hd : ∀ j : SN.Idx, ∃ r : ℝ, 0 ≤ r ∧ dinv j = (r : EReal))
    (hcol : ∀ (e : Fin 800000) (i : Fin 50000), (col (ix1 e)).toInt = (i.val : Int) → src colN e = i) :
    iterK x dinv rowN col W0 W1 = iterR x dinv rowN colN col W0 W1 := by
  unfold iterK iterR
  simp only [stepK_eq_stepR _ dinv rowN colN col W0 W1 _ hd hcol]

/-! ## The inverse square-root degree is a nonnegative real, whatever the degree -/

/-- `deg > 0 ? rsqrt (deg > 0 ? deg : one) : 0` is a nonnegative real for every extended real `deg`: a positive real
    degree gives the real `1 / √deg`, an infinite one gives `0`, and any other the constant `0`. -/
theorem dinv_real (d one : EReal) :
    ∃ r : ℝ, 0 ≤ r ∧ Scalar.select (Ideal.cmp .ogt d 0) (Ideal.rsqrt (Scalar.select (Ideal.cmp .ogt d 0) d one)) (0 : EReal) = (r : EReal) := by
  by_cases h : (0 : EReal) < d
  · have hc : Ideal.cmp .ogt d 0 = 1#1 := by simp [Ideal.cmp, h]
    rw [hc, select_one, select_one]
    induction d using EReal.rec with
    | bot => exact absurd h (by simp)
    | top => exact ⟨0, le_refl _, by simp⟩
    | coe a =>
      have ha : 0 < a := by exact_mod_cast h
      refine ⟨(Real.sqrt a)⁻¹, inv_nonneg.mpr (Real.sqrt_nonneg a), ?_⟩
      rw [Ideal.rsqrt_coe, if_neg (not_lt.mpr ha.le), if_neg ha.ne']
  · have hc : Ideal.cmp .ogt d 0 = 0#1 := by simp [Ideal.cmp, h]
    rw [hc, select_zero]
    exact ⟨0, le_refl _, by simp⟩

end Cert.Tag

end
-- ==== Proof.LibRowIndex.lean ====
/-
  A row gather and a row scatter-add, read at an index.

  A matrix `x : [N, C]` gathered at a column of row numbers `idx : [E, 1]` gives the matrix whose row `e` is the
  row of `x` numbered `idx[e, 0]` (read signed and clamped into `[0, N - 1]`).  Scatter-adding the rows of
  `upd : [E, C]` into `x` at those row numbers adds to every row `n` of `x` the rows of `upd` whose row number,
  read signed and not clamped, is `n`; a row number outside `[0, N)` contributes nothing.
-/
import Idealize.ShloMosaic.PureOps.Ideal
import Idealize.ShloMosaic.Lib.ValueIdx

noncomputable section

open scoped BigOperators

namespace Cert.GNN.RowIndex

open Idealize.ShloMosaic Idealize.ShloMosaic.ValueIdx

/-! ## The gather of rows -/

section Gather
variable {α : Type}

/-- The dimension numbers of a row gather: operand `[N, C]`, start indices `[E, 1]` (the index vector on axis 1,
    of length one, naming operand axis 0), result `[E, C]` whose axis 1 is the offset axis over slices `[1, C]`
    with operand axis 0 collapsed. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]` (read signed, clamped into `[0, N - 1]`),
    column `k`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        (by decide : (1 : Fin 2) ∉ [(0 : Fin 2)]))]
    rw [hs]
    have hk : (1 : Fin 2) ∈ (rowGatherDims N E C wf).sKept :=
      (GatherDims.mem_sKept _ _).mpr ⟨(by decide : (1 : Fin 2) ∉ [(0 : Fin 2)]), List.not_mem_nil⟩
    unfold GatherDims.offCoord
    rw [dif_pos hk]
    simp only [Nat.zero_add, Nat.add_zero]
    rfl

/-- The row gather at an in-range row number: if `idx[e, 0]`, read signed, is the row number `r`, the result's
    row `e` is the operand's row `r`. -/
theorem gather_row_apply_of_eq {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (h : (idx (ix2 e (0 : Fin 1))).toInt = (r.val : Int)) :
    Host.gather (rowGatherDims N E C wf) x idx (ix2 e k) = x (ix2 r k) := by
  have hN : 0 < N := Nat.lt_of_le_of_lt (Nat.zero_le _) r.isLt
  rw [gather_row_apply hN wf x idx e k]
  congr 2
  refine Fin.ext ?_
  show min (idx (ix2 e (0 : Fin 1))).toInt.toNat (N - 1) = r.val
  rw [h]
  have := r.isLt
  simp only [Int.toNat_natCast]
  omega

end Gather

/-! ## The scatter-add of rows -/

section Scatter

/-- The dimension numbers of a row scatter: operand `[N, C]`, scatter indices `[E, 1]` (the index vector on axis 1,
    of length one, naming operand axis 0), updates `[E, C]` whose axis 1 is the window axis, operand axis 0
    inserted. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `j` starts at the row number `idx[j 0, 0]`, read signed. -/
theorem start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`. -/
theorem start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    (by decide : (1 : Fin 2) ∉ [(0 : Fin 2)]))]

/-- The row axis is inserted: no window coordinate. -/
theorem window_row (j : (⟨2, ![E, C]⟩ : Shape).Idx) : (rowScatterDims N E C wf).window j 0 = 0 := by
  unfold ScatterDims.window
  rw [dif_neg (show ¬ (0 : Fin 2) ∈ (rowScatterDims N E C wf).sKept from
    (by decide : (0 : Fin 2) ∉ (List.finRange 2).filter (fun a => a ∉ [(0 : Fin 2)])))]

/-- The column axis carries the update's column. -/
theorem window_col (j : (⟨2, ![E, C]⟩ : Shape).Idx) : (rowScatterDims N E C wf).window j 1 = (j 1).val := by
  unfold ScatterDims.window
  rw [dif_pos (show (1 : Fin 2) ∈ (rowScatterDims N E C wf).sKept from
    (by decide : (1 : Fin 2) ∈ (List.finRange 2).filter (fun a => a ∉ [(0 : Fin 2)])))]
  rfl

/-- Update `j` lands at `(n, c)` exactly when its row number, read signed, is `n` and its column is `c`. -/
theorem resultIdx?_row_eq_some_iff (idx : IVec ⟨2, ![E, 1]⟩ w) (j : (⟨2, ![E, C]⟩ : Shape).Idx) (n : Fin N) (c : Fin C) :
    (rowScatterDims N E C wf).resultIdx? j idx = some (ix2 n c) ↔
      (idx (ix2 (j 0) (0 : Fin 1))).toInt = (n.val : Int) ∧ j 1 = c := by
  unfold ScatterDims.resultIdx?
  constructor
  · intro h
    split at h
    · rename_i hh
      have h' := Option.some.inj h
      have h0 : ((rowScatterDims N E C wf).start j idx 0 + ((rowScatterDims N E C wf).window j 0 : Int)).toNat = n.val :=
        congrArg (fun f => (f 0).val) h'
      have h1 : ((rowScatterDims N E C wf).start j idx 1 + ((rowScatterDims N E C wf).window j 1 : Int)).toNat = c.val :=
        congrArg (fun f => (f 1).val) h'
      have hh0 := (hh 0).1
      rw [start_row, window_row] at h0 hh0
      rw [start_col, window_col] at h1
      refine ⟨by omega, Fin.ext (by omega)⟩
    · exact absurd h (by simp)
  · rintro ⟨h0, h1⟩
    have hn := n.isLt
    have hc := c.isLt
    have hj1 : (j 1).val = c.val := congrArg Fin.val h1
    rw [dif_pos]
    · congr 1
      funext a
      refine Fin.ext ?_
      match a with
      | ⟨0, _⟩ =>
        show ((rowScatterDims N E C wf).start j idx 0 + ((rowScatterDims N E C wf).window j 0 : Int)).toNat = n.val
        rw [start_row, window_row, h0]; omega
      | ⟨1, _⟩ =>
        show ((rowScatterDims N E C wf).start j idx 1 + ((rowScatterDims N E C wf).window j 1 : Int)).toNat = c.val
        rw [start_col, window_col, hj1]; omega
    · intro a
      match a with
      | ⟨0, _⟩ =>
        show 0 ≤ (rowScatterDims N E C wf).start j idx 0 + ((rowScatterDims N E C wf).window j 0 : Int) ∧
          (rowScatterDims N E C wf).start j idx 0 + ((rowScatterDims N E C wf).window j 0 : Int) < (N : Int)
        rw [start_row, window_row, h0]; omega
      | ⟨1, _⟩ =>
        show 0 ≤ (rowScatterDims N E C wf).start j idx 1 + ((rowScatterDims N E C wf).window j 1 : Int) ∧
          (rowScatterDims N E C wf).start j idx 1 + ((rowScatterDims N E C wf).window j 1 : Int) < (C : Int)
        rw [start_col, window_col, hj1]; omega

/-- THE ROW SCATTER-ADD READ AT `(n, d)`: the operand's element plus the column-`d` elements of the update rows
    whose row number, read signed, is `n`. -/
theorem scatterAdd_row_apply (x : (⟨2, ![N, C]⟩ : Shape).Idx → EReal) (idx : IVec ⟨2, ![E, 1]⟩ w)
    (upd : (⟨2, ![E, C]⟩ : Shape).Idx → EReal) (n : Fin N) (d : Fin C) :
    Ideal.hostScatterAdd (rowScatterDims N E C wf) x idx upd (ix2 n d)
      = x (ix2 n d) + ∑ e ∈ Finset.univ.filter (fun e : Fin E => (idx (ix2 e (0 : Fin 1))).toInt = (n.val : Int)),
          upd (ix2 e d) := by
  unfold Ideal.hostScatterAdd
  congr 1
  rw [Finset.sum_filter, sum_idx2, Finset.sum_filter]
  refine Finset.sum_congr rfl (fun e _ => ?_)
  have hstep : ∀ b : Fin C,
      (if (rowScatterDims N E C wf).resultIdx? (ix2 e b) idx = some (ix2 n d) then upd (ix2 e b) else 0)
        = if d = b then (if (idx (ix2 e (0 : Fin 1))).toInt = (n.val : Int) then upd (ix2 e d) else 0) else 0 := by
    intro b
    by_cases hb : d = b
    · subst hb
      rw [if_pos rfl]
      refine if_congr ?_ rfl rfl
      rw [resultIdx?_row_eq_some_iff]
      exact ⟨fun h => h.1, fun h => ⟨h, rfl⟩⟩
    · rw [if_neg hb, if_neg]
      rw [resultIdx?_row_eq_some_iff]
      exact fun h => hb h.2.symm
  rw [Finset.sum_congr rfl (fun b _ => hstep b), Finset.sum_ite_eq]
  simp only [Finset.mem_univ, if_true]

/-- The same for `Host.scatterAdd` at the exact instance, which is that sum by definition. -/
theorem host_scatterAdd_row_apply {φ : FTy} (x : FVec Ideal ⟨2, ![N, C]⟩ φ) (idx : IVec ⟨2, ![E, 1]⟩ w)
    (upd : FVec Ideal ⟨2, ![E, C]⟩ φ) (n : Fin N) (d : Fin C) :
    Host.scatterAdd (rowScatterDims N E C wf) x idx upd (ix2 n d)
      = x (ix2 n d) + ∑ e ∈ Finset.univ.filter (fun e : Fin E => (idx (ix2 e (0 : Fin 1))).toInt = (n.val : Int)),
          upd (ix2 e d) :=
  scatterAdd_row_apply wf x idx upd n d

end Scatter

end Cert.GNN.RowIndex

end
-- ==== Proof.LibStackedRow.lean ====
/-
  Reading layout operations at an index: row `l` of a stacked parameter array (a unit-stride slice
  `[l : l+1, s : s+B, 0 : C]` of a `[L, A, C]` array, reshaped to `[B, C]`), a vector reshaped to a one-row
  matrix, and a concatenation of two matrices along either axis.
-/
import Idealize.ShloMosaic.Lib.Pipeline.Value
import Idealize.ShloMosaic.Lib.ValueIdx

noncomputable section

namespace Cert.Layout

open Idealize.ShloMosaic Idealize.ShloMosaic.ValueIdx

variable {α : Type}

/-- Rows `s … s+B-1` of layer `l` of a stacked `[L, A, C]` array, as a `[B, C]` matrix: entry `(q, k)` is the
    stacked array's entry `(l, s + q, k)`. -/
theorem stacked_rows {L A B C : Nat} (x : (⟨3, ![L, A, C]⟩ : Shape).Idx → α) (l s : Nat)
    (h : (⟨3, ![L, A, C]⟩ : Shape).Slices ![l, s, 0] ⟨3, ![1, B, C]⟩)
    (h' : (⟨3, ![1, B, C]⟩ : Shape).ShapeCasts ⟨2, ![B, C]⟩)
    (q : Fin B) (k : Fin C) (hl : l < L) (hq : s + q.val < A) :
    shapeCast (⟨2, ![B, C]⟩ : Shape) (extractStridedSlice (⟨3, ![1, B, C]⟩ : Shape) ![l, s, 0] x h) h' (ix2 q k)
      = x (ix3 ⟨l, hl⟩ ⟨s + q.val, hq⟩ k) := by
  refine (shapeCast_apply _ h' (ix2 q k) (ix3 (0 : Fin 1) q k) ?_).trans ?_
  · rw [Shape.rowMajor_val_three, Shape.rowMajor_val_two]
    show (0 * B + q.val) * C + k.val = q.val * C + k.val
    rw [Nat.zero_mul, Nat.zero_add]
  · exact extractStridedSlice_apply _ x h (ix3 (0 : Fin 1) q k) (ix3 ⟨l, hl⟩ ⟨s + q.val, hq⟩ k) (fun a => match a with
      | ⟨0, _⟩ => by show l = l + 0; omega
      | ⟨1, _⟩ => by show s + q.val = s + q.val; rfl
      | ⟨2, _⟩ => by show k.val = 0 + k.val; omega)

/-- Row `s` of layer `l` of a stacked `[L, A, C]` array as a one-row matrix `[1, C]`. -/
theorem stacked_row {L A C : Nat} (x : (⟨3, ![L, A, C]⟩ : Shape).Idx → α) (l s : Nat)
    (h : (⟨3, ![L, A, C]⟩ : Shape).Slices ![l, s, 0] ⟨3, ![1, 1, C]⟩)
    (h' : (⟨3, ![1, 1, C]⟩ : Shape).ShapeCasts ⟨2, ![1, C]⟩)
    (k : Fin C) (hl : l < L) (hs : s < A) :
    shapeCast (⟨2, ![1, C]⟩ : Shape) (extractStridedSlice (⟨3, ![1, 1, C]⟩ : Shape) ![l, s, 0] x h) h' (ix2 (0 : Fin 1) k)
      = x (ix3 ⟨l, hl⟩ ⟨s, hs⟩ k) := by
  refine (shapeCast_apply _ h' (ix2 (0 : Fin 1) k) (ix3 (0 : Fin 1) (0 : Fin 1) k) ?_).trans ?_
  · rw [Shape.rowMajor_val_three, Shape.rowMajor_val_two]
    show (0 * 1 + 0) * C + k.val = 0 * C + k.val
    omega
  · exact extractStridedSlice_apply _ x h (ix3 (0 : Fin 1) (0 : Fin 1) k) (ix3 ⟨l, hl⟩ ⟨s, hs⟩ k) (fun a => match a with
      | ⟨0, _⟩ => by show l = l + 0; omega
      | ⟨1, _⟩ => by show s = s + 0; omega
      | ⟨2, _⟩ => by show k.val = 0 + k.val; omega)

/-- Layer `l` of a stacked `[L, C]` array of vectors, as a vector `[C]`. -/
theorem stacked_vec {L C : Nat} (x : (⟨2, ![L, C]⟩ : Shape).Idx → α) (l : Nat)
    (h : (⟨2, ![L, C]⟩ : Shape).Slices ![l, 0] ⟨2, ![1, C]⟩)
    (h' : (⟨2, ![1, C]⟩ : Shape).ShapeCasts ⟨1, ![C]⟩)
    (k : Fin C) (hl : l < L) :
    shapeCast (⟨1, ![C]⟩ : Shape) (extractStridedSlice (⟨2, ![1, C]⟩ : Shape) ![l, 0] x h) h' (ix1 k)
      = x (ix2 ⟨l, hl⟩ k) := by
  refine (shapeCast_apply _ h' (ix1 k) (ix2 (0 : Fin 1) k) ?_).trans ?_
  · rw [Shape.rowMajor_val_two, Shape.rowMajor_val_one]
    show 0 * C + k.val = k.val
    omega
  · exact extractStridedSlice_apply _ x h (ix2 (0 : Fin 1) k) (ix2 ⟨l, hl⟩ k) (fun a => match a with
      | ⟨0, _⟩ => by show l = l + 0; omega
      | ⟨1, _⟩ => by show k.val = 0 + k.val; omega)

/-- A vector reshaped to a one-row matrix: entry `(0, k)` is the vector's entry `k`. -/
theorem vec_as_row {C : Nat} (y : (⟨1, ![C]⟩ : Shape).Idx → α) (h : (⟨1, ![C]⟩ : Shape).ShapeCasts ⟨2, ![1, C]⟩) (k : Fin C) :
    shapeCast (⟨2, ![1, C]⟩ : Shape) y h (ix2 (0 : Fin 1) k) = y (ix1 k) := by
  refine shapeCast_apply _ h (ix2 (0 : Fin 1) k) (ix1 k) ?_
  rw [Shape.rowMajor_val_two, Shape.rowMajor_val_one]
  show k.val = 0 * C + k.val
  omega

end Cert.Layout

end
-- ==== Proof.Edges.lean ====
/-
  The edge operations and the weight slices of the graph convolution, read at an index.

  Gathering the rows of a node matrix at an edge list gives, in row `e`, the node row the list names at `e`;
  scatter-adding edge rows into the zero matrix at an edge list gives, in row `i`, the sum of the rows of the edges
  whose entry is `i`.  A vector laid as a column, a column repeated along the rows, and slice `k` of a stack of
  `[256, 256]` weights (transposed before or after slicing) are read entry by entry.
-/
import proofs.«141509_j41120016892381_2_alg».proof.Proof.Spec
import proofs.«141509_j41120016892381_2_alg».proof.Proof.LibRowIndex
import proofs.«141509_j41120016892381_2_alg».proof.Proof.LibStackedRow
import Idealize.ShloMosaic.Lib.Pipeline.Value
import Idealize.ShloMosaic.PureOps.Ideal.Laws

noncomputable section

open scoped BigOperators

namespace Cert.Tag

open Idealize.ShloMosaic Idealize.ShloMosaic.ValueIdx Cert.GNN.RowIndex

abbrev SE1 : Shape := ⟨2, ![800000, 1]⟩
abbrev SEX : Shape := ⟨2, ![800000, 256]⟩
abbrev S0 : Shape := ⟨0, ![]⟩
abbrev S1DD : Shape := ⟨3, ![1, 256, 256]⟩

variable {α : Type}

/-- An edge vector laid as a one-column matrix reads, at `(e, u)`, the vector at `e`. -/
theorem edgeCol_apply (h : SE.BroadcastsInDim SE1 (![0] : Fin 1 → Fin 2)) (v : SE.Idx → α) (e : Fin 800000) (u : Fin 1) :
    broadcastInDim SE1 ![0] h v (ix2 e u) = v (ix1 e) :=
  broadcastInDim_apply _ h v (ix2 e u) (ix1 e) (fun a => match a with
    | ⟨0, _⟩ => by
      show e.val = if (800000 : Nat) = 1 then 0 else e.val
      rw [if_neg (by decide)])

/-- A node vector laid as a one-column matrix reads, at `(i, u)`, the vector at `i`. -/
theorem nodeCol_apply (h : SN.BroadcastsInDim SN1 (![0] : Fin 1 → Fin 2)) (v : SN.Idx → α) (i : Fin 50000) (u : Fin 1) :
    broadcastInDim SN1 ![0] h v (ix2 i u) = v (ix1 i) :=
  broadcastInDim_apply _ h v (ix2 i u) (ix1 i) (fun a => match a with
    | ⟨0, _⟩ => by
      show i.val = if (50000 : Nat) = 1 then 0 else i.val
      rw [if_neg (by decide)])

/-- A one-column edge matrix repeated along the rows reads, at `(e, c)`, the column at `e`. -/
theorem edgeRep_apply (h : SE1.BroadcastsInDim SEX (![0, 1] : Fin 2 → Fin 2)) (v : SE1.Idx → α) (e : Fin 800000) (c : Fin 256) :
    broadcastInDim SEX ![0, 1] h v (ix2 e c) = v (ix2 e (0 : Fin 1)) :=
  broadcastInDim_apply _ h v (ix2 e c) (ix2 e (0 : Fin 1)) (fun a => match a with
    | ⟨0, _⟩ => by
      show e.val = if (800000 : Nat) = 1 then 0 else e.val
      rw [if_neg (by decide)]
    | ⟨1, _⟩ => by
      show 0 = if (1 : Nat) = 1 then 0 else c.val
      rw [if_pos rfl])

/-- A one-column node matrix repeated along the rows reads, at `(i, c)`, the column at `i`. -/
theorem nodeRep_apply (h : SN1.BroadcastsInDim SX (![0, 1] : Fin 2 → Fin 2)) (v : SN1.Idx → α) (i : Fin 50000) (c : Fin 256) :
    broadcastInDim SX ![0, 1] h v (ix2 i c) = v (ix2 i (0 : Fin 1)) :=
  broadcastInDim_apply _ h v (ix2 i c) (ix2 i (0 : Fin 1)) (fun a => match a with
    | ⟨0, _⟩ => by
      show i.val = if (50000 : Nat) = 1 then 0 else i.val
      rw [if_neg (by decide)]
    | ⟨1, _⟩ => by
      show 0 = if (1 : Nat) = 1 then 0 else c.val
      rw [if_pos rfl])

/-- The rows of `x` gathered at the edge list `idx`: row `e` is the row of `x` at the node `idx` names at `e`. -/
theorem gatherRows_apply {wf} (G : GatherDims SX SE1 SEX) (hG : G = rowGatherDims 50000 800000 256 wf)
    (h : SE.BroadcastsInDim SE1 (![0] : Fin 1 → Fin 2)) (x : SX.Idx → α) (idx : IVec SE 32) (e : Fin 800000) (c : Fin 256) :
    Host.gather G x (broadcastInDim SE1 ![0] h idx) (ix2 e c) = x (ix2 (src idx e) c) := by
  subst hG
  rw [gather_row_apply (by decide : 0 < 50000) wf]
  refine congrArg (fun r => x (ix2 r c)) (Fin.ext ?_)
  show min (broadcastInDim SE1 ![0] h idx (ix2 e (0 : Fin 1))).toInt.toNat (50000 - 1) = min (idx (ix1 e)).toInt.toNat 49999
  rw [edgeCol_apply h idx e 0]

/-- Edge rows `upd` scatter-added into the zero matrix at the edge list `col`: row `i` is the sum of the rows of the
    edges whose entry, read signed, is `i`. -/
theorem scatterRows_apply {wf} (S : ScatterDims SX SE1 SEX) (hS : S = rowScatterDims 50000 800000 256 wf)
    (h : SE.BroadcastsInDim SE1 (![0] : Fin 1 → Fin 2)) (hz : S0.BroadcastsInDim SX (![] : Fin 0 → Fin 2))
    (col : IVec SE 32) (upd : FVec Ideal SEX .f32) (i : Fin 50000) (c : Fin 256) :
    Host.scatterAdd S (broadcastInDim SX ![] hz (constant (F := Ideal) S0 .f32 0x00000000#32)) (broadcastInDim SE1 ![0] h col) upd (ix2 i c)
      = ∑ e ∈ tgt col i, upd (ix2 e c) := by
  subst hS
  rw [host_scatterAdd_row_apply]
  have hzero : broadcastInDim SX ![] hz (constant (F := Ideal) S0 .f32 0x00000000#32) (ix2 i c) = 0 := by
    rw [broadcastInDim_apply _ hz _ _ ix0 (fun a => a.elim0)]
    exact Ideal.ofBits_zero_f32
  rw [hzero, zero_add]
  unfold tgt
  refine Finset.sum_congr (Finset.filter_congr fun e _ => ?_) fun _ _ => rfl
  rw [edgeCol_apply h col e 0]

/-- Slice `k` of the stack transposed on its last two axes, as a `[256, 256]` matrix: entry `(c, q)` is the stack's
    entry `(k, q, c)`. -/
theorem weightT_apply (W : SW.Idx → α) (k : Nat) (hk : k < 5) (htr : SW.Transposes [0, 2, 1] SW)
    (hsl : SW.Slices ![k, 0, 0] S1DD) (hsc : S1DD.ShapeCasts SD) (c q : Fin 256) :
    shapeCast SD (extractStridedSlice S1DD ![k, 0, 0] (transpose SW [0, 2, 1] W htr) hsl) hsc (ix2 c q)
      = W (ix3 (⟨k, hk⟩ : Fin 5) q c) := by
  rw [Cert.Layout.stacked_rows (transpose SW [0, 2, 1] W htr) k 0 hsl hsc c q hk (by have := c.isLt; omega)]
  refine transpose_apply [0, 2, 1] W htr _ (ix3 (⟨k, hk⟩ : Fin 5) q c) (fun b => ?_)
  match b with
  | ⟨0, _⟩ => rfl
  | ⟨1, _⟩ => show c.val = 0 + c.val; omega
  | ⟨2, _⟩ => rfl

/-- Slice `k` of the stack as a `[256, 256]` matrix, then transposed: entry `(c, q)` is the stack's entry `(k, q, c)`. -/
theorem sliceT_apply (W : SW.Idx → α) (k : Nat) (hk : k < 5) (hsl : SW.Slices ![k, 0, 0] S1DD) (hsc : S1DD.ShapeCasts SD)
    (htr : SD.Transposes [1, 0] SD) (c q : Fin 256) :
    transpose SD [1, 0] (shapeCast SD (extractStridedSlice S1DD ![k, 0, 0] W hsl) hsc) htr (ix2 c q)
      = W (ix3 (⟨k, hk⟩ : Fin 5) q c) := by
  refine (transpose_apply [1, 0] _ htr (ix2 c q) (ix2 q c) (fun b => ?_)).trans ?_
  · match b with
    | ⟨0, _⟩ => rfl
    | ⟨1, _⟩ => rfl
  · rw [Cert.Layout.stacked_rows W k 0 hsl hsc q c hk (by have := q.isLt; omega)]
    refine congrArg W (funext fun a => Fin.ext ?_)
    match a with
    | ⟨0, _⟩ => rfl
    | ⟨1, _⟩ => show 0 + q.val = q.val; omega
    | ⟨2, _⟩ => rfl

end Cert.Tag

end
-- ==== Proof.KValueDefs.lean ====
/-
  The edge and degree terms of the graph convolution, as the program computes them, and their readings at an index.

  From the edge array `[2, 800000]` the program takes its two rows (the sources `row` and the targets `col`), moves a
  negative source up by the number of nodes (`rowN`), counts into `deg` how many edges name each node as target, and
  takes `dinv = deg > 0 ? 1 / √(deg > 0 ? deg : 1) : 0`.  The raw aggregate of a node matrix adds into node `i` the
  matrix's rows at the sources of the edges whose target is `i`; the weights of step `k` are slice `k` of the
  stacked weights with the last two axes exchanged.  Each reading below says what one of these arrays holds at an
  index, as a plain sum or product over the extended reals.
-/
import proofs.«141509_j41120016892381_2_alg».proof.Proof.Gen.KernelIdeal
import proofs.«141509_j41120016892381_2_alg».proof.Proof.Spec
import proofs.«141509_j41120016892381_2_alg».proof.Proof.LibRowIndex
import proofs.«141509_j41120016892381_2_alg».proof.Proof.LibStackedRow
import proofs.«141509_j41120016892381_2_alg».proof.Proof.Edges

noncomputable section

open scoped BigOperators

namespace Cert.KernelIdeal.KValue

open Cert.KernelIdeal Cert.KernelIdeal.Gen
open Idealize.ShloMosaic Idealize.ShloMosaic.ValueIdx

/-- The sources: row 0 of the edge array. -/
def row (a1 : (⟨S2x800000, .i32⟩ : BufTy).Contents (Elt Ideal)) : IVec Cert.Tag.SE 32 :=
  shapeCast S800000 (extractStridedSlice S1x800000 ![0, 0] a1 slices_S2x800000_S1x800000_0_0) shapeCasts_S1x800000_S800000

/-- The targets: row 1 of the edge array. -/
def col (a1 : (⟨S2x800000, .i32⟩ : BufTy).Contents (Elt Ideal)) : IVec Cert.Tag.SE 32 :=
  shapeCast S800000 (extractStridedSlice S1x800000 ![1, 0] a1 slices_S2x800000_S1x800000_1_0) shapeCasts_S1x800000_S800000

/-- A negative entry moved up by the number of nodes. -/
def rowNOf (r : IVec S800000 32) : IVec S800000 32 :=
  select (cmpi .slt r (broadcastInDim S800000 ![] bcast_S_S800000 (constantI S_ 32 0#32)))
    (addi r (broadcastInDim S800000 ![] bcast_S_S800000 (constantI S_ 32 50000#32))) r

/-- The sources, negative entries moved up. -/
def rowN (a1 : (⟨S2x800000, .i32⟩ : BufTy).Contents (Elt Ideal)) : IVec Cert.Tag.SE 32 := rowNOf (row a1)

/-- The degree: one added into a node for every edge that names it as target. -/
def deg (a1 : (⟨S2x800000, .i32⟩ : BufTy).Contents (Elt Ideal)) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 (col a1))
    (broadcastInDim S800000 ![] bcast_S_S800000 (constant (F := Ideal) S_ .f32 0x3F800000#32))

/-- The inverse square-root degree, `0` where the degree is not positive. -/
def dinv (a1 : (⟨S2x800000, .i32⟩ : BufTy).Contents (Elt Ideal)) : Cert.Tag.SN.Idx → EReal :=
  select (cmpf .ogt (deg a1) (broadcastInDim S50000 ![] bcast_S_S50000 (constant (F := Ideal) S_ .f32 0x00000000#32)))
    (Host.rsqrt (select (cmpf .ogt (deg a1) (broadcastInDim S50000 ![] bcast_S_S50000 (constant (F := Ideal) S_ .f32 0x00000000#32)))
      (deg a1) (broadcastInDim S50000 ![] bcast_S_S50000 (constant (F := Ideal) S_ .f32 0x3F800000#32))))
    (broadcastInDim S50000 ![] bcast_S_S50000 (constant (F := Ideal) S_ .f32 0x00000000#32))

/-- A vector of the nodes as a one-column matrix. -/
def dcol (d : FVec Ideal S50000 .f32) : FVec Ideal S50000x1 .f32 :=
  broadcastInDim S50000x1 ![0] bcast_S50000_S50000x1_0 d

/-- The stacked weights with the last two axes exchanged. -/
def wT (W : FVec Ideal S5x256x256 .f32) : FVec Ideal S5x256x256 .bf16 :=
  truncf .bf16 (transpose S5x256x256 [0, 2, 1] W transposes_S5x256x256_S5x256x256_0_2_1) bitsLt_bf16_f32

/-- Slice `l` of stacked matrices, as a matrix. -/
def wslice (l : Nat) (h : S5x256x256.Slices ![l, 0, 0] S1x256x256) (T : FVec Ideal S5x256x256 .bf16) : FVec Ideal S256x256 .bf16 :=
  shapeCast S256x256 (extractStridedSlice S1x256x256 ![l, 0, 0] T h) shapeCasts_S1x256x256_S256x256

/-- A node matrix with row `i` scaled by entry `i` of a one-column matrix. -/
def scaled (x : FVec Ideal S50000x256 .f32) (d2 : FVec Ideal S50000x1 .f32) : FVec Ideal S50000x256 .bf16 :=
  truncf .bf16 (mulf x (broadcastInDim S50000x256 ![0, 1] bcast_S50000x1_S50000x256_0_1 d2)) bitsLt_bf16_f32

/-- The raw aggregate: into node `i` the rows of `xn` at the sources of the edges whose target is `i`. -/
def rawAgg (xn : FVec Ideal S50000x256 .bf16) (r c : IVec S800000 32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 c)
    (extf .f32 (Host.gather gather_S50000x256_S800000x1_S800000x256_1_0_n_n_0_1_1256 xn
      (broadcastInDim S800000x1 ![0] bcast_S800000_S800000x1_0 (rowNOf r))) bitsLt_bf16_f32)

/-! ## The readings -/

/-- The one-column matrix of a node vector reads the vector's entry. -/
theorem dcol_apply (d : FVec Ideal S50000 .f32) (i : Fin 50000) : dcol d (ix2 i (0 : Fin 1)) = d (ix1 i) :=
  broadcastInDim_apply _ _ d (ix2 i (0 : Fin 1)) (ix1 i) fun a => match a with
    | ⟨0, _⟩ => rfl

/-- The scaled matrix at `(i, q)`: the entry times the column's entry `i`. -/
theorem scaled_apply (x : FVec Ideal S50000x256 .f32) (d2 : FVec Ideal S50000x1 .f32) (i : Fin 50000) (q : Fin 256) :
    scaled x d2 (ix2 i q) = x (ix2 i q) * d2 (ix2 i (0 : Fin 1)) := by
  unfold scaled
  rw [truncf_apply, mulf_apply]
  refine congrArg (x (ix2 i q) * ·) ?_
  exact broadcastInDim_apply _ _ d2 (ix2 i q) (ix2 i (0 : Fin 1)) fun a => match a with
    | ⟨0, _⟩ => rfl
    | ⟨1, _⟩ => rfl

/-- Slice `l` of the exchanged weights at `(c, q)`: the stacked weights at `(l, q, c)`. -/
theorem wslice_apply (W : FVec Ideal S5x256x256 .f32) (l : Nat) (hl : l < 5) (h : S5x256x256.Slices ![l, 0, 0] S1x256x256)
    (c q : Fin 256) : wslice l h (wT W) (ix2 c q) = W (ix3 (⟨l, hl⟩ : Fin 5) q c) := by
  unfold wslice
  refine (Cert.Layout.stacked_rows (L := 5) (A := 256) (B := 256) (C := 256) (wT W) l 0 h shapeCasts_S1x256x256_S256x256 c q hl
    (by have := c.isLt; omega)).trans ?_
  unfold wT
  rw [truncf_apply]
  exact transpose_apply _ W _ _ (ix3 (⟨l, hl⟩ : Fin 5) q c) fun b => match b with
    | ⟨0, _⟩ => rfl
    | ⟨1, _⟩ => by show c.val = 0 + c.val; omega
    | ⟨2, _⟩ => rfl

/-- THE RAW AGGREGATE AT `(i, q)`: the sum, over the edges whose target is `i`, of `xn` at the edge's source, column `q`. -/
theorem rawAgg_apply (xn : FVec Ideal S50000x256 .bf16) (r c : IVec S800000 32) (i : Fin 50000) (q : Fin 256) :
    rawAgg xn r c (ix2 i q) = ∑ e ∈ Cert.Tag.tgt c i, xn (ix2 (Cert.Tag.src (rowNOf r) e) q) := by
  unfold rawAgg
  refine (Cert.Tag.scatterRows_apply _ rfl _ _ c _ i q).trans ?_
  refine Finset.sum_congr rfl fun e _ => ?_
  rw [extf_apply]
  exact Cert.Tag.gatherRows_apply _ rfl _ xn (rowNOf r) e q

end Cert.KernelIdeal.KValue

end
-- ==== Proof.LibFoldSteps.lean ====
/-
  A straight-line program in single-assignment form, read one operation at a time at the END valuation.

  A line of operations runs from given buffer contents; each operation rewrites the one buffer it writes, as a
  function of the contents of its operand buffers at that moment, and leaves every other buffer alone. Suppose each
  buffer is written by at most one operation of the line, and an operation's operands are written before it (or not
  at all). Then an operand is never written again after the operation has read it, and neither is the operation's
  own result: so at the END of the line the operation's buffer holds its function of the END contents of its
  operands. That is one equation per operation about one and the same valuation — the contents after the whole
  line — and the end contents of every buffer follow in program order, each from the equations of its operands; no
  composed term is ever built.

  The line is a list `ops`; `wrs` names, in order, the buffer each operation writes (one fact, `hw`, ties the two
  lists together), and "not written from the `k`-th operation on" is non-membership in `wrs.drop k`, decided over the
  references. `step_nullary … step_ternary` are the equation for an operation of zero to three operands, given which
  operation stands at position `k`. The variants `step_nullaryT … step_ternaryT` are the same for the operations of a
  called function, which carry each buffer with the type of the value it holds and move contents between that type and
  the buffer's own along the equation of the two: at a literal buffer that equation is `rfl`, the moves are the
  identity, and the variants' conclusion is the operation's own function at the operands' end contents, with no
  move left in it.
-/
import Idealize.ShloMosaic.Lib.StableHlo.Run

noncomputable section

namespace Cert.LibFoldSteps

open Idealize.ShloMosaic Idealize.ShloMosaic.TcCoe Idealize.SL.Sem Idealize.ShloMosaic.StableHlo

section General

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {ops : List (HloOp τ sig Val)} {wrs : List (Ref sig .tc)}

/-- A buffer that none of the operations from the `k`-th on writes keeps its contents through them: `wrs` names, in
    order, the one buffer each operation writes. -/
theorem after_drop_frame (hw : ops.map HloOp.writes = wrs.map fun r => ({Proc.devRef .tc r} : Finset (DevRef τ sig)))
    (k : ℕ) (X : Valuation τ sig Val) (r : Ref sig .tc) (hr : r ∉ wrs.drop k) :
    after (ops.drop k) X (Proc.devRef .tc r) = X (Proc.devRef .tc r) := by
  refine after_of_forall_not_mem _ X fun op hop hmem => hr ?_
  have h1 : op.writes ∈ ((ops.map HloOp.writes).drop k) := by
    rw [← List.map_drop]; exact List.mem_map_of_mem hop
  rw [hw, ← List.map_drop] at h1
  obtain ⟨r', hr', he⟩ := List.mem_map.mp h1
  rw [← he, Finset.mem_singleton] at hmem
  exact (Proc.devRef_injective _ hmem) ▸ hr'

/-- The line split at its `k`-th operation. -/
theorem after_split {k : ℕ} {op : HloOp τ sig Val} (hk : ops[k]? = some op) (V₀ : Valuation τ sig Val) :
    after ops V₀ = after (ops.drop (k + 1)) (op.result (after (ops.take k) V₀)) := by
  obtain ⟨h, rfl⟩ := List.getElem?_eq_some_iff.mp hk
  conv_lhs => rw [← List.take_append_drop k ops, after_append, List.drop_eq_getElem_cons h, after_cons]

/-- An operand of the `k`-th operation, not written from there on, holds at the end what it held before the operation. -/
theorem read_operand (hw : ops.map HloOp.writes = wrs.map fun r => ({Proc.devRef .tc r} : Finset (DevRef τ sig)))
    (k : ℕ) (V₀ : Valuation τ sig Val) (a : Ref sig .tc) (ha : a ∉ wrs.drop k) :
    after (ops.take k) V₀ (Proc.devRef .tc a) = after ops V₀ (Proc.devRef .tc a) := by
  conv_rhs => rw [← List.take_append_drop k ops, after_append]
  exact (after_drop_frame hw k _ a ha).symm

/-- The end contents of the buffer of a `k`-th operation without operands. -/
theorem step_nullary (hw : ops.map HloOp.writes = wrs.map fun r => ({Proc.devRef .tc r} : Finset (DevRef τ sig)))
    (k : ℕ) {y : Ref sig .tc} {v : y.ty.Contents Val} {hy}
    (hk : ops[k]? = some (nullary y v hy)) (hy' : y ∉ wrs.drop (k + 1)) (V₀ : Valuation τ sig Val) :
    after ops V₀ (Proc.devRef .tc y) = v := by
  rw [after_split hk V₀, after_drop_frame hw (k + 1) _ y hy', nullary_result]

/-- The end contents of the buffer of a `k`-th operation of one operand, from the operand's. -/
theorem step_unary (hw : ops.map HloOp.writes = wrs.map fun r => ({Proc.devRef .tc r} : Finset (DevRef τ sig)))
    (k : ℕ) {x y : Ref sig .tc} {f : x.ty.Contents Val → y.ty.Contents Val} {hx hy}
    (hk : ops[k]? = some (unary x y f hx hy)) (hy' : y ∉ wrs.drop (k + 1)) (hx' : x ∉ wrs.drop k)
    (V₀ : Valuation τ sig Val) {vx : x.ty.Contents Val} (Hx : after ops V₀ (Proc.devRef .tc x) = vx) :
    after ops V₀ (Proc.devRef .tc y) = f vx := by
  rw [after_split hk V₀, after_drop_frame hw (k + 1) _ y hy', unary_result, read_operand hw k V₀ x hx', Hx]

/-- The same for two operands. -/
theorem step_binary (hw : ops.map HloOp.writes = wrs.map fun r => ({Proc.devRef .tc r} : Finset (DevRef τ sig)))
    (k : ℕ) {a b y : Ref sig .tc} {f : a.ty.Contents Val → b.ty.Contents Val → y.ty.Contents Val} {ha hb hy}
    (hk : ops[k]? = some (binary a b y f ha hb hy)) (hy' : y ∉ wrs.drop (k + 1)) (ha' : a ∉ wrs.drop k)
    (hb' : b ∉ wrs.drop k) (V₀ : Valuation τ sig Val) {va : a.ty.Contents Val} {vb : b.ty.Contents Val}
    (Ha : after ops V₀ (Proc.devRef .tc a) = va) (Hb : after ops V₀ (Proc.devRef .tc b) = vb) :
    after ops V₀ (Proc.devRef .tc y) = f va vb := by
  rw [after_split hk V₀, after_drop_frame hw (k + 1) _ y hy', binary_result, read_operand hw k V₀ a ha',
    read_operand hw k V₀ b hb', Ha, Hb]

/-- The same for three operands. -/
theorem step_ternary (hw : ops.map HloOp.writes = wrs.map fun r => ({Proc.devRef .tc r} : Finset (DevRef τ sig)))
    (k : ℕ) {c a b y : Ref sig .tc} {f : c.ty.Contents Val → a.ty.Contents Val → b.ty.Contents Val → y.ty.Contents Val}
    {hc ha hb hy}
    (hk : ops[k]? = some (ternary c a b y f hc ha hb hy)) (hy' : y ∉ wrs.drop (k + 1)) (hc' : c ∉ wrs.drop k)
    (ha' : a ∉ wrs.drop k) (hb' : b ∉ wrs.drop k) (V₀ : Valuation τ sig Val)
    {vc : c.ty.Contents Val} {va : a.ty.Contents Val} {vb : b.ty.Contents Val}
    (Hc : after ops V₀ (Proc.devRef .tc c) = vc) (Ha : after ops V₀ (Proc.devRef .tc a) = va)
    (Hb : after ops V₀ (Proc.devRef .tc b) = vb) :
    after ops V₀ (Proc.devRef .tc y) = f vc va vb := by
  rw [after_split hk V₀, after_drop_frame hw (k + 1) _ y hy', ternary_result, read_operand hw k V₀ c hc',
    read_operand hw k V₀ a ha', read_operand hw k V₀ b hb', Hc, Ha, Hb]

/-! A called function's operations carry each buffer with the type of the value it holds, and move contents between
that type and the buffer's own along the equation of the two; at a literal buffer the equation is `rfl` and the
moves are the identity. The four steps again for such operations, stated without the moves, so that what a step
concludes is the operation's own function at the operands' end contents. -/

/-- The end contents of the buffer of a `k`-th operation without operands, in a called function. -/
theorem step_nullaryT (hw : ops.map HloOp.writes = wrs.map fun r => ({Proc.devRef .tc r} : Finset (DevRef τ sig)))
    (k : ℕ) {ry : Ref sig .tc} {hdy : ry.space ≠ .host} {huy : ry.isScoped = false} {v : ry.ty.Contents Val}
    (hk : ops[k]? = some (TRef.nullary (TRef.of (T := ry.ty) ry rfl hdy huy) v))
    (hy' : ry ∉ wrs.drop (k + 1)) (V₀ : Valuation τ sig Val) :
    after ops V₀ (Proc.devRef .tc ry) = v :=
  step_nullary hw k hk hy' V₀

/-- One operand. -/
theorem step_unaryT (hw : ops.map HloOp.writes = wrs.map fun r => ({Proc.devRef .tc r} : Finset (DevRef τ sig)))
    (k : ℕ) {rx ry : Ref sig .tc} {hdx : rx.space ≠ .host} {hux : rx.isScoped = false}
    {hdy : ry.space ≠ .host} {huy : ry.isScoped = false} {f : rx.ty.Contents Val → ry.ty.Contents Val}
    (hk : ops[k]? = some (TRef.unary (TRef.of (T := rx.ty) rx rfl hdx hux) (TRef.of (T := ry.ty) ry rfl hdy huy) f))
    (hy' : ry ∉ wrs.drop (k + 1)) (hx' : rx ∉ wrs.drop k) (V₀ : Valuation τ sig Val)
    {vx : rx.ty.Contents Val} (Hx : after ops V₀ (Proc.devRef .tc rx) = vx) :
    after ops V₀ (Proc.devRef .tc ry) = f vx :=
  step_unary hw k hk hy' hx' V₀ Hx

/-- Two operands. -/
theorem step_binaryT (hw : ops.map HloOp.writes = wrs.map fun r => ({Proc.devRef .tc r} : Finset (DevRef τ sig)))
    (k : ℕ) {ra rb ry : Ref sig .tc} {hda : ra.space ≠ .host} {hua : ra.isScoped = false}
    {hdb : rb.space ≠ .host} {hub : rb.isScoped = false} {hdy : ry.space ≠ .host} {huy : ry.isScoped = false}
    {f : ra.ty.Contents Val → rb.ty.Contents Val → ry.ty.Contents Val}
    (hk : ops[k]? = some (TRef.binary (TRef.of (T := ra.ty) ra rfl hda hua) (TRef.of (T := rb.ty) rb rfl hdb hub)
      (TRef.of (T := ry.ty) ry rfl hdy huy) f))
    (hy' : ry ∉ wrs.drop (k + 1)) (ha' : ra ∉ wrs.drop k) (hb' : rb ∉ wrs.drop k) (V₀ : Valuation τ sig Val)
    {va : ra.ty.Contents Val} {vb : rb.ty.Contents Val}
    (Ha : after ops V₀ (Proc.devRef .tc ra) = va) (Hb : after ops V₀ (Proc.devRef .tc rb) = vb) :
    after ops V₀ (Proc.devRef .tc ry) = f va vb :=
  step_binary hw k hk hy' ha' hb' V₀ Ha Hb

/-- Three operands. -/
theorem step_ternaryT (hw : ops.map HloOp.writes = wrs.map fun r => ({Proc.devRef .tc r} : Finset (DevRef τ sig)))
    (k : ℕ) {rc ra rb ry : Ref sig .tc} {hdc : rc.space ≠ .host} {huc : rc.isScoped = false}
    {hda : ra.space ≠ .host} {hua : ra.isScoped = false}
    {hdb : rb.space ≠ .host} {hub : rb.isScoped = false} {hdy : ry.space ≠ .host} {huy : ry.isScoped = false}
    {f : rc.ty.Contents Val → ra.ty.Contents Val → rb.ty.Contents Val → ry.ty.Contents Val}
    (hk : ops[k]? = some (TRef.ternary (TRef.of (T := rc.ty) rc rfl hdc huc) (TRef.of (T := ra.ty) ra rfl hda hua)
      (TRef.of (T := rb.ty) rb rfl hdb hub) (TRef.of (T := ry.ty) ry rfl hdy huy) f))
    (hy' : ry ∉ wrs.drop (k + 1)) (hc' : rc ∉ wrs.drop k) (ha' : ra ∉ wrs.drop k) (hb' : rb ∉ wrs.drop k)
    (V₀ : Valuation τ sig Val)
    {vc : rc.ty.Contents Val} {va : ra.ty.Contents Val} {vb : rb.ty.Contents Val}
    (Hc : after ops V₀ (Proc.devRef .tc rc) = vc) (Ha : after ops V₀ (Proc.devRef .tc ra) = va)
    (Hb : after ops V₀ (Proc.devRef .tc rb) = vb) :
    after ops V₀ (Proc.devRef .tc ry) = f vc va vb :=
  step_ternary hw k hk hy' hc' ha' hb' V₀ Hc Ha Hb

end General

end Cert.LibFoldSteps

end
-- ==== Proof.KValueHost.lean ====
/-
  The four host stretches between the launches, read from any contents they may start from.

  Each stretch recomputes the normalized sources from the stored source list, gathers the rows of the previous
  launch's scaled output at them, scatter-adds the gathered rows at the stored targets into the zero matrix (the raw
  aggregate), and cuts slice `k` out of the two stored weight stacks.  Whatever the buffers hold when the stretch
  starts, the three results are those functions of the five buffers read, and every buffer the stretch does not write
  is left as it was.
-/
import proofs.«141509_j41120016892381_2_alg».proof.Proof.Gen.KernelIdeal.Launch
import proofs.«141509_j41120016892381_2_alg».proof.Proof.KValueDefs
import proofs.«141509_j41120016892381_2_alg».proof.Proof.LibFoldSteps

set_option maxRecDepth 16384

noncomputable section

namespace Cert.KernelIdeal.KValue

open Cert.KernelIdeal Cert.KernelIdeal.Gen
open Idealize.ShloMosaic Idealize.ShloMosaic.TcCoe
open Idealize.SL.Sem

variable (W : Valuation τ sig (Elt Ideal))

/-- A buffer that is not among the buffers a line writes keeps its contents through the line. -/
theorem keep_of {ops : List (HloOp τ sig (Elt Ideal))} {wrs : List (Ref sig .tc)}
    (hw : ops.map HloOp.writes = wrs.map fun r => ({Proc.devRef .tc r} : Finset (DevRef τ sig)))
    (b : Ref sig .tc) (hb : b ∉ wrs) : StableHlo.after ops W (Proc.devRef .tc b) = W (Proc.devRef .tc b) := by
  have h := Cert.LibFoldSteps.after_drop_frame hw 0 W b (by rw [List.drop_zero]; exact hb)
  rw [List.drop_zero] at h
  exact h

/-! ## The stretch before the second launch -/

/-- The buffers the stretch writes, in order. -/
abbrev wrs1 : List (Ref sig .tc) :=
  [main_c_7, main_v39, main_v40, main_c_8, main_v41, main_v42, main_v43, main_v44, main_v45, main_v46, main_cst_9, main_v47,
    main_v48, main_v49, main_v50, main_v51, main_v52, main_v53]

theorem stretch1_keep (b : Ref sig .tc) (hb : b ∉ wrs1) :
    StableHlo.after (hostOps1 (F := Ideal)) W (Proc.devRef .tc b) = W (Proc.devRef .tc b) :=
  keep_of W (by simp only [hostOps1, wrs1, List.map_cons, List.map_nil, StableHlo.nullary_writes, StableHlo.unary_writes,
      StableHlo.binary_writes, StableHlo.ternary_writes, StableHlo.reshape_writes]) b hb

theorem stretch1_agg : StableHlo.after (hostOps1 (F := Ideal)) W (Proc.devRef .tc main_v49)
    = rawAgg (W (Proc.devRef .tc main_v38_1)) (W (Proc.devRef .tc main_v1)) (W (Proc.devRef .tc main_v3)) := by
  dsimp only [hostOps1]
  after_results_simp
  rfl

theorem stretch1_w0 : StableHlo.after (hostOps1 (F := Ideal)) W (Proc.devRef .tc main_v51)
    = wslice 1 slices_S5x256x256_S1x256x256_1_0_0 (W (Proc.devRef .tc main_v17)) := by
  dsimp only [hostOps1]
  after_results_simp
  rfl

theorem stretch1_w1 : StableHlo.after (hostOps1 (F := Ideal)) W (Proc.devRef .tc main_v53)
    = wslice 1 slices_S5x256x256_S1x256x256_1_0_0 (W (Proc.devRef .tc main_v19)) := by
  dsimp only [hostOps1]
  after_results_simp
  rfl

/-! ## The stretch before the third launch -/

/-- The buffers the stretch writes, in order. -/
abbrev wrs2 : List (Ref sig .tc) :=
  [main_c_10, main_v55, main_v56, main_c_11, main_v57, main_v58, main_v59, main_v60, main_v61, main_v62, main_cst_12, main_v63,
    main_v64, main_v65, main_v66, main_v67, main_v68, main_v69]

theorem stretch2_keep (b : Ref sig .tc) (hb : b ∉ wrs2) :
    StableHlo.after (hostOps2 (F := Ideal)) W (Proc.devRef .tc b) = W (Proc.devRef .tc b) :=
  keep_of W (by simp only [hostOps2, wrs2, List.map_cons, List.map_nil, StableHlo.nullary_writes, StableHlo.unary_writes,
      StableHlo.binary_writes, StableHlo.ternary_writes, StableHlo.reshape_writes]) b hb

theorem stretch2_agg : StableHlo.after (hostOps2 (F := Ideal)) W (Proc.devRef .tc main_v65)
    = rawAgg (W (Proc.devRef .tc main_v54_1)) (W (Proc.devRef .tc main_v1)) (W (Proc.devRef .tc main_v3)) := by
  dsimp only [hostOps2]
  after_results_simp
  rfl

theorem stretch2_w0 : StableHlo.after (hostOps2 (F := Ideal)) W (Proc.devRef .tc main_v67)
    = wslice 2 slices_S5x256x256_S1x256x256_2_0_0 (W (Proc.devRef .tc main_v17)) := by
  dsimp only [hostOps2]
  after_results_simp
  rfl

theorem stretch2_w1 : StableHlo.after (hostOps2 (F := Ideal)) W (Proc.devRef .tc main_v69)
    = wslice 2 slices_S5x256x256_S1x256x256_2_0_0 (W (Proc.devRef .tc main_v19)) := by
  dsimp only [hostOps2]
  after_results_simp
  rfl

/-! ## The stretch before the fourth launch -/

/-- The buffers the stretch writes, in order. -/
abbrev wrs3 : List (Ref sig .tc) :=
  [main_c_13, main_v71, main_v72, main_c_14, main_v73, main_v74, main_v75, main_v76, main_v77, main_v78, main_cst_15, main_v79,
    main_v80, main_v81, main_v82, main_v83, main_v84, main_v85]

theorem stretch3_keep (b : Ref sig .tc) (hb : b ∉ wrs3) :
    StableHlo.after (hostOps3 (F := Ideal)) W (Proc.devRef .tc b) = W (Proc.devRef .tc b) :=
  keep_of W (by simp only [hostOps3, wrs3, List.map_cons, List.map_nil, StableHlo.nullary_writes, StableHlo.unary_writes,
      StableHlo.binary_writes, StableHlo.ternary_writes, StableHlo.reshape_writes]) b hb

theorem stretch3_agg : StableHlo.after (hostOps3 (F := Ideal)) W (Proc.devRef .tc main_v81)
    = rawAgg (W (Proc.devRef .tc main_v70_1)) (W (Proc.devRef .tc main_v1)) (W (Proc.devRef .tc main_v3)) := by
  dsimp only [hostOps3]
  after_results_simp
  rfl

theorem stretch3_w0 : StableHlo.after (hostOps3 (F := Ideal)) W (Proc.devRef .tc main_v83)
    = wslice 3 slices_S5x256x256_S1x256x256_3_0_0 (W (Proc.devRef .tc main_v17)) := by
  dsimp only [hostOps3]
  after_results_simp
  rfl

theorem stretch3_w1 : StableHlo.after (hostOps3 (F := Ideal)) W (Proc.devRef .tc main_v85)
    = wslice 3 slices_S5x256x256_S1x256x256_3_0_0 (W (Proc.devRef .tc main_v19)) := by
  dsimp only [hostOps3]
  after_results_simp
  rfl

/-! ## The stretch before the fifth launch -/

/-- The buffers the stretch writes, in order. -/
abbrev wrs4 : List (Ref sig .tc) :=
  [main_c_16, main_v87, main_v88, main_c_17, main_v89, main_v90, main_v91, main_v92, main_v93, main_v94, main_cst_18, main_v95,
    main_v96, main_v97, main_v98, main_v99, main_v100, main_v101]

theorem stretch4_keep (b : Ref sig .tc) (hb : b ∉ wrs4) :
    StableHlo.after (hostOps4 (F := Ideal)) W (Proc.devRef .tc b) = W (Proc.devRef .tc b) :=
  keep_of W (by simp only [hostOps4, wrs4, List.map_cons, List.map_nil, StableHlo.nullary_writes, StableHlo.unary_writes,
      StableHlo.binary_writes, StableHlo.ternary_writes, StableHlo.reshape_writes]) b hb

theorem stretch4_agg : StableHlo.after (hostOps4 (F := Ideal)) W (Proc.devRef .tc main_v97)
    = rawAgg (W (Proc.devRef .tc main_v86_1)) (W (Proc.devRef .tc main_v1)) (W (Proc.devRef .tc main_v3)) := by
  dsimp only [hostOps4]
  after_results_simp
  rfl

theorem stretch4_w0 : StableHlo.after (hostOps4 (F := Ideal)) W (Proc.devRef .tc main_v99)
    = wslice 4 slices_S5x256x256_S1x256x256_4_0_0 (W (Proc.devRef .tc main_v17)) := by
  dsimp only [hostOps4]
  after_results_simp
  rfl

theorem stretch4_w1 : StableHlo.after (hostOps4 (F := Ideal)) W (Proc.devRef .tc main_v101)
    = wslice 4 slices_S5x256x256_S1x256x256_4_0_0 (W (Proc.devRef .tc main_v19)) := by
  dsimp only [hostOps4]
  after_results_simp
  rfl

end Cert.KernelIdeal.KValue

end
-- ==== Proof.KValueChain.lean ====
/-
  The value of the kernel program's result: five steps of the graph convolution.

  What is carried from one launch to the next: the stored sources, targets, inverse square-root degree column and the
  two exchanged weight stacks never change; each launch's first output is the next launch's node matrix, and its second
  output (the first scaled row by row by the degree column) is what the next stretch gathers from.  A launch whose
  operands are the current node matrix `x`, the raw aggregate of `x` scaled by the degrees at the sources, the degree
  column and slice `k` of the weights writes the step `k` of `x`; so the fifth launch's first output is the fifth
  iterate.
-/
import proofs.«141509_j41120016892381_2_alg».proof.Proof.Gen.KernelIdeal.Frame
import proofs.«141509_j41120016892381_2_alg».proof.Proof.KValueHost

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx
open Idealize.SL.Sem
open Idealize.ShloMosaic.Pipeline (Dat)

/-! ## What one launch needs of its operands -/

/-- The operands of launch `k` at the node matrix `x`: the matrix itself, the raw aggregate of a matrix `xn` that is
    `x` with row `i` scaled by the degree factor of `i`, the degree column, and slice `k` of the two exchanged stacks. -/
structure Operands (a1 : (⟨S2x800000, .i32⟩ : BufTy).Contents (Elt Ideal)) (w0 w1 : FVec Ideal S5x256x256 .f32) (k : Fin 5)
    (hs : S5x256x256.Slices ![k.val, 0, 0] S1x256x256) (x : Cert.Tag.SX.Idx → EReal)
    (vx vagg : Cert.Tag.SX.Idx → EReal) (vd2 : Cert.Tag.SN1.Idx → EReal) (vw0 vw1 : Cert.Tag.SD.Idx → EReal) : Prop where
  hx : vx = x
  hagg : ∃ xn : FVec Ideal S50000x256 .bf16, (∀ (i : Fin 50000) (q : Fin 256), xn (ix2 i q) = x (ix2 i q) * dinv a1 (ix1 i))
    ∧ vagg = rawAgg xn (row a1) (col a1)
  hd2 : vd2 = dcol (dinv a1)
  hw0 : vw0 = wslice k.val hs (wT w0)
  hw1 : vw1 = wslice k.val hs (wT w1)

variable {a1 : (⟨S2x800000, .i32⟩ : BufTy).Contents (Elt Ideal)} {w0 w1 : FVec Ideal S5x256x256 .f32} {k : Fin 5}
  {hs : S5x256x256.Slices ![k.val, 0, 0] S1x256x256} {x vx vagg : Cert.Tag.SX.Idx → EReal} {vd2 : Cert.Tag.SN1.Idx → EReal}
  {vw0 vw1 : Cert.Tag.SD.Idx → EReal}

/-- The launch's first output is the step. -/
theorem Operands.first (h : Operands a1 w0 w1 k hs x vx vagg vd2 vw0 vw1) :
    Cert.Tag.blockX vx vagg vd2 vw0 vw1 = Cert.Tag.stepK x (dinv a1) (rowN a1) (col a1) w0 w1 k := by
  obtain ⟨rfl, ⟨xn, hxn, rfl⟩, rfl, rfl, rfl⟩ := h
  refine Cert.Tag.blockX_eq_stepK _ _ _ _ _ (dinv a1) (rowN a1) (col a1) w0 w1 k ?_ ?_ ?_ ?_
  · intro i c
    rw [rawAgg_apply]
    exact Finset.sum_congr rfl fun e _ => hxn _ _
  · intro i
    exact dcol_apply _ i
  · intro c q
    exact wslice_apply w0 k.val k.isLt hs c q
  · intro c q
    exact wslice_apply w1 k.val k.isLt hs c q

/-- The launch's second output is the step with row `i` scaled by the degree factor of `i`. -/
theorem Operands.second (h : Operands a1 w0 w1 k hs x vx vagg vd2 vw0 vw1) (i : Fin 50000) (q : Fin 256) :
    Cert.Tag.blockXn vx vagg vd2 vw0 vw1 (ix2 i q)
      = Cert.Tag.stepK x (dinv a1) (rowN a1) (col a1) w0 w1 k (ix2 i q) * dinv a1 (ix1 i) := by
  rw [Cert.Tag.blockXn_apply, h.first, h.hd2, dcol_apply]

/-! ## What every stretch and every launch leaves alone -/

/-- The stored sources, targets, degree column and exchanged weight stacks. -/
structure Carried (a1 : (⟨S2x800000, .i32⟩ : BufTy).Contents (Elt Ideal)) (w0 w1 : FVec Ideal S5x256x256 .f32)
    (Wv : Valuation τ sig (Elt Ideal)) : Prop where
  h1 : Wv (Proc.devRef .tc main_v1) = row a1
  h3 : Wv (Proc.devRef .tc main_v3) = col a1
  h15 : Wv (Proc.devRef .tc main_v15) = dcol (dinv a1)
  h17 : Wv (Proc.devRef .tc main_v17) = wT w0
  h19 : Wv (Proc.devRef .tc main_v19) = wT w1

/-! ## The launches, as functions of their operands -/

/-- What each launch leaves in its two outputs, whatever its operands hold: the dense kernel's two functions of them. -/
structure Launches : Prop where
  r0x : ∀ (V : (c : Dev nD) → (b : Ref sig .tc) → Buf (Elt Ideal) ((c : Thread nD τ).loc b)) (c : Dev nD),
    (dat0 (F := Ideal) V c).arrAt 5 cfg0.N
      = Cert.Tag.blockX (V c main_arg0) (V c main_v33) (V c main_v15) (V c main_v35) (V c main_v37)
  r0n : ∀ (V : (c : Dev nD) → (b : Ref sig .tc) → Buf (Elt Ideal) ((c : Thread nD τ).loc b)) (c : Dev nD),
    (dat0 (F := Ideal) V c).arrAt 6 cfg0.N
      = Cert.Tag.blockXn (V c main_arg0) (V c main_v33) (V c main_v15) (V c main_v35) (V c main_v37)
  r1x : ∀ (V : (c : Dev nD) → (b : Ref sig .tc) → Buf (Elt Ideal) ((c : Thread nD τ).loc b)) (c : Dev nD),
    (dat1 (F := Ideal) V c).arrAt 5 cfg1.N
      = Cert.Tag.blockX (V c main_v38_0) (V c main_v49) (V c main_v15) (V c main_v51) (V c main_v53)
  r1n : ∀ (V : (c : Dev nD) → (b : Ref sig .tc) → Buf (Elt Ideal) ((c : Thread nD τ).loc b)) (c : Dev nD),
    (dat1 (F := Ideal) V c).arrAt 6 cfg1.N
      = Cert.Tag.blockXn (V c main_v38_0) (V c main_v49) (V c main_v15) (V c main_v51) (V c main_v53)
  r2x : ∀ (V : (c : Dev nD) → (b : Ref sig .tc) → Buf (Elt Ideal) ((c : Thread nD τ).loc b)) (c : Dev nD),
    (dat2 (F := Ideal) V c).arrAt 5 cfg2.N
      = Cert.Tag.blockX (V c main_v54_0) (V c main_v65) (V c main_v15) (V c main_v67) (V c main_v69)
  r2n : ∀ (V : (c : Dev nD) → (b : Ref sig .tc) → Buf (Elt Ideal) ((c : Thread nD τ).loc b)) (c : Dev nD),
    (dat2 (F := Ideal) V c).arrAt 6 cfg2.N
      = Cert.Tag.blockXn (V c main_v54_0) (V c main_v65) (V c main_v15) (V c main_v67) (V c main_v69)
  r3x : ∀ (V : (c : Dev nD) → (b : Ref sig .tc) → Buf (Elt Ideal) ((c : Thread nD τ).loc b)) (c : Dev nD),
    (dat3 (F := Ideal) V c).arrAt 5 cfg3.N
      = Cert.Tag.blockX (V c main_v70_0) (V c main_v81) (V c main_v15) (V c main_v83) (V c main_v85)
  r3n : ∀ (V : (c : Dev nD) → (b : Ref sig .tc) → Buf (Elt Ideal) ((c : Thread nD τ).loc b)) (c : Dev nD),
    (dat3 (F := Ideal) V c).arrAt 6 cfg3.N
      = Cert.Tag.blockXn (V c main_v70_0) (V c main_v81) (V c main_v15) (V c main_v83) (V c main_v85)
  r4x : ∀ (V : (c : Dev nD) → (b : Ref sig .tc) → Buf (Elt Ideal) ((c : Thread nD τ).loc b)) (c : Dev nD),
    (dat4 (F := Ideal) V c).arrAt 5 cfg4.N
      = Cert.Tag.blockX (V c main_v86_0) (V c main_v97) (V c main_v15) (V c main_v99) (V c main_v101)

section Chain

variable (m : (ℓ : Loc nD τ sig) → Buf (Elt Ideal) ℓ) (ρ : Dev nD → PrngReg) (c : Dev nD)

/-! ## The first launch -/

theorem exit0 (lau : Launches) (hc : Carried a1 w0 w1 (W5 m ρ c))
    (he : Operands a1 w0 w1 0 slices_S5x256x256_S1x256x256_0_0_0 x (W5 m ρ c (Proc.devRef .tc main_arg0))
      (W5 m ρ c (Proc.devRef .tc main_v33)) (W5 m ρ c (Proc.devRef .tc main_v15)) (W5 m ρ c (Proc.devRef .tc main_v35))
      (W5 m ρ c (Proc.devRef .tc main_v37))) :
    Carried a1 w0 w1 (W6 m ρ c)
      ∧ W6 m ρ c (Proc.devRef .tc main_v38_0) = Cert.Tag.stepK x (dinv a1) (rowN a1) (col a1) w0 w1 0
      ∧ ∀ (i : Fin 50000) (q : Fin 256), W6 m ρ c (Proc.devRef .tc main_v38_1) (ix2 i q)
          = Cert.Tag.stepK x (dinv a1) (rowN a1) (col a1) w0 w1 0 (ix2 i q) * dinv a1 (ix1 i) :=
  ⟨⟨(W6_of_ne m ρ c main_v1 (by decide)).trans hc.h1,
    (W6_of_ne m ρ c main_v3 (by decide)).trans hc.h3,
    ((W6_arr m ρ c 2).trans (((dat0 (V5 m ρ) c).arrAt_in 2 rfl _).trans (A_eq0 (V5 m ρ) c 2))).trans hc.h15,
    (W6_of_ne m ρ c main_v17 (by decide)).trans hc.h17,
    (W6_of_ne m ρ c main_v19 (by decide)).trans hc.h19⟩,
   (W6_arr m ρ c 5).trans ((lau.r0x (V5 m ρ) c).trans he.first),
   fun i q => (congrFun ((W6_arr m ρ c 6).trans (lau.r0n (V5 m ρ) c)) (ix2 i q)).trans (he.second i q)⟩

/-! ## The second launch -/

theorem entry1 (hc : Carried a1 w0 w1 (W6 m ρ c)) (hx : W6 m ρ c (Proc.devRef .tc main_v38_0) = x)
    (hn : ∀ (i : Fin 50000) (q : Fin 256), W6 m ρ c (Proc.devRef .tc main_v38_1) (ix2 i q) = x (ix2 i q) * dinv a1 (ix1 i)) :
    Carried a1 w0 w1 (W7 m ρ c)
      ∧ Operands a1 w0 w1 1 slices_S5x256x256_S1x256x256_1_0_0 x (W7 m ρ c (Proc.devRef .tc main_v38_0))
          (W7 m ρ c (Proc.devRef .tc main_v49)) (W7 m ρ c (Proc.devRef .tc main_v15)) (W7 m ρ c (Proc.devRef .tc main_v51))
          (W7 m ρ c (Proc.devRef .tc main_v53)) :=
  have hc' : Carried a1 w0 w1 (W7 m ρ c) :=
    ⟨(stretch1_keep (W6 m ρ c) main_v1 (by decide)).trans hc.h1,
     (stretch1_keep (W6 m ρ c) main_v3 (by decide)).trans hc.h3,
     (stretch1_keep (W6 m ρ c) main_v15 (by decide)).trans hc.h15,
     (stretch1_keep (W6 m ρ c) main_v17 (by decide)).trans hc.h17,
     (stretch1_keep (W6 m ρ c) main_v19 (by decide)).trans hc.h19⟩
  ⟨hc',
   ⟨(stretch1_keep (W6 m ρ c) main_v38_0 (by decide)).trans hx,
    ⟨W6 m ρ c (Proc.devRef .tc main_v38_1), hn, (stretch1_agg (W6 m ρ c)).trans (by rw [hc.h1, hc.h3])⟩,
    hc'.h15,
    (stretch1_w0 (W6 m ρ c)).trans (congrArg _ hc.h17),
    (stretch1_w1 (W6 m ρ c)).trans (congrArg _ hc.h19)⟩⟩

theorem exit1 (lau : Launches) (hc : Carried a1 w0 w1 (W7 m ρ c))
    (he : Operands a1 w0 w1 1 slices_S5x256x256_S1x256x256_1_0_0 x (W7 m ρ c (Proc.devRef .tc main_v38_0))
      (W7 m ρ c (Proc.devRef .tc main_v49)) (W7 m ρ c (Proc.devRef .tc main_v15)) (W7 m ρ c (Proc.devRef .tc main_v51))
      (W7 m ρ c (Proc.devRef .tc main_v53))) :
    Carried a1 w0 w1 (W8 m ρ c)
      ∧ W8 m ρ c (Proc.devRef .tc main_v54_0) = Cert.Tag.stepK x (dinv a1) (rowN a1) (col a1) w0 w1 1
      ∧ ∀ (i : Fin 50000) (q : Fin 256), W8 m ρ c (Proc.devRef .tc main_v54_1) (ix2 i q)
          = Cert.Tag.stepK x (dinv a1) (rowN a1) (col a1) w0 w1 1 (ix2 i q) * dinv a1 (ix1 i) :=
  ⟨⟨(W8_of_ne m ρ c main_v1 (by decide)).trans hc.h1,
    (W8_of_ne m ρ c main_v3 (by decide)).trans hc.h3,
    ((W8_arr m ρ c 2).trans (((dat1 (V7 m ρ) c).arrAt_in 2 rfl _).trans (A_eq1 (V7 m ρ) c 2))).trans hc.h15,
    (W8_of_ne m ρ c main_v17 (by decide)).trans hc.h17,
    (W8_of_ne m ρ c main_v19 (by decide)).trans hc.h19⟩,
   (W8_arr m ρ c 5).trans ((lau.r1x (V7 m ρ) c).trans he.first),
   fun i q => (congrFun ((W8_arr m ρ c 6).trans (lau.r1n (V7 m ρ) c)) (ix2 i q)).trans (he.second i q)⟩

/-! ## The third launch -/

theorem entry2 (hc : Carried a1 w0 w1 (W8 m ρ c)) (hx : W8 m ρ c (Proc.devRef .tc main_v54_0) = x)
    (hn : ∀ (i : Fin 50000) (q : Fin 256), W8 m ρ c (Proc.devRef .tc main_v54_1) (ix2 i q) = x (ix2 i q) * dinv a1 (ix1 i)) :
    Carried a1 w0 w1 (W9 m ρ c)
      ∧ Operands a1 w0 w1 2 slices_S5x256x256_S1x256x256_2_0_0 x (W9 m ρ c (Proc.devRef .tc main_v54_0))
          (W9 m ρ c (Proc.devRef .tc main_v65)) (W9 m ρ c (Proc.devRef .tc main_v15)) (W9 m ρ c (Proc.devRef .tc main_v67))
          (W9 m ρ c (Proc.devRef .tc main_v69)) :=
  have hc' : Carried a1 w0 w1 (W9 m ρ c) :=
    ⟨(stretch2_keep (W8 m ρ c) main_v1 (by decide)).trans hc.h1,
     (stretch2_keep (W8 m ρ c) main_v3 (by decide)).trans hc.h3,
     (stretch2_keep (W8 m ρ c) main_v15 (by decide)).trans hc.h15,
     (stretch2_keep (W8 m ρ c) main_v17 (by decide)).trans hc.h17,
     (stretch2_keep (W8 m ρ c) main_v19 (by decide)).trans hc.h19⟩
  ⟨hc',
   ⟨(stretch2_keep (W8 m ρ c) main_v54_0 (by decide)).trans hx,
    ⟨W8 m ρ c (Proc.devRef .tc main_v54_1), hn, (stretch2_agg (W8 m ρ c)).trans (by rw [hc.h1, hc.h3])⟩,
    hc'.h15,
    (stretch2_w0 (W8 m ρ c)).trans (congrArg _ hc.h17),
    (stretch2_w1 (W8 m ρ c)).trans (congrArg _ hc.h19)⟩⟩

theorem exit2 (lau : Launches) (hc : Carried a1 w0 w1 (W9 m ρ c))
    (he : Operands a1 w0 w1 2 slices_S5x256x256_S1x256x256_2_0_0 x (W9 m ρ c (Proc.devRef .tc main_v54_0))
      (W9 m ρ c (Proc.devRef .tc main_v65)) (W9 m ρ c (Proc.devRef .tc main_v15)) (W9 m ρ c (Proc.devRef .tc main_v67))
      (W9 m ρ c (Proc.devRef .tc main_v69))) :
    Carried a1 w0 w1 (W10 m ρ c)
      ∧ W10 m ρ c (Proc.devRef .tc main_v70_0) = Cert.Tag.stepK x (dinv a1) (rowN a1) (col a1) w0 w1 2
      ∧ ∀ (i : Fin 50000) (q : Fin 256), W10 m ρ c (Proc.devRef .tc main_v70_1) (ix2 i q)
          = Cert.Tag.stepK x (dinv a1) (rowN a1) (col a1) w0 w1 2 (ix2 i q) * dinv a1 (ix1 i) :=
  ⟨⟨(W10_of_ne m ρ c main_v1 (by decide)).trans hc.h1,
    (W10_of_ne m ρ c main_v3 (by decide)).trans hc.h3,
    ((W10_arr m ρ c 2).trans (((dat2 (V9 m ρ) c).arrAt_in 2 rfl _).trans (A_eq2 (V9 m ρ) c 2))).trans hc.h15,
    (W10_of_ne m ρ c main_v17 (by decide)).trans hc.h17,
    (W10_of_ne m ρ c main_v19 (by decide)).trans hc.h19⟩,
   (W10_arr m ρ c 5).trans ((lau.r2x (V9 m ρ) c).trans he.first),
   fun i q => (congrFun ((W10_arr m ρ c 6).trans (lau.r2n (V9 m ρ) c)) (ix2 i q)).trans (he.second i q)⟩

/-! ## The fourth launch -/

theorem entry3 (hc : Carried a1 w0 w1 (W10 m ρ c)) (hx : W10 m ρ c (Proc.devRef .tc main_v70_0) = x)
    (hn : ∀ (i : Fin 50000) (q : Fin 256), W10 m ρ c (Proc.devRef .tc main_v70_1) (ix2 i q) = x (ix2 i q) * dinv a1 (ix1 i)) :
    Carried a1 w0 w1 (W11 m ρ c)
      ∧ Operands a1 w0 w1 3 slices_S5x256x256_S1x256x256_3_0_0 x (W11 m ρ c (Proc.devRef .tc main_v70_0))
          (W11 m ρ c (Proc.devRef .tc main_v81)) (W11 m ρ c (Proc.devRef .tc main_v15)) (W11 m ρ c (Proc.devRef .tc main_v83))
          (W11 m ρ c (Proc.devRef .tc main_v85)) :=
  have hc' : Carried a1 w0 w1 (W11 m ρ c) :=
    ⟨(stretch3_keep (W10 m ρ c) main_v1 (by decide)).trans hc.h1,
     (stretch3_keep (W10 m ρ c) main_v3 (by decide)).trans hc.h3,
     (stretch3_keep (W10 m ρ c) main_v15 (by decide)).trans hc.h15,
     (stretch3_keep (W10 m ρ c) main_v17 (by decide)).trans hc.h17,
     (stretch3_keep (W10 m ρ c) main_v19 (by decide)).trans hc.h19⟩
  ⟨hc',
   ⟨(stretch3_keep (W10 m ρ c) main_v70_0 (by decide)).trans hx,
    ⟨W10 m ρ c (Proc.devRef .tc main_v70_1), hn, (stretch3_agg (W10 m ρ c)).trans (by rw [hc.h1, hc.h3])⟩,
    hc'.h15,
    (stretch3_w0 (W10 m ρ c)).trans (congrArg _ hc.h17),
    (stretch3_w1 (W10 m ρ c)).trans (congrArg _ hc.h19)⟩⟩

theorem exit3 (lau : Launches) (hc : Carried a1 w0 w1 (W11 m ρ c))
    (he : Operands a1 w0 w1 3 slices_S5x256x256_S1x256x256_3_0_0 x (W11 m ρ c (Proc.devRef .tc main_v70_0))
      (W11 m ρ c (Proc.devRef .tc main_v81)) (W11 m ρ c (Proc.devRef .tc main_v15)) (W11 m ρ c (Proc.devRef .tc main_v83))
      (W11 m ρ c (Proc.devRef .tc main_v85))) :
    Carried a1 w0 w1 (W12 m ρ c)
      ∧ W12 m ρ c (Proc.devRef .tc main_v86_0) = Cert.Tag.stepK x (dinv a1) (rowN a1) (col a1) w0 w1 3
      ∧ ∀ (i : Fin 50000) (q : Fin 256), W12 m ρ c (Proc.devRef .tc main_v86_1) (ix2 i q)
          = Cert.Tag.stepK x (dinv a1) (rowN a1) (col a1) w0 w1 3 (ix2 i q) * dinv a1 (ix1 i) :=
  ⟨⟨(W12_of_ne m ρ c main_v1 (by decide)).trans hc.h1,
    (W12_of_ne m ρ c main_v3 (by decide)).trans hc.h3,
    ((W12_arr m ρ c 2).trans (((dat3 (V11 m ρ) c).arrAt_in 2 rfl _).trans (A_eq3 (V11 m ρ) c 2))).trans hc.h15,
    (W12_of_ne m ρ c main_v17 (by decide)).trans hc.h17,
    (W12_of_ne m ρ c main_v19 (by decide)).trans hc.h19⟩,
   (W12_arr m ρ c 5).trans ((lau.r3x (V11 m ρ) c).trans he.first),
   fun i q => (congrFun ((W12_arr m ρ c 6).trans (lau.r3n (V11 m ρ) c)) (ix2 i q)).trans (he.second i q)⟩

/-! ## The fifth launch -/

theorem entry4 (hc : Carried a1 w0 w1 (W12 m ρ c)) (hx : W12 m ρ c (Proc.devRef .tc main_v86_0) = x)
    (hn : ∀ (i : Fin 50000) (q : Fin 256), W12 m ρ c (Proc.devRef .tc main_v86_1) (ix2 i q) = x (ix2 i q) * dinv a1 (ix1 i)) :
    Operands a1 w0 w1 4 slices_S5x256x256_S1x256x256_4_0_0 x (W13 m ρ c (Proc.devRef .tc main_v86_0))
      (W13 m ρ c (Proc.devRef .tc main_v97)) (W13 m ρ c (Proc.devRef .tc main_v15)) (W13 m ρ c (Proc.devRef .tc main_v99))
      (W13 m ρ c (Proc.devRef .tc main_v101)) :=
  ⟨(stretch4_keep (W12 m ρ c) main_v86_0 (by decide)).trans hx,
   ⟨W12 m ρ c (Proc.devRef .tc main_v86_1), hn, (stretch4_agg (W12 m ρ c)).trans (by rw [hc.h1, hc.h3])⟩,
   (stretch4_keep (W12 m ρ c) main_v15 (by decide)).trans hc.h15,
   (stretch4_w0 (W12 m ρ c)).trans (congrArg _ hc.h17),
   (stretch4_w1 (W12 m ρ c)).trans (congrArg _ hc.h19)⟩

theorem exit4 (lau : Launches)
    (he : Operands a1 w0 w1 4 slices_S5x256x256_S1x256x256_4_0_0 x (W13 m ρ c (Proc.devRef .tc main_v86_0))
      (W13 m ρ c (Proc.devRef .tc main_v97)) (W13 m ρ c (Proc.devRef .tc main_v15)) (W13 m ρ c (Proc.devRef .tc main_v99))
      (W13 m ρ c (Proc.devRef .tc main_v101))) :
    W14 m ρ c (Proc.devRef .tc main_v102_0) = Cert.Tag.stepK x (dinv a1) (rowN a1) (col a1) w0 w1 4 :=
  (W14_arr m ρ c 5).trans ((lau.r4x (V13 m ρ) c).trans he.first)

/-! ## The five launches in a row -/

/-- The result buffer after the fifth launch holds the fifth iterate, given what the first launch finds. -/
theorem value_of (lau : Launches) (hc : Carried a1 w0 w1 (W5 m ρ c))
    (he : Operands a1 w0 w1 0 slices_S5x256x256_S1x256x256_0_0_0 x (W5 m ρ c (Proc.devRef .tc main_arg0))
      (W5 m ρ c (Proc.devRef .tc main_v33)) (W5 m ρ c (Proc.devRef .tc main_v15)) (W5 m ρ c (Proc.devRef .tc main_v35))
      (W5 m ρ c (Proc.devRef .tc main_v37))) :
    W14 m ρ c (Proc.devRef .tc main_v102_0) = Cert.Tag.iterK x (dinv a1) (rowN a1) (col a1) w0 w1 := by
  obtain ⟨c6, x1, n1⟩ := exit0 m ρ c lau hc he
  obtain ⟨c7, e1⟩ := entry1 m ρ c c6 x1 n1
  obtain ⟨c8, x2, n2⟩ := exit1 m ρ c lau c7 e1
  obtain ⟨c9, e2⟩ := entry2 m ρ c c8 x2 n2
  obtain ⟨c10, x3, n3⟩ := exit2 m ρ c lau c9 e2
  obtain ⟨c11, e3⟩ := entry3 m ρ c c10 x3 n3
  obtain ⟨c12, x4, n4⟩ := exit3 m ρ c lau c11 e3
  exact exit4 m ρ c lau (entry4 m ρ c c12 x4 n4)

end Chain

end Cert.KernelIdeal.KValue

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.KBlock0.lean ====
/-
  Launch 0 of the dense kernel, read as arrays.

  The launch runs the kernel body at 25 grid points. Point `t` stages rows `2000 t … 2000 t + 1999` of the node
  matrix, of the aggregate and of the column operand, and the two 256 × 256 weight matrices whole. Over the extended
  reals the roundings to the narrow format on the way into the products are the identity, so the body leaves, in rows
  `2000 t …` of the first output, `x · w0 + (agg ⊙ d) · w1` — two matrix products into zero accumulators, `d` the
  column operand spread along each row — and, in the same rows of the second output, that result scaled row by row
  by `d`. Row `r` of either output lies in the block of point `r / 2000`, so the blocks cover the outputs, and after
  the launch each output is its formula of the five operand arrays as the launch found them, whatever those were.
-/
import proofs.«141509_j41120016892381_2_alg».proof.Proof.Spec
import proofs.«141509_j41120016892381_2_alg».proof.Proof.Gen.KernelIdeal.Frame
import proofs.«141509_j41120016892381_2_alg».proof.Proof.LibPlainMatmul
import Idealize.ShloMosaic.Lib.Pipeline.Value

noncomputable section

namespace Cert.KernelIdeal.KBlock

open Cert.KernelIdeal Idealize.ShloMosaic Idealize.ShloMosaic.TcCoe Idealize.ShloMosaic.ValueIdx Idealize.SL.Sem
open Idealize.ShloMosaic.Pipeline (Dat)
open scoped BigOperators

namespace R0

/-! ## The body's two results at an index -/

/-- The column block spread along the row reads, at `(p, q)`, the column at `p`. -/
theorem bcast_col_apply {α : Type} (d : S2000x1.Idx → α) (h : S2000x1.Broadcasts S2000x256) (p : Fin 2000) (q : Fin 256) :
    broadcastTo S2000x256 d h (ix2 p q) = d (ix2 p (0 : Fin 1)) := by
  refine broadcastTo_apply d h (ix2 p q) (ix2 p (0 : Fin 1)) fun a => ?_
  match a with
  | ⟨0, _⟩ => rfl
  | ⟨1, _⟩ => rfl

/-- The first result at `(p, q)`: row `p` of `x` against column `q` of `w0`, plus row `p` of `agg` scaled by `d p` against
    column `q` of `w1`. -/
theorem pay2_apply (d : Vec Ideal S2000x1 .f32) (x agg : Vec Ideal S2000x256 .f32) (w0 w1 : Vec Ideal S256x256 .bf16)
    (p : Fin 2000) (q : Fin 256) :
    Gen.k0_pay2 d x agg w0 w1 (ix2 p q)
      = (∑ k : Fin 256, x (ix2 p k) * w0 (ix2 k q)) + ∑ k : Fin 256, (agg (ix2 p k) * d (ix2 p (0 : Fin 1))) * w1 (ix2 k q) := by
  unfold Gen.k0_pay2 Gen.k0_pay1
  rw [addf_apply]
  refine congrArg₂ (· + ·) ?_ ?_
  · refine (Cert.LibPlainMatmul.matmul_zero_plain _ _ _ p q).trans ?_
    refine Finset.sum_congr rfl fun k _ => ?_
    simp only [truncf_apply, shapeCast_self]
  · refine (Cert.LibPlainMatmul.matmul_zero_plain _ _ _ p q).trans ?_
    refine Finset.sum_congr rfl fun k _ => ?_
    simp only [truncf_apply, mulf_apply, shapeCast_self, bcast_col_apply]

/-- The second result at `(p, q)`: the first scaled by `d p`. -/
theorem pay3_apply (d : Vec Ideal S2000x1 .f32) (x agg : Vec Ideal S2000x256 .f32) (w0 w1 : Vec Ideal S256x256 .bf16)
    (p : Fin 2000) (q : Fin 256) :
    Gen.k0_pay3 d x agg w0 w1 (ix2 p q) = Gen.k0_pay2 d x agg w0 w1 (ix2 p q) * d (ix2 p (0 : Fin 1)) := by
  unfold Gen.k0_pay3 Gen.k0_pay1
  simp only [truncf_apply, mulf_apply, shapeCast_self, bcast_col_apply]

/-- The first result at row `p` of blocks whose row `p` is row `i` of the operand arrays is the first output's
    formula at row `i`. -/
theorem pay2_eq_blockX (X AG : Cert.Tag.SX.Idx → EReal) (D2 : Cert.Tag.SN1.Idx → EReal) (W0 W1 : Cert.Tag.SD.Idx → EReal)
    (d : Vec Ideal S2000x1 .f32) (x agg : Vec Ideal S2000x256 .f32) (w0 w1 : Vec Ideal S256x256 .bf16)
    (i : Fin 50000) (p : Fin 2000)
    (hx : ∀ k : Fin 256, x (ix2 p k) = X (ix2 i k)) (hagg : ∀ k : Fin 256, agg (ix2 p k) = AG (ix2 i k))
    (hd : d (ix2 p (0 : Fin 1)) = D2 (ix2 i (0 : Fin 1)))
    (hw0 : ∀ a b : Fin 256, w0 (ix2 a b) = W0 (ix2 a b)) (hw1 : ∀ a b : Fin 256, w1 (ix2 a b) = W1 (ix2 a b)) (q : Fin 256) :
    Gen.k0_pay2 d x agg w0 w1 (ix2 p q) = Cert.Tag.blockX X AG D2 W0 W1 (ix2 i q) := by
  refine (pay2_apply d x agg w0 w1 p q).trans ?_
  unfold Cert.Tag.blockX
  rw [Cert.Tag.arr2_ix2]
  refine congrArg₂ (· + ·) ?_ ?_
  · exact Finset.sum_congr rfl fun k _ => by rw [hx, hw0]
  · exact Finset.sum_congr rfl fun k _ => by rw [hagg, hd, hw1]

/-! ## The staged blocks as rows of the operand arrays -/

variable (V : (c : Dev nD) → (b : Ref sig .tc) → Buf (Elt Ideal) ((c : Thread nD τ).loc b))

theorem hz : (![0, 0] : Fin 2 → Nat) = fun _ => 0 := funext fun a => by fin_cases a <;> rfl

/-- The windows' block positions over the grid: the row-blocked windows sit at block row `t`, the two weight windows
    at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of the node matrix's block at point `t` is row `2000 t + p` of the matrix. -/
theorem iblk_0_apply (c : Dev nD) (t : Fin cfg0.N) (p : Fin 2000) (q : Fin 256) (i : Fin 50000)
    (hi : i.val = t.val * 2000 + p.val) :
    (Gen.iblk0 V c 0 t : Vec Ideal S2000x256 .f32) (ix2 p q) = (V c main_arg0 : S50000x256.Idx → EReal) (ix2 i q) := by
  obtain ⟨e0, e1, -⟩ := idx_facts t
  unfold Gen.iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = i.val; rw [e0, hi]; omega
  | ⟨1, _⟩ => show win0_0.index t (1 : Fin 2) * 256 + 1 * q.val = q.val; rw [e1]; omega

/-- The same for the aggregate. -/
theorem iblk_1_apply (c : Dev nD) (t : Fin cfg0.N) (p : Fin 2000) (q : Fin 256) (i : Fin 50000)
    (hi : i.val = t.val * 2000 + p.val) :
    (Gen.iblk0 V c 1 t : Vec Ideal S2000x256 .f32) (ix2 p q) = (V c main_v33 : S50000x256.Idx → EReal) (ix2 i q) := by
  obtain ⟨-, -, e0, e1, -⟩ := idx_facts t
  unfold Gen.iblk0
  rw [View.read_apply]
  show V c main_v33 _ = V c main_v33 _
  refine congrArg (V c main_v33) (funext fun a => Fin.ext ?_)
  match a with
  | ⟨0, _⟩ => show win0_1.index t (0 : Fin 2) * 2000 + 1 * p.val = i.val; rw [e0, hi]; omega
  | ⟨1, _⟩ => show win0_1.index t (1 : Fin 2) * 256 + 1 * q.val = q.val; rw [e1]; omega

/-- Entry `p` of the column operand's block at point `t` is entry `2000 t + p` of the column. -/
theorem iblk_2_apply (c : Dev nD) (t : Fin cfg0.N) (p : Fin 2000) (i : Fin 50000)
    (hi : i.val = t.val * 2000 + p.val) :
    (Gen.iblk0 V c 2 t : Vec Ideal S2000x1 .f32) (ix2 p (0 : Fin 1)) = (V c main_v15 : S50000x1.Idx → EReal) (ix2 i (0 : Fin 1)) := by
  obtain ⟨-, -, -, -, e0, e1, -⟩ := idx_facts t
  unfold Gen.iblk0
  rw [View.read_apply]
  show V c main_v15 _ = V c main_v15 _
  refine congrArg (V c main_v15) (funext fun a => Fin.ext ?_)
  match a with
  | ⟨0, _⟩ => show win0_2.index t (0 : Fin 2) * 2000 + 1 * p.val = i.val; rw [e0, hi]; omega
  | ⟨1, _⟩ => show win0_2.index t (1 : Fin 2) * 1 + 1 * 0 = 0; rw [e1]

/-- The weight windows hold their whole arrays at every point. -/
theorem iblk_3_apply (c : Dev nD) (t : Fin cfg0.N) (a b : Fin 256) :
    (Gen.iblk0 V c 3 t : Vec Ideal S256x256 .bf16) (ix2 a b) = (V c main_v35 : S256x256.Idx → EReal) (ix2 a b) := by
  obtain ⟨-, -, -, -, -, -, e0, e1, -⟩ := idx_facts t
  unfold Gen.iblk0
  rw [View.read_apply]
  show V c main_v35 _ = V c main_v35 _
  refine congrArg (V c main_v35) (funext fun k => Fin.ext ?_)
  match k with
  | ⟨0, _⟩ => show win0_3.index t (0 : Fin 2) * 256 + 1 * a.val = a.val; rw [e0]; omega
  | ⟨1, _⟩ => show win0_3.index t (1 : Fin 2) * 256 + 1 * b.val = b.val; rw [e1]; omega

theorem iblk_4_apply (c : Dev nD) (t : Fin cfg0.N) (a b : Fin 256) :
    (Gen.iblk0 V c 4 t : Vec Ideal S256x256 .bf16) (ix2 a b) = (V c main_v37 : S256x256.Idx → EReal) (ix2 a b) := by
  obtain ⟨-, -, -, -, -, -, -, -, e0, e1, -⟩ := idx_facts t
  unfold Gen.iblk0
  rw [View.read_apply]
  show V c main_v37 _ = V c main_v37 _
  refine congrArg (V c main_v37) (funext fun k => Fin.ext ?_)
  match k with
  | ⟨0, _⟩ => show win0_4.index t (0 : Fin 2) * 256 + 1 * a.val = a.val; rw [e0]; omega
  | ⟨1, _⟩ => show win0_4.index t (1 : Fin 2) * 256 + 1 * b.val = b.val; rw [e1]; omega

/-! ## What a point writes back -/

/-- The row of the arrays that row `p` of the blocks at point `t` is. -/
def rowOf (t : Fin cfg0.N) (p : Fin 2000) : Fin 50000 :=
  ⟨t.val * 2000 + p.val, by have h : t.val < 25 := Nat.lt_of_lt_of_eq t.isLt Gen.N_0
                            have := p.isLt; omega⟩

/-- The body's first result on the blocks of point `t`, at `(p, q)`. -/
theorem point_x (c : Dev nD) (t : Fin cfg0.N) (p : Fin 2000) (q : Fin 256) :
    Gen.k0_pay2 (Gen.iblk0 V c 2 t) (Gen.iblk0 V c 0 t) (Gen.iblk0 V c 1 t) (Gen.iblk0 V c 3 t) (Gen.iblk0 V c 4 t) (ix2 p q)
      = Cert.Tag.blockX (V c main_arg0) (V c main_v33) (V c main_v15) (V c main_v35) (V c main_v37) (ix2 (rowOf t p) q) :=
  pay2_eq_blockX (V c main_arg0) (V c main_v33) (V c main_v15) (V c main_v35) (V c main_v37)
    (Gen.iblk0 V c 2 t) (Gen.iblk0 V c 0 t) (Gen.iblk0 V c 1 t) (Gen.iblk0 V c 3 t) (Gen.iblk0 V c 4 t) (rowOf t p) p
    (fun k => iblk_0_apply V c t p k (rowOf t p) rfl) (fun k => iblk_1_apply V c t p k (rowOf t p) rfl)
    (iblk_2_apply V c t p (rowOf t p) rfl) (fun a b => iblk_3_apply V c t a b) (fun a b => iblk_4_apply V c t a b) q

/-- The body's second result on the blocks of point `t`, at `(p, q)`. -/
theorem point_xn (c : Dev nD) (t : Fin cfg0.N) (p : Fin 2000) (q : Fin 256) :
    Gen.k0_pay3 (Gen.iblk0 V c 2 t) (Gen.iblk0 V c 0 t) (Gen.iblk0 V c 1 t) (Gen.iblk0 V c 3 t) (Gen.iblk0 V c 4 t) (ix2 p q)
      = Cert.Tag.blockXn (V c main_arg0) (V c main_v33) (V c main_v15) (V c main_v35) (V c main_v37) (ix2 (rowOf t p) q) := by
  refine (pay3_apply _ _ _ _ _ p q).trans ?_
  rw [Cert.Tag.blockXn_apply]
  exact congrArg₂ (· * ·) (point_x V c t p q) (iblk_2_apply V c t p (rowOf t p) rfl)

/-- What point `t` writes back to the first output is block `t` of the first output's formula. -/
theorem flushed5_eq (c : Dev nD) (t : Fin cfg0.N) :
    (Gen.dat0 (F := Ideal) V c).flushed 5 t = ((cfg0.win 5).blk t).view.read (Elt Ideal)
      (Cert.Tag.blockX (V c main_arg0) (V c main_v33) (V c main_v15) (V c main_v35) (V c main_v37)) := by
  show (cfg0.win 5).cut (grid0.coords t) ((Gen.dat0 V c).after 5 t) = _
  rw [Gen.after0_5]
  unfold Gen.out0_5
  rw [View.canon_unit_zero hz]
  simp only [View.ld_unit_zero (S := S2000x256) hz, View.ld_unit_zero (S := S2000x1) hz, View.ld_unit_zero (S := S256x256) hz]
  obtain ⟨-, -, -, -, -, -, -, -, -, -, e0, e1, -⟩ := idx_facts t
  funext j
  obtain ⟨p, q, rfl⟩ : ∃ (p : Fin 2000) (q : Fin 256), j = ix2 p q := ⟨j 0, j 1, eq_ix2 j⟩
  refine (point_x V c t p q).trans ?_
  rw [View.read_apply]
  refine congrArg (Cert.Tag.blockX (V c main_arg0) (V c main_v33) (V c main_v15) (V c main_v35) (V c main_v37))
    (funext fun a => Fin.ext ?_)
  match a with
  | ⟨0, _⟩ => show t.val * 2000 + p.val = win0_5.index t (0 : Fin 2) * 2000 + 1 * p.val; rw [e0]; omega
  | ⟨1, _⟩ => show q.val = win0_5.index t (1 : Fin 2) * 256 + 1 * q.val; rw [e1]; omega

/-- What point `t` writes back to the second output is block `t` of the second output's formula. -/
theorem flushed6_eq (c : Dev nD) (t : Fin cfg0.N) :
    (Gen.dat0 (F := Ideal) V c).flushed 6 t = ((cfg0.win 6).blk t).view.read (Elt Ideal)
      (Cert.Tag.blockXn (V c main_arg0) (V c main_v33) (V c main_v15) (V c main_v35) (V c main_v37)) := by
  show (cfg0.win 6).cut (grid0.coords t) ((Gen.dat0 V c).after 6 t) = _
  rw [Gen.after0_6]
  unfold Gen.out0_6
  rw [View.canon_unit_zero hz]
  simp only [View.ld_unit_zero (S := S2000x256) hz, View.ld_unit_zero (S := S2000x1) hz, View.ld_unit_zero (S := S256x256) hz]
  obtain ⟨-, -, -, -, -, -, -, -, -, -, -, -, e0, e1⟩ := idx_facts t
  funext j
  obtain ⟨p, q, rfl⟩ : ∃ (p : Fin 2000) (q : Fin 256), j = ix2 p q := ⟨j 0, j 1, eq_ix2 j⟩
  refine (point_xn V c t p q).trans ?_
  rw [View.read_apply]
  refine congrArg (Cert.Tag.blockXn (V c main_arg0) (V c main_v33) (V c main_v15) (V c main_v35) (V c main_v37))
    (funext fun a => Fin.ext ?_)
  match a with
  | ⟨0, _⟩ => show t.val * 2000 + p.val = win0_6.index t (0 : Fin 2) * 2000 + 1 * p.val; rw [e0]; omega
  | ⟨1, _⟩ => show q.val = win0_6.index t (1 : Fin 2) * 256 + 1 * q.val; rw [e1]; omega

/-! ## The blocks cover the outputs -/

/-- An index of the first output is in point `t`'s block iff each coordinate is in the block's range on its axis. -/
theorem mem_blk5 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v38_0).slice (win0_5.rect t)).set ↔ _
  rw [View.set_slice_whole, Rect.mem_set_unit]
  exact Iff.rfl

theorem mem_blk6 (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v38_1).slice (win0_6.rect t)).set ↔ _
  rw [View.set_slice_whole, Rect.mem_set_unit]
  exact Iff.rfl

/-- The point whose blocks hold row `r`: `r / 2000`. -/
def pointOf (i : S50000x256.Idx) : Fin cfg0.N :=
  ⟨(i 0).val / 2000, by rw [show cfg0.N = 25 from Gen.N_0]; have := idx2_lt0 i; omega⟩

/-- Every index of the first output is in the block of its row's point. -/
theorem cover5 (i : S50000x256.Idx) :
    ∃ t : Fin cfg0.N, (cfg0.win 5).flush t = true ∧ i ∈ ((cfg0.win 5).blk t).view.set := by
  refine ⟨pointOf i, Gen.flush0_5 _, ?_⟩
  obtain ⟨-, -, -, -, -, -, -, -, -, -, e0, e1, -⟩ := idx_facts (pointOf i)
  have h0 : (i 0).val < 50000 := idx2_lt0 i
  have h1 : (i 1).val < 256 := idx2_lt1 i
  have hp : (pointOf i).val = (i 0).val / 2000 := rfl
  rw [mem_blk5]
  intro a
  match a with
  | ⟨0, _⟩ => show win0_5.index (pointOf i) (0 : Fin 2) * 2000 ≤ (i 0).val ∧ (i 0).val < win0_5.index (pointOf i) (0 : Fin 2) * 2000 + 2000
              rw [e0, hp]; omega
  | ⟨1, _⟩ => show win0_5.index (pointOf i) (1 : Fin 2) * 256 ≤ (i 1).val ∧ (i 1).val < win0_5.index (pointOf i) (1 : Fin 2) * 256 + 256
              rw [e1]; omega

theorem cover6 (i : S50000x256.Idx) :
    ∃ t : Fin cfg0.N, (cfg0.win 6).flush t = true ∧ i ∈ ((cfg0.win 6).blk t).view.set := by
  refine ⟨pointOf i, Gen.flush0_6 _, ?_⟩
  obtain ⟨-, -, -, -, -, -, -, -, -, -, -, -, e0, e1⟩ := idx_facts (pointOf i)
  have h0 : (i 0).val < 50000 := idx2_lt0 i
  have h1 : (i 1).val < 256 := idx2_lt1 i
  have hp : (pointOf i).val = (i 0).val / 2000 := rfl
  rw [mem_blk6]
  intro a
  match a with
  | ⟨0, _⟩ => show win0_6.index (pointOf i) (0 : Fin 2) * 2000 ≤ (i 0).val ∧ (i 0).val < win0_6.index (pointOf i) (0 : Fin 2) * 2000 + 2000
              rw [e0, hp]; omega
  | ⟨1, _⟩ => show win0_6.index (pointOf i) (1 : Fin 2) * 256 ≤ (i 1).val ∧ (i 1).val < win0_6.index (pointOf i) (1 : Fin 2) * 256 + 256
              rw [e1]; omega

end R0

/-! ## The two outputs after the launch -/

/-- After launch 0 the first output holds `x · w0 + (agg ⊙ d) · w1` of the five operand arrays as the launch found
    them. -/
theorem region0_x (V : (c : Dev nD) → (b : Ref sig .tc) → Buf (Elt Ideal) ((c : Thread nD τ).loc b)) (c : Dev nD) :
    (Gen.dat0 (F := Ideal) V c).arrAt 5 cfg0.N
      = Cert.Tag.blockX (V c main_arg0) (V c main_v33) (V c main_v15) (V c main_v35) (V c main_v37) :=
  (Gen.dat0 (F := Ideal) V c).arrAt_eq_of_cover 5 _ (fun t _ => R0.flushed5_eq V c t) R0.cover5

/-- And the second output holds the first scaled row by row by the column operand. -/
theorem region0_xn (V : (c : Dev nD) → (b : Ref sig .tc) → Buf (Elt Ideal) ((c : Thread nD τ).loc b)) (c : Dev nD) :
    (Gen.dat0 (F := Ideal) V c).arrAt 6 cfg0.N
      = Cert.Tag.blockXn (V c main_arg0) (V c main_v33) (V c main_v15) (V c main_v35) (V c main_v37) :=
  (Gen.dat0 (F := Ideal) V c).arrAt_eq_of_cover 6 _ (fun t _ => R0.flushed6_eq V c t) R0.cover6

end Cert.KernelIdeal.KBlock

end
-- ==== Proof.KBlock1.lean ====
/-
  Launch 1 of the dense kernel, read as arrays.

  The launch runs the kernel body at 25 grid points. Point `t` stages rows `2000 t … 2000 t + 1999` of the node
  matrix, of the aggregate and of the column operand, and the two 256 × 256 weight matrices whole. Over the extended
  reals the roundings to the narrow format on the way into the products are the identity, so the body leaves, in rows
  `2000 t …` of the first output, `x · w0 + (agg ⊙ d) · w1` — two matrix products into zero accumulators, `d` the
  column operand spread along each row — and, in the same rows of the second output, that result scaled row by row
  by `d`. Row `r` of either output lies in the block of point `r / 2000`, so the blocks cover the outputs, and after
  the launch each output is its formula of the five operand arrays as the launch found them, whatever those were.
-/
import proofs.«141509_j41120016892381_2_alg».proof.Proof.Spec
import proofs.«141509_j41120016892381_2_alg».proof.Proof.Gen.KernelIdeal.Frame
import proofs.«141509_j41120016892381_2_alg».proof.Proof.LibPlainMatmul
import Idealize.ShloMosaic.Lib.Pipeline.Value

noncomputable section

namespace Cert.KernelIdeal.KBlock

open Cert.KernelIdeal Idealize.ShloMosaic Idealize.ShloMosaic.TcCoe Idealize.ShloMosaic.ValueIdx Idealize.SL.Sem
open Idealize.ShloMosaic.Pipeline (Dat)
open scoped BigOperators

namespace R1

/-! ## The body's two results at an index -/

/-- The column block spread along the row reads, at `(p, q)`, the column at `p`. -/
theorem bcast_col_apply {α : Type} (d : S2000x1.Idx → α) (h : S2000x1.Broadcasts S2000x256) (p : Fin 2000) (q : Fin 256) :
    broadcastTo S2000x256 d h (ix2 p q) = d (ix2 p (0 : Fin 1)) := by
  refine broadcastTo_apply d h (ix2 p q) (ix2 p (0 : Fin 1)) fun a => ?_
  match a with
  | ⟨0, _⟩ => rfl
  | ⟨1, _⟩ => rfl

/-- The first result at `(p, q)`: row `p` of `x` against column `q` of `w0`, plus row `p` of `agg` scaled by `d p` against
    column `q` of `w1`. -/
theorem pay2_apply (d : Vec Ideal S2000x1 .f32) (x agg : Vec Ideal S2000x256 .f32) (w0 w1 : Vec Ideal S256x256 .bf16)
    (p : Fin 2000) (q : Fin 256) :
    Gen.k1_pay2 d x agg w0 w1 (ix2 p q)
      = (∑ k : Fin 256, x (ix2 p k) * w0 (ix2 k q)) + ∑ k : Fin 256, (agg (ix2 p k) * d (ix2 p (0 : Fin 1))) * w1 (ix2 k q) := by
  unfold Gen.k1_pay2 Gen.k1_pay1
  rw [addf_apply]
  refine congrArg₂ (· + ·) ?_ ?_
  · refine (Cert.LibPlainMatmul.matmul_zero_plain _ _ _ p q).trans ?_
    refine Finset.sum_congr rfl fun k _ => ?_
    simp only [truncf_apply, shapeCast_self]
  · refine (Cert.LibPlainMatmul.matmul_zero_plain _ _ _ p q).trans ?_
    refine Finset.sum_congr rfl fun k _ => ?_
    simp only [truncf_apply, mulf_apply, shapeCast_self, bcast_col_apply]

/-- The second result at `(p, q)`: the first scaled by `d p`. -/
theorem pay3_apply (d : Vec Ideal S2000x1 .f32) (x agg : Vec Ideal S2000x256 .f32) (w0 w1 : Vec Ideal S256x256 .bf16)
    (p : Fin 2000) (q : Fin 256) :
    Gen.k1_pay3 d x agg w0 w1 (ix2 p q) = Gen.k1_pay2 d x agg w0 w1 (ix2 p q) * d (ix2 p (0 : Fin 1)) := by
  unfold Gen.k1_pay3 Gen.k1_pay1
  simp only [truncf_apply, mulf_apply, shapeCast_self, bcast_col_apply]

/-- The first result at row `p` of blocks whose row `p` is row `i` of the operand arrays is the first output's
    formula at row `i`. -/
theorem pay2_eq_blockX (X AG : Cert.Tag.SX.Idx → EReal) (D2 : Cert.Tag.SN1.Idx → EReal) (W0 W1 : Cert.Tag.SD.Idx → EReal)
    (d : Vec Ideal S2000x1 .f32) (x agg : Vec Ideal S2000x256 .f32) (w0 w1 : Vec Ideal S256x256 .bf16)
    (i : Fin 50000) (p : Fin 2000)
    (hx : ∀ k : Fin 256, x (ix2 p k) = X (ix2 i k)) (hagg : ∀ k : Fin 256, agg (ix2 p k) = AG (ix2 i k))
    (hd : d (ix2 p (0 : Fin 1)) = D2 (ix2 i (0 : Fin 1)))
    (hw0 : ∀ a b : Fin 256, w0 (ix2 a b) = W0 (ix2 a b)) (hw1 : ∀ a b : Fin 256, w1 (ix2 a b) = W1 (ix2 a b)) (q : Fin 256) :
    Gen.k1_pay2 d x agg w0 w1 (ix2 p q) = Cert.Tag.blockX X AG D2 W0 W1 (ix2 i q) := by
  refine (pay2_apply d x agg w0 w1 p q).trans ?_
  unfold Cert.Tag.blockX
  rw [Cert.Tag.arr2_ix2]
  refine congrArg₂ (· + ·) ?_ ?_
  · exact Finset.sum_congr rfl fun k _ => by rw [hx, hw0]
  · exact Finset.sum_congr rfl fun k _ => by rw [hagg, hd, hw1]

/-! ## The staged blocks as rows of the operand arrays -/

variable (V : (c : Dev nD) → (b : Ref sig .tc) → Buf (Elt Ideal) ((c : Thread nD τ).loc b))

theorem hz : (![0, 0] : Fin 2 → Nat) = fun _ => 0 := funext fun a => by fin_cases a <;> rfl

/-- The windows' block positions over the grid: the row-blocked windows sit at block row `t`, the two weight windows
    at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row `p` of the node matrix's block at point `t` is row `2000 t + p` of the matrix. -/
theorem iblk_0_apply (c : Dev nD) (t : Fin cfg1.N) (p : Fin 2000) (q : Fin 256) (i : Fin 50000)
    (hi : i.val = t.val * 2000 + p.val) :
    (Gen.iblk1 V c 0 t : Vec Ideal S2000x256 .f32) (ix2 p q) = (V c main_v38_0 : S50000x256.Idx → EReal) (ix2 i q) := by
  obtain ⟨e0, e1, -⟩ := idx_facts t
  unfold Gen.iblk1
  rw [View.read_apply]
  show V c main_v38_0 _ = V c main_v38_0 _
  refine congrArg (V c main_v38_0) (funext fun a => Fin.ext ?_)
  match a with
  | ⟨0, _⟩ => show win1_0.index t (0 : Fin 2) * 2000 + 1 * p.val = i.val; rw [e0, hi]; omega
  | ⟨1, _⟩ => show win1_0.index t (1 : Fin 2) * 256 + 1 * q.val = q.val; rw [e1]; omega

/-- The same for the aggregate. -/
theorem iblk_1_apply (c : Dev nD) (t : Fin cfg1.N) (p : Fin 2000) (q : Fin 256) (i : Fin 50000)
    (hi : i.val = t.val * 2000 + p.val) :
    (Gen.iblk1 V c 1 t : Vec Ideal S2000x256 .f32) (ix2 p q) = (V c main_v49 : S50000x256.Idx → EReal) (ix2 i q) := by
  obtain ⟨-, -, e0, e1, -⟩ := idx_facts t
  unfold Gen.iblk1
  rw [View.read_apply]
  show V c main_v49 _ = V c main_v49 _
  refine congrArg (V c main_v49) (funext fun a => Fin.ext ?_)
  match a with
  | ⟨0, _⟩ => show win1_1.index t (0 : Fin 2) * 2000 + 1 * p.val = i.val; rw [e0, hi]; omega
  | ⟨1, _⟩ => show win1_1.index t (1 : Fin 2) * 256 + 1 * q.val = q.val; rw [e1]; omega

/-- Entry `p` of the column operand's block at point `t` is entry `2000 t + p` of the column. -/
theorem iblk_2_apply (c : Dev nD) (t : Fin cfg1.N) (p : Fin 2000) (i : Fin 50000)
    (hi : i.val = t.val * 2000 + p.val) :
    (Gen.iblk1 V c 2 t : Vec Ideal S2000x1 .f32) (ix2 p (0 : Fin 1)) = (V c main_v15 : S50000x1.Idx → EReal) (ix2 i (0 : Fin 1)) := by
  obtain ⟨-, -, -, -, e0, e1, -⟩ := idx_facts t
  unfold Gen.iblk1
  rw [View.read_apply]
  show V c main_v15 _ = V c main_v15 _
  refine congrArg (V c main_v15) (funext fun a => Fin.ext ?_)
  match a with
  | ⟨0, _⟩ => show win1_2.index t (0 : Fin 2) * 2000 + 1 * p.val = i.val; rw [e0, hi]; omega
  | ⟨1, _⟩ => show win1_2.index t (1 : Fin 2) * 1 + 1 * 0 = 0; rw [e1]

/-- The weight windows hold their whole arrays at every point. -/
theorem iblk_3_apply (c : Dev nD) (t : Fin cfg1.N) (a b : Fin 256) :
    (Gen.iblk1 V c 3 t : Vec Ideal S256x256 .bf16) (ix2 a b) = (V c main_v51 : S256x256.Idx → EReal) (ix2 a b) := by
  obtain ⟨-, -, -, -, -, -, e0, e1, -⟩ := idx_facts t
  unfold Gen.iblk1
  rw [View.read_apply]
  show V c main_v51 _ = V c main_v51 _
  refine congrArg (V c main_v51) (funext fun k => Fin.ext ?_)
  match k with
  | ⟨0, _⟩ => show win1_3.index t (0 : Fin 2) * 256 + 1 * a.val = a.val; rw [e0]; omega
  | ⟨1, _⟩ => show win1_3.index t (1 : Fin 2) * 256 + 1 * b.val = b.val; rw [e1]; omega

theorem iblk_4_apply (c : Dev nD) (t : Fin cfg1.N) (a b : Fin 256) :
    (Gen.iblk1 V c 4 t : Vec Ideal S256x256 .bf16) (ix2 a b) = (V c main_v53 : S256x256.Idx → EReal) (ix2 a b) := by
  obtain ⟨-, -, -, -, -, -, -, -, e0, e1, -⟩ := idx_facts t
  unfold Gen.iblk1
  rw [View.read_apply]
  show V c main_v53 _ = V c main_v53 _
  refine congrArg (V c main_v53) (funext fun k => Fin.ext ?_)
  match k with
  | ⟨0, _⟩ => show win1_4.index t (0 : Fin 2) * 256 + 1 * a.val = a.val; rw [e0]; omega
  | ⟨1, _⟩ => show win1_4.index t (1 : Fin 2) * 256 + 1 * b.val = b.val; rw [e1]; omega

/-! ## What a point writes back -/

/-- The row of the arrays that row `p` of the blocks at point `t` is. -/
def rowOf (t : Fin cfg1.N) (p : Fin 2000) : Fin 50000 :=
  ⟨t.val * 2000 + p.val, by have h : t.val < 25 := Nat.lt_of_lt_of_eq t.isLt Gen.N_1
                            have := p.isLt; omega⟩

/-- The body's first result on the blocks of point `t`, at `(p, q)`. -/
theorem point_x (c : Dev nD) (t : Fin cfg1.N) (p : Fin 2000) (q : Fin 256) :
    Gen.k1_pay2 (Gen.iblk1 V c 2 t) (Gen.iblk1 V c 0 t) (Gen.iblk1 V c 1 t) (Gen.iblk1 V c 3 t) (Gen.iblk1 V c 4 t) (ix2 p q)
      = Cert.Tag.blockX (V c main_v38_0) (V c main_v49) (V c main_v15) (V c main_v51) (V c main_v53) (ix2 (rowOf t p) q) :=
  pay2_eq_blockX (V c main_v38_0) (V c main_v49) (V c main_v15) (V c main_v51) (V c main_v53)
    (Gen.iblk1 V c 2 t) (Gen.iblk1 V c 0 t) (Gen.iblk1 V c 1 t) (Gen.iblk1 V c 3 t) (Gen.iblk1 V c 4 t) (rowOf t p) p
    (fun k => iblk_0_apply V c t p k (rowOf t p) rfl) (fun k => iblk_1_apply V c t p k (rowOf t p) rfl)
    (iblk_2_apply V c t p (rowOf t p) rfl) (fun a b => iblk_3_apply V c t a b) (fun a b => iblk_4_apply V c t a b) q

/-- The body's second result on the blocks of point `t`, at `(p, q)`. -/
theorem point_xn (c : Dev nD) (t : Fin cfg1.N) (p : Fin 2000) (q : Fin 256) :
    Gen.k1_pay3 (Gen.iblk1 V c 2 t) (Gen.iblk1 V c 0 t) (Gen.iblk1 V c 1 t) (Gen.iblk1 V c 3 t) (Gen.iblk1 V c 4 t) (ix2 p q)
      = Cert.Tag.blockXn (V c main_v38_0) (V c main_v49) (V c main_v15) (V c main_v51) (V c main_v53) (ix2 (rowOf t p) q) := by
  refine (pay3_apply _ _ _ _ _ p q).trans ?_
  rw [Cert.Tag.blockXn_apply]
  exact congrArg₂ (· * ·) (point_x V c t p q) (iblk_2_apply V c t p (rowOf t p) rfl)

/-- What point `t` writes back to the first output is block `t` of the first output's formula. -/
theorem flushed5_eq (c : Dev nD) (t : Fin cfg1.N) :
    (Gen.dat1 (F := Ideal) V c).flushed 5 t = ((cfg1.win 5).blk t).view.read (Elt Ideal)
      (Cert.Tag.blockX (V c main_v38_0) (V c main_v49) (V c main_v15) (V c main_v51) (V c main_v53)) := by
  show (cfg1.win 5).cut (grid1.coords t) ((Gen.dat1 V c).after 5 t) = _
  rw [Gen.after1_5]
  unfold Gen.out1_5
  rw [View.canon_unit_zero hz]
  simp only [View.ld_unit_zero (S := S2000x256) hz, View.ld_unit_zero (S := S2000x1) hz, View.ld_unit_zero (S := S256x256) hz]
  obtain ⟨-, -, -, -, -, -, -, -, -, -, e0, e1, -⟩ := idx_facts t
  funext j
  obtain ⟨p, q, rfl⟩ : ∃ (p : Fin 2000) (q : Fin 256), j = ix2 p q := ⟨j 0, j 1, eq_ix2 j⟩
  refine (point_x V c t p q).trans ?_
  rw [View.read_apply]
  refine congrArg (Cert.Tag.blockX (V c main_v38_0) (V c main_v49) (V c main_v15) (V c main_v51) (V c main_v53))
    (funext fun a => Fin.ext ?_)
  match a with
  | ⟨0, _⟩ => show t.val * 2000 + p.val = win1_5.index t (0 : Fin 2) * 2000 + 1 * p.val; rw [e0]; omega
  | ⟨1, _⟩ => show q.val = win1_5.index t (1 : Fin 2) * 256 + 1 * q.val; rw [e1]; omega

/-- What point `t` writes back to the second output is block `t` of the second output's formula. -/
theorem flushed6_eq (c : Dev nD) (t : Fin cfg1.N) :
    (Gen.dat1 (F := Ideal) V c).flushed 6 t = ((cfg1.win 6).blk t).view.read (Elt Ideal)
      (Cert.Tag.blockXn (V c main_v38_0) (V c main_v49) (V c main_v15) (V c main_v51) (V c main_v53)) := by
  show (cfg1.win 6).cut (grid1.coords t) ((Gen.dat1 V c).after 6 t) = _
  rw [Gen.after1_6]
  unfold Gen.out1_6
  rw [View.canon_unit_zero hz]
  simp only [View.ld_unit_zero (S := S2000x256) hz, View.ld_unit_zero (S := S2000x1) hz, View.ld_unit_zero (S := S256x256) hz]
  obtain ⟨-, -, -, -, -, -, -, -, -, -, -, -, e0, e1⟩ := idx_facts t
  funext j
  obtain ⟨p, q, rfl⟩ : ∃ (p : Fin 2000) (q : Fin 256), j = ix2 p q := ⟨j 0, j 1, eq_ix2 j⟩
  refine (point_xn V c t p q).trans ?_
  rw [View.read_apply]
  refine congrArg (Cert.Tag.blockXn (V c main_v38_0) (V c main_v49) (V c main_v15) (V c main_v51) (V c main_v53))
    (funext fun a => Fin.ext ?_)
  match a with
  | ⟨0, _⟩ => show t.val * 2000 + p.val = win1_6.index t (0 : Fin 2) * 2000 + 1 * p.val; rw [e0]; omega
  | ⟨1, _⟩ => show q.val = win1_6.index t (1 : Fin 2) * 256 + 1 * q.val; rw [e1]; omega

/-! ## The blocks cover the outputs -/

/-- An index of the first output is in point `t`'s block iff each coordinate is in the block's range on its axis. -/
theorem mem_blk5 (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v54_0).slice (win1_5.rect t)).set ↔ _
  rw [View.set_slice_whole, Rect.mem_set_unit]
  exact Iff.rfl

theorem mem_blk6 (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v54_1).slice (win1_6.rect t)).set ↔ _
  rw [View.set_slice_whole, Rect.mem_set_unit]
  exact Iff.rfl

/-- The point whose blocks hold row `r`: `r / 2000`. -/
def pointOf (i : S50000x256.Idx) : Fin cfg1.N :=
  ⟨(i 0).val / 2000, by rw [show cfg1.N = 25 from Gen.N_1]; have := idx2_lt0 i; omega⟩

/-- Every index of the first output is in the block of its row's point. -/
theorem cover5 (i : S50000x256.Idx) :
    ∃ t : Fin cfg1.N, (cfg1.win 5).flush t = true ∧ i ∈ ((cfg1.win 5).blk t).view.set := by
  refine ⟨pointOf i, Gen.flush1_5 _, ?_⟩
  obtain ⟨-, -, -, -, -, -, -, -, -, -, e0, e1, -⟩ := idx_facts (pointOf i)
  have h0 : (i 0).val < 50000 := idx2_lt0 i
  have h1 : (i 1).val < 256 := idx2_lt1 i
  have hp : (pointOf i).val = (i 0).val / 2000 := rfl
  rw [mem_blk5]
  intro a
  match a with
  | ⟨0, _⟩ => show win1_5.index (pointOf i) (0 : Fin 2) * 2000 ≤ (i 0).val ∧ (i 0).val < win1_5.index (pointOf i) (0 : Fin 2) * 2000 + 2000
              rw [e0, hp]; omega
  | ⟨1, _⟩ => show win1_5.index (pointOf i) (1 : Fin 2) * 256 ≤ (i 1).val ∧ (i 1).val < win1_5.index (pointOf i) (1 : Fin 2) * 256 + 256
              rw [e1]; omega

theorem cover6 (i : S50000x256.Idx) :
    ∃ t : Fin cfg1.N, (cfg1.win 6).flush t = true ∧ i ∈ ((cfg1.win 6).blk t).view.set := by
  refine ⟨pointOf i, Gen.flush1_6 _, ?_⟩
  obtain ⟨-, -, -, -, -, -, -, -, -, -, -, -, e0, e1⟩ := idx_facts (pointOf i)
  have h0 : (i 0).val < 50000 := idx2_lt0 i
  have h1 : (i 1).val < 256 := idx2_lt1 i
  have hp : (pointOf i).val = (i 0).val / 2000 := rfl
  rw [mem_blk6]
  intro a
  match a with
  | ⟨0, _⟩ => show win1_6.index (pointOf i) (0 : Fin 2) * 2000 ≤ (i 0).val ∧ (i 0).val < win1_6.index (pointOf i) (0 : Fin 2) * 2000 + 2000
              rw [e0, hp]; omega
  | ⟨1, _⟩ => show win1_6.index (pointOf i) (1 : Fin 2) * 256 ≤ (i 1).val ∧ (i 1).val < win1_6.index (pointOf i) (1 : Fin 2) * 256 + 256
              rw [e1]; omega

end R1

/-! ## The two outputs after the launch -/

/-- After launch 1 the first output holds `x · w0 + (agg ⊙ d) · w1` of the five operand arrays as the launch found
    them. -/
theorem region1_x (V : (c : Dev nD) → (b : Ref sig .tc) → Buf (Elt Ideal) ((c : Thread nD τ).loc b)) (c : Dev nD) :
    (Gen.dat1 (F := Ideal) V c).arrAt 5 cfg1.N
      = Cert.Tag.blockX (V c main_v38_0) (V c main_v49) (V c main_v15) (V c main_v51) (V c main_v53) :=
  (Gen.dat1 (F := Ideal) V c).arrAt_eq_of_cover 5 _ (fun t _ => R1.flushed5_eq V c t) R1.cover5

/-- And the second output holds the first scaled row by row by the column operand. -/
theorem region1_xn (V : (c : Dev nD) → (b : Ref sig .tc) → Buf (Elt Ideal) ((c : Thread nD τ).loc b)) (c : Dev nD) :
    (Gen.dat1 (F := Ideal) V c).arrAt 6 cfg1.N
      = Cert.Tag.blockXn (V c main_v38_0) (V c main_v49) (V c main_v15) (V c main_v51) (V c main_v53) :=
  (Gen.dat1 (F := Ideal) V c).arrAt_eq_of_cover 6 _ (fun t _ => R1.flushed6_eq V c t) R1.cover6

end Cert.KernelIdeal.KBlock

end
-- ==== Proof.KBlock2.lean ====
/-
  Launch 2 of the dense kernel, read as arrays.

  The launch runs the kernel body at 25 grid points. Point `t` stages rows `2000 t … 2000 t + 1999` of the node
  matrix, of the aggregate and of the column operand, and the two 256 × 256 weight matrices whole. Over the extended
  reals the roundings to the narrow format on the way into the products are the identity, so the body leaves, in rows
  `2000 t …` of the first output, `x · w0 + (agg ⊙ d) · w1` — two matrix products into zero accumulators, `d` the
  column operand spread along each row — and, in the same rows of the second output, that result scaled row by row
  by `d`. Row `r` of either output lies in the block of point `r / 2000`, so the blocks cover the outputs, and after
  the launch each output is its formula of the five operand arrays as the launch found them, whatever those were.
-/
import proofs.«141509_j41120016892381_2_alg».proof.Proof.Spec
import proofs.«141509_j41120016892381_2_alg».proof.Proof.Gen.KernelIdeal.Frame
import proofs.«141509_j41120016892381_2_alg».proof.Proof.LibPlainMatmul
import Idealize.ShloMosaic.Lib.Pipeline.Value

noncomputable section

namespace Cert.KernelIdeal.KBlock

open Cert.KernelIdeal Idealize.ShloMosaic Idealize.ShloMosaic.TcCoe Idealize.ShloMosaic.ValueIdx Idealize.SL.Sem
open Idealize.ShloMosaic.Pipeline (Dat)
open scoped BigOperators

namespace R2

/-! ## The body's two results at an index -/

/-- The column block spread along the row reads, at `(p, q)`, the column at `p`. -/
theorem bcast_col_apply {α : Type} (d : S2000x1.Idx → α) (h : S2000x1.Broadcasts S2000x256) (p : Fin 2000) (q : Fin 256) :
    broadcastTo S2000x256 d h (ix2 p q) = d (ix2 p (0 : Fin 1)) := by
  refine broadcastTo_apply d h (ix2 p q) (ix2 p (0 : Fin 1)) fun a => ?_
  match a with
  | ⟨0, _⟩ => rfl
  | ⟨1, _⟩ => rfl

/-- The first result at `(p, q)`: row `p` of `x` against column `q` of `w0`, plus row `p` of `agg` scaled by `d p` against
    column `q` of `w1`. -/
theorem pay2_apply (d : Vec Ideal S2000x1 .f32) (x agg : Vec Ideal S2000x256 .f32) (w0 w1 : Vec Ideal S256x256 .bf16)
    (p : Fin 2000) (q : Fin 256) :
    Gen.k2_pay2 d x agg w0 w1 (ix2 p q)
      = (∑ k : Fin 256, x (ix2 p k) * w0 (ix2 k q)) + ∑ k : Fin 256, (agg (ix2 p k) * d (ix2 p (0 : Fin 1))) * w1 (ix2 k q) := by
  unfold Gen.k2_pay2 Gen.k2_pay1
  rw [addf_apply]
  refine congrArg₂ (· + ·) ?_ ?_
  · refine (Cert.LibPlainMatmul.matmul_zero_plain _ _ _ p q).trans ?_
    refine Finset.sum_congr rfl fun k _ => ?_
    simp only [truncf_apply, shapeCast_self]
  · refine (Cert.LibPlainMatmul.matmul_zero_plain _ _ _ p q).trans ?_
    refine Finset.sum_congr rfl fun k _ => ?_
    simp only [truncf_apply, mulf_apply, shapeCast_self, bcast_col_apply]

/-- The second result at `(p, q)`: the first scaled by `d p`. -/
theorem pay3_apply (d : Vec Ideal S2000x1 .f32) (x agg : Vec Ideal S2000x256 .f32) (w0 w1 : Vec Ideal S256x256 .bf16)
    (p : Fin 2000) (q : Fin 256) :
    Gen.k2_pay3 d x agg w0 w1 (ix2 p q) = Gen.k2_pay2 d x agg w0 w1 (ix2 p q) * d (ix2 p (0 : Fin 1)) := by
  unfold Gen.k2_pay3 Gen.k2_pay1
  simp only [truncf_apply, mulf_apply, shapeCast_self, bcast_col_apply]

/-- The first result at row `p` of blocks whose row `p` is row `i` of the operand arrays is the first output's
    formula at row `i`. -/
theorem pay2_eq_blockX (X AG : Cert.Tag.SX.Idx → EReal) (D2 : Cert.Tag.SN1.Idx → EReal) (W0 W1 : Cert.Tag.SD.Idx → EReal)
    (d : Vec Ideal S2000x1 .f32) (x agg : Vec Ideal S2000x256 .f32) (w0 w1 : Vec Ideal S256x256 .bf16)
    (i : Fin 50000) (p : Fin 2000)
    (hx : ∀ k : Fin 256, x (ix2 p k) = X (ix2 i k)) (hagg : ∀ k : Fin 256, agg (ix2 p k) = AG (ix2 i k))
    (hd : d (ix2 p (0 : Fin 1)) = D2 (ix2 i (0 : Fin 1)))
    (hw0 : ∀ a b : Fin 256, w0 (ix2 a b) = W0 (ix2 a b)) (hw1 : ∀ a b : Fin 256, w1 (ix2 a b) = W1 (ix2 a b)) (q : Fin 256) :
    Gen.k2_pay2 d x agg w0 w1 (ix2 p q) = Cert.Tag.blockX X AG D2 W0 W1 (ix2 i q) := by
  refine (pay2_apply d x agg w0 w1 p q).trans ?_
  unfold Cert.Tag.blockX
  rw [Cert.Tag.arr2_ix2]
  refine congrArg₂ (· + ·) ?_ ?_
  · exact Finset.sum_congr rfl fun k _ => by rw [hx, hw0]
  · exact Finset.sum_congr rfl fun k _ => by rw [hagg, hd, hw1]

/-! ## The staged blocks as rows of the operand arrays -/

variable (V : (c : Dev nD) → (b : Ref sig .tc) → Buf (Elt Ideal) ((c : Thread nD τ).loc b))

theorem hz : (![0, 0] : Fin 2 → Nat) = fun _ => 0 := funext fun a => by fin_cases a <;> rfl

/-- The windows' block positions over the grid: the row-blocked windows sit at block row `t`, the two weight windows
    at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row `p` of the node matrix's block at point `t` is row `2000 t + p` of the matrix. -/
theorem iblk_0_apply (c : Dev nD) (t : Fin cfg2.N) (p : Fin 2000) (q : Fin 256) (i : Fin 50000)
    (hi : i.val = t.val * 2000 + p.val) :
    (Gen.iblk2 V c 0 t : Vec Ideal S2000x256 .f32) (ix2 p q) = (V c main_v54_0 : S50000x256.Idx → EReal) (ix2 i q) := by
  obtain ⟨e0, e1, -⟩ := idx_facts t
  unfold Gen.iblk2
  rw [View.read_apply]
  show V c main_v54_0 _ = V c main_v54_0 _
  refine congrArg (V c main_v54_0) (funext fun a => Fin.ext ?_)
  match a with
  | ⟨0, _⟩ => show win2_0.index t (0 : Fin 2) * 2000 + 1 * p.val = i.val; rw [e0, hi]; omega
  | ⟨1, _⟩ => show win2_0.index t (1 : Fin 2) * 256 + 1 * q.val = q.val; rw [e1]; omega

/-- The same for the aggregate. -/
theorem iblk_1_apply (c : Dev nD) (t : Fin cfg2.N) (p : Fin 2000) (q : Fin 256) (i : Fin 50000)
    (hi : i.val = t.val * 2000 + p.val) :
    (Gen.iblk2 V c 1 t : Vec Ideal S2000x256 .f32) (ix2 p q) = (V c main_v65 : S50000x256.Idx → EReal) (ix2 i q) := by
  obtain ⟨-, -, e0, e1, -⟩ := idx_facts t
  unfold Gen.iblk2
  rw [View.read_apply]
  show V c main_v65 _ = V c main_v65 _
  refine congrArg (V c main_v65) (funext fun a => Fin.ext ?_)
  match a with
  | ⟨0, _⟩ => show win2_1.index t (0 : Fin 2) * 2000 + 1 * p.val = i.val; rw [e0, hi]; omega
  | ⟨1, _⟩ => show win2_1.index t (1 : Fin 2) * 256 + 1 * q.val = q.val; rw [e1]; omega

/-- Entry `p` of the column operand's block at point `t` is entry `2000 t + p` of the column. -/
theorem iblk_2_apply (c : Dev nD) (t : Fin cfg2.N) (p : Fin 2000) (i : Fin 50000)
    (hi : i.val = t.val * 2000 + p.val) :
    (Gen.iblk2 V c 2 t : Vec Ideal S2000x1 .f32) (ix2 p (0 : Fin 1)) = (V c main_v15 : S50000x1.Idx → EReal) (ix2 i (0 : Fin 1)) := by
  obtain ⟨-, -, -, -, e0, e1, -⟩ := idx_facts t
  unfold Gen.iblk2
  rw [View.read_apply]
  show V c main_v15 _ = V c main_v15 _
  refine congrArg (V c main_v15) (funext fun a => Fin.ext ?_)
  match a with
  | ⟨0, _⟩ => show win2_2.index t (0 : Fin 2) * 2000 + 1 * p.val = i.val; rw [e0, hi]; omega
  | ⟨1, _⟩ => show win2_2.index t (1 : Fin 2) * 1 + 1 * 0 = 0; rw [e1]

/-- The weight windows hold their whole arrays at every point. -/
theorem iblk_3_apply (c : Dev nD) (t : Fin cfg2.N) (a b : Fin 256) :
    (Gen.iblk2 V c 3 t : Vec Ideal S256x256 .bf16) (ix2 a b) = (V c main_v67 : S256x256.Idx → EReal) (ix2 a b) := by
  obtain ⟨-, -, -, -, -, -, e0, e1, -⟩ := idx_facts t
  unfold Gen.iblk2
  rw [View.read_apply]
  show V c main_v67 _ = V c main_v67 _
  refine congrArg (V c main_v67) (funext fun k => Fin.ext ?_)
  match k with
  | ⟨0, _⟩ => show win2_3.index t (0 : Fin 2) * 256 + 1 * a.val = a.val; rw [e0]; omega
  | ⟨1, _⟩ => show win2_3.index t (1 : Fin 2) * 256 + 1 * b.val = b.val; rw [e1]; omega

theorem iblk_4_apply (c : Dev nD) (t : Fin cfg2.N) (a b : Fin 256) :
    (Gen.iblk2 V c 4 t : Vec Ideal S256x256 .bf16) (ix2 a b) = (V c main_v69 : S256x256.Idx → EReal) (ix2 a b) := by
  obtain ⟨-, -, -, -, -, -, -, -, e0, e1, -⟩ := idx_facts t
  unfold Gen.iblk2
  rw [View.read_apply]
  show V c main_v69 _ = V c main_v69 _
  refine congrArg (V c main_v69) (funext fun k => Fin.ext ?_)
  match k with
  | ⟨0, _⟩ => show win2_4.index t (0 : Fin 2) * 256 + 1 * a.val = a.val; rw [e0]; omega
  | ⟨1, _⟩ => show win2_4.index t (1 : Fin 2) * 256 + 1 * b.val = b.val; rw [e1]; omega

/-! ## What a point writes back -/

/-- The row of the arrays that row `p` of the blocks at point `t` is. -/
def rowOf (t : Fin cfg2.N) (p : Fin 2000) : Fin 50000 :=
  ⟨t.val * 2000 + p.val, by have h : t.val < 25 := Nat.lt_of_lt_of_eq t.isLt Gen.N_2
                            have := p.isLt; omega⟩

/-- The body's first result on the blocks of point `t`, at `(p, q)`. -/
theorem point_x (c : Dev nD) (t : Fin cfg2.N) (p : Fin 2000) (q : Fin 256) :
    Gen.k2_pay2 (Gen.iblk2 V c 2 t) (Gen.iblk2 V c 0 t) (Gen.iblk2 V c 1 t) (Gen.iblk2 V c 3 t) (Gen.iblk2 V c 4 t) (ix2 p q)
      = Cert.Tag.blockX (V c main_v54_0) (V c main_v65) (V c main_v15) (V c main_v67) (V c main_v69) (ix2 (rowOf t p) q) :=
  pay2_eq_blockX (V c main_v54_0) (V c main_v65) (V c main_v15) (V c main_v67) (V c main_v69)
    (Gen.iblk2 V c 2 t) (Gen.iblk2 V c 0 t) (Gen.iblk2 V c 1 t) (Gen.iblk2 V c 3 t) (Gen.iblk2 V c 4 t) (rowOf t p) p
    (fun k => iblk_0_apply V c t p k (rowOf t p) rfl) (fun k => iblk_1_apply V c t p k (rowOf t p) rfl)
    (iblk_2_apply V c t p (rowOf t p) rfl) (fun a b => iblk_3_apply V c t a b) (fun a b => iblk_4_apply V c t a b) q

/-- The body's second result on the blocks of point `t`, at `(p, q)`. -/
theorem point_xn (c : Dev nD) (t : Fin cfg2.N) (p : Fin 2000) (q : Fin 256) :
    Gen.k2_pay3 (Gen.iblk2 V c 2 t) (Gen.iblk2 V c 0 t) (Gen.iblk2 V c 1 t) (Gen.iblk2 V c 3 t) (Gen.iblk2 V c 4 t) (ix2 p q)
      = Cert.Tag.blockXn (V c main_v54_0) (V c main_v65) (V c main_v15) (V c main_v67) (V c main_v69) (ix2 (rowOf t p) q) := by
  refine (pay3_apply _ _ _ _ _ p q).trans ?_
  rw [Cert.Tag.blockXn_apply]
  exact congrArg₂ (· * ·) (point_x V c t p q) (iblk_2_apply V c t p (rowOf t p) rfl)

/-- What point `t` writes back to the first output is block `t` of the first output's formula. -/
theorem flushed5_eq (c : Dev nD) (t : Fin cfg2.N) :
    (Gen.dat2 (F := Ideal) V c).flushed 5 t = ((cfg2.win 5).blk t).view.read (Elt Ideal)
      (Cert.Tag.blockX (V c main_v54_0) (V c main_v65) (V c main_v15) (V c main_v67) (V c main_v69)) := by
  show (cfg2.win 5).cut (grid2.coords t) ((Gen.dat2 V c).after 5 t) = _
  rw [Gen.after2_5]
  unfold Gen.out2_5
  rw [View.canon_unit_zero hz]
  simp only [View.ld_unit_zero (S := S2000x256) hz, View.ld_unit_zero (S := S2000x1) hz, View.ld_unit_zero (S := S256x256) hz]
  obtain ⟨-, -, -, -, -, -, -, -, -, -, e0, e1, -⟩ := idx_facts t
  funext j
  obtain ⟨p, q, rfl⟩ : ∃ (p : Fin 2000) (q : Fin 256), j = ix2 p q := ⟨j 0, j 1, eq_ix2 j⟩
  refine (point_x V c t p q).trans ?_
  rw [View.read_apply]
  refine congrArg (Cert.Tag.blockX (V c main_v54_0) (V c main_v65) (V c main_v15) (V c main_v67) (V c main_v69))
    (funext fun a => Fin.ext ?_)
  match a with
  | ⟨0, _⟩ => show t.val * 2000 + p.val = win2_5.index t (0 : Fin 2) * 2000 + 1 * p.val; rw [e0]; omega
  | ⟨1, _⟩ => show q.val = win2_5.index t (1 : Fin 2) * 256 + 1 * q.val; rw [e1]; omega

/-- What point `t` writes back to the second output is block `t` of the second output's formula. -/
theorem flushed6_eq (c : Dev nD) (t : Fin cfg2.N) :
    (Gen.dat2 (F := Ideal) V c).flushed 6 t = ((cfg2.win 6).blk t).view.read (Elt Ideal)
      (Cert.Tag.blockXn (V c main_v54_0) (V c main_v65) (V c main_v15) (V c main_v67) (V c main_v69)) := by
  show (cfg2.win 6).cut (grid2.coords t) ((Gen.dat2 V c).after 6 t) = _
  rw [Gen.after2_6]
  unfold Gen.out2_6
  rw [View.canon_unit_zero hz]
  simp only [View.ld_unit_zero (S := S2000x256) hz, View.ld_unit_zero (S := S2000x1) hz, View.ld_unit_zero (S := S256x256) hz]
  obtain ⟨-, -, -, -, -, -, -, -, -, -, -, -, e0, e1⟩ := idx_facts t
  funext j
  obtain ⟨p, q, rfl⟩ : ∃ (p : Fin 2000) (q : Fin 256), j = ix2 p q := ⟨j 0, j 1, eq_ix2 j⟩
  refine (point_xn V c t p q).trans ?_
  rw [View.read_apply]
  refine congrArg (Cert.Tag.blockXn (V c main_v54_0) (V c main_v65) (V c main_v15) (V c main_v67) (V c main_v69))
    (funext fun a => Fin.ext ?_)
  match a with
  | ⟨0, _⟩ => show t.val * 2000 + p.val = win2_6.index t (0 : Fin 2) * 2000 + 1 * p.val; rw [e0]; omega
  | ⟨1, _⟩ => show q.val = win2_6.index t (1 : Fin 2) * 256 + 1 * q.val; rw [e1]; omega

/-! ## The blocks cover the outputs -/

/-- An index of the first output is in point `t`'s block iff each coordinate is in the block's range on its axis. -/
theorem mem_blk5 (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v70_0).slice (win2_5.rect t)).set ↔ _
  rw [View.set_slice_whole, Rect.mem_set_unit]
  exact Iff.rfl

theorem mem_blk6 (t : Fin cfg2.N) (i : S50000x256.Idx) :
    i ∈ ((cfg2.win 6).blk t).view.set ↔ ∀ a : Fin 2, win2_6.index t a * S2000x256.size a ≤ (i a).val
      ∧ (i a).val < win2_6.index t a * S2000x256.size a + S2000x256.size a := by
  show i ∈ ((View.whole main_v70_1).slice (win2_6.rect t)).set ↔ _
  rw [View.set_slice_whole, Rect.mem_set_unit]
  exact Iff.rfl

/-- The point whose blocks hold row `r`: `r / 2000`. -/
def pointOf (i : S50000x256.Idx) : Fin cfg2.N :=
  ⟨(i 0).val / 2000, by rw [show cfg2.N = 25 from Gen.N_2]; have := idx2_lt0 i; omega⟩

/-- Every index of the first output is in the block of its row's point. -/
theorem cover5 (i : S50000x256.Idx) :
    ∃ t : Fin cfg2.N, (cfg2.win 5).flush t = true ∧ i ∈ ((cfg2.win 5).blk t).view.set := by
  refine ⟨pointOf i, Gen.flush2_5 _, ?_⟩
  obtain ⟨-, -, -, -, -, -, -, -, -, -, e0, e1, -⟩ := idx_facts (pointOf i)
  have h0 : (i 0).val < 50000 := idx2_lt0 i
  have h1 : (i 1).val < 256 := idx2_lt1 i
  have hp : (pointOf i).val = (i 0).val / 2000 := rfl
  rw [mem_blk5]
  intro a
  match a with
  | ⟨0, _⟩ => show win2_5.index (pointOf i) (0 : Fin 2) * 2000 ≤ (i 0).val ∧ (i 0).val < win2_5.index (pointOf i) (0 : Fin 2) * 2000 + 2000
              rw [e0, hp]; omega
  | ⟨1, _⟩ => show win2_5.index (pointOf i) (1 : Fin 2) * 256 ≤ (i 1).val ∧ (i 1).val < win2_5.index (pointOf i) (1 : Fin 2) * 256 + 256
              rw [e1]; omega

theorem cover6 (i : S50000x256.Idx) :
    ∃ t : Fin cfg2.N, (cfg2.win 6).flush t = true ∧ i ∈ ((cfg2.win 6).blk t).view.set := by
  refine ⟨pointOf i, Gen.flush2_6 _, ?_⟩
  obtain ⟨-, -, -, -, -, -, -, -, -, -, -, -, e0, e1⟩ := idx_facts (pointOf i)
  have h0 : (i 0).val < 50000 := idx2_lt0 i
  have h1 : (i 1).val < 256 := idx2_lt1 i
  have hp : (pointOf i).val = (i 0).val / 2000 := rfl
  rw [mem_blk6]
  intro a
  match a with
  | ⟨0, _⟩ => show win2_6.index (pointOf i) (0 : Fin 2) * 2000 ≤ (i 0).val ∧ (i 0).val < win2_6.index (pointOf i) (0 : Fin 2) * 2000 + 2000
              rw [e0, hp]; omega
  | ⟨1, _⟩ => show win2_6.index (pointOf i) (1 : Fin 2) * 256 ≤ (i 1).val ∧ (i 1).val < win2_6.index (pointOf i) (1 : Fin 2) * 256 + 256
              rw [e1]; omega

end R2

/-! ## The two outputs after the launch -/

/-- After launch 2 the first output holds `x · w0 + (agg ⊙ d) · w1` of the five operand arrays as the launch found
    them. -/
theorem region2_x (V : (c : Dev nD) → (b : Ref sig .tc) → Buf (Elt Ideal) ((c : Thread nD τ).loc b)) (c : Dev nD) :
    (Gen.dat2 (F := Ideal) V c).arrAt 5 cfg2.N
      = Cert.Tag.blockX (V c main_v54_0) (V c main_v65) (V c main_v15) (V c main_v67) (V c main_v69) :=
  (Gen.dat2 (F := Ideal) V c).arrAt_eq_of_cover 5 _ (fun t _ => R2.flushed5_eq V c t) R2.cover5

/-- And the second output holds the first scaled row by row by the column operand. -/
theorem region2_xn (V : (c : Dev nD) → (b : Ref sig .tc) → Buf (Elt Ideal) ((c : Thread nD τ).loc b)) (c : Dev nD) :
    (Gen.dat2 (F := Ideal) V c).arrAt 6 cfg2.N
      = Cert.Tag.blockXn (V c main_v54_0) (V c main_v65) (V c main_v15) (V c main_v67) (V c main_v69) :=
  (Gen.dat2 (F := Ideal) V c).arrAt_eq_of_cover 6 _ (fun t _ => R2.flushed6_eq V c t) R2.cover6

end Cert.KernelIdeal.KBlock

end
-- ==== Proof.KBlock3.lean ====
/-
  Launch 3 of the dense kernel, read as arrays.

  The launch runs the kernel body at 25 grid points. Point `t` stages rows `2000 t … 2000 t + 1999` of the node
  matrix, of the aggregate and of the column operand, and the two 256 × 256 weight matrices whole. Over the extended
  reals the roundings to the narrow format on the way into the products are the identity, so the body leaves, in rows
  `2000 t …` of the first output, `x · w0 + (agg ⊙ d) · w1` — two matrix products into zero accumulators, `d` the
  column operand spread along each row — and, in the same rows of the second output, that result scaled row by row
  by `d`. Row `r` of either output lies in the block of point `r / 2000`, so the blocks cover the outputs, and after
  the launch each output is its formula of the five operand arrays as the launch found them, whatever those were.
-/
import proofs.«141509_j41120016892381_2_alg».proof.Proof.Spec
import proofs.«141509_j41120016892381_2_alg».proof.Proof.Gen.KernelIdeal.Frame
import proofs.«141509_j41120016892381_2_alg».proof.Proof.LibPlainMatmul
import Idealize.ShloMosaic.Lib.Pipeline.Value

noncomputable section

namespace Cert.KernelIdeal.KBlock

open Cert.KernelIdeal Idealize.ShloMosaic Idealize.ShloMosaic.TcCoe Idealize.ShloMosaic.ValueIdx Idealize.SL.Sem
open Idealize.ShloMosaic.Pipeline (Dat)
open scoped BigOperators

namespace R3

/-! ## The body's two results at an index -/

/-- The column block spread along the row reads, at `(p, q)`, the column at `p`. -/
theorem bcast_col_apply {α : Type} (d : S2000x1.Idx → α) (h : S2000x1.Broadcasts S2000x256) (p : Fin 2000) (q : Fin 256) :
    broadcastTo S2000x256 d h (ix2 p q) = d (ix2 p (0 : Fin 1)) := by
  refine broadcastTo_apply d h (ix2 p q) (ix2 p (0 : Fin 1)) fun a => ?_
  match a with
  | ⟨0, _⟩ => rfl
  | ⟨1, _⟩ => rfl

/-- The first result at `(p, q)`: row `p` of `x` against column `q` of `w0`, plus row `p` of `agg` scaled by `d p` against
    column `q` of `w1`. -/
theorem pay2_apply (d : Vec Ideal S2000x1 .f32) (x agg : Vec Ideal S2000x256 .f32) (w0 w1 : Vec Ideal S256x256 .bf16)
    (p : Fin 2000) (q : Fin 256) :
    Gen.k3_pay2 d x agg w0 w1 (ix2 p q)
      = (∑ k : Fin 256, x (ix2 p k) * w0 (ix2 k q)) + ∑ k : Fin 256, (agg (ix2 p k) * d (ix2 p (0 : Fin 1))) * w1 (ix2 k q) := by
  unfold Gen.k3_pay2 Gen.k3_pay1
  rw [addf_apply]
  refine congrArg₂ (· + ·) ?_ ?_
  · refine (Cert.LibPlainMatmul.matmul_zero_plain _ _ _ p q).trans ?_
    refine Finset.sum_congr rfl fun k _ => ?_
    simp only [truncf_apply, shapeCast_self]
  · refine (Cert.LibPlainMatmul.matmul_zero_plain _ _ _ p q).trans ?_
    refine Finset.sum_congr rfl fun k _ => ?_
    simp only [truncf_apply, mulf_apply, shapeCast_self, bcast_col_apply]

/-- The second result at `(p, q)`: the first scaled by `d p`. -/
theorem pay3_apply (d : Vec Ideal S2000x1 .f32) (x agg : Vec Ideal S2000x256 .f32) (w0 w1 : Vec Ideal S256x256 .bf16)
    (p : Fin 2000) (q : Fin 256) :
    Gen.k3_pay3 d x agg w0 w1 (ix2 p q) = Gen.k3_pay2 d x agg w0 w1 (ix2 p q) * d (ix2 p (0 : Fin 1)) := by
  unfold Gen.k3_pay3 Gen.k3_pay1
  simp only [truncf_apply, mulf_apply, shapeCast_self, bcast_col_apply]

/-- The first result at row `p` of blocks whose row `p` is row `i` of the operand arrays is the first output's
    formula at row `i`. -/
theorem pay2_eq_blockX (X AG : Cert.Tag.SX.Idx → EReal) (D2 : Cert.Tag.SN1.Idx → EReal) (W0 W1 : Cert.Tag.SD.Idx → EReal)
    (d : Vec Ideal S2000x1 .f32) (x agg : Vec Ideal S2000x256 .f32) (w0 w1 : Vec Ideal S256x256 .bf16)
    (i : Fin 50000) (p : Fin 2000)
    (hx : ∀ k : Fin 256, x (ix2 p k) = X (ix2 i k)) (hagg : ∀ k : Fin 256, agg (ix2 p k) = AG (ix2 i k))
    (hd : d (ix2 p (0 : Fin 1)) = D2 (ix2 i (0 : Fin 1)))
    (hw0 : ∀ a b : Fin 256, w0 (ix2 a b) = W0 (ix2 a b)) (hw1 : ∀ a b : Fin 256, w1 (ix2 a b) = W1 (ix2 a b)) (q : Fin 256) :
    Gen.k3_pay2 d x agg w0 w1 (ix2 p q) = Cert.Tag.blockX X AG D2 W0 W1 (ix2 i q) := by
  refine (pay2_apply d x agg w0 w1 p q).trans ?_
  unfold Cert.Tag.blockX
  rw [Cert.Tag.arr2_ix2]
  refine congrArg₂ (· + ·) ?_ ?_
  · exact Finset.sum_congr rfl fun k _ => by rw [hx, hw0]
  · exact Finset.sum_congr rfl fun k _ => by rw [hagg, hd, hw1]

/-! ## The staged blocks as rows of the operand arrays -/

variable (V : (c : Dev nD) → (b : Ref sig .tc) → Buf (Elt Ideal) ((c : Thread nD τ).loc b))

theorem hz : (![0, 0] : Fin 2 → Nat) = fun _ => 0 := funext fun a => by fin_cases a <;> rfl

/-- The windows' block positions over the grid: the row-blocked windows sit at block row `t`, the two weight windows
    at the origin. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Row `p` of the node matrix's block at point `t` is row `2000 t + p` of the matrix. -/
theorem iblk_0_apply (c : Dev nD) (t : Fin cfg3.N) (p : Fin 2000) (q : Fin 256) (i : Fin 50000)
    (hi : i.val = t.val * 2000 + p.val) :
    (Gen.iblk3 V c 0 t : Vec Ideal S2000x256 .f32) (ix2 p q) = (V c main_v70_0 : S50000x256.Idx → EReal) (ix2 i q) := by
  obtain ⟨e0, e1, -⟩ := idx_facts t
  unfold Gen.iblk3
  rw [View.read_apply]
  show V c main_v70_0 _ = V c main_v70_0 _
  refine congrArg (V c main_v70_0) (funext fun a => Fin.ext ?_)
  match a with
  | ⟨0, _⟩ => show win3_0.index t (0 : Fin 2) * 2000 + 1 * p.val = i.val; rw [e0, hi]; omega
  | ⟨1, _⟩ => show win3_0.index t (1 : Fin 2) * 256 + 1 * q.val = q.val; rw [e1]; omega

/-- The same for the aggregate. -/
theorem iblk_1_apply (c : Dev nD) (t : Fin cfg3.N) (p : Fin 2000) (q : Fin 256) (i : Fin 50000)
    (hi : i.val = t.val * 2000 + p.val) :
    (Gen.iblk3 V c 1 t : Vec Ideal S2000x256 .f32) (ix2 p q) = (V c main_v81 : S50000x256.Idx → EReal) (ix2 i q) := by
  obtain ⟨-, -, e0, e1, -⟩ := idx_facts t
  unfold Gen.iblk3
  rw [View.read_apply]
  show V c main_v81 _ = V c main_v81 _
  refine congrArg (V c main_v81) (funext fun a => Fin.ext ?_)
  match a with
  | ⟨0, _⟩ => show win3_1.index t (0 : Fin 2) * 2000 + 1 * p.val = i.val; rw [e0, hi]; omega
  | ⟨1, _⟩ => show win3_1.index t (1 : Fin 2) * 256 + 1 * q.val = q.val; rw [e1]; omega

/-- Entry `p` of the column operand's block at point `t` is entry `2000 t + p` of the column. -/
theorem iblk_2_apply (c : Dev nD) (t : Fin cfg3.N) (p : Fin 2000) (i : Fin 50000)
    (hi : i.val = t.val * 2000 + p.val) :
    (Gen.iblk3 V c 2 t : Vec Ideal S2000x1 .f32) (ix2 p (0 : Fin 1)) = (V c main_v15 : S50000x1.Idx → EReal) (ix2 i (0 : Fin 1)) := by
  obtain ⟨-, -, -, -, e0, e1, -⟩ := idx_facts t
  unfold Gen.iblk3
  rw [View.read_apply]
  show V c main_v15 _ = V c main_v15 _
  refine congrArg (V c main_v15) (funext fun a => Fin.ext ?_)
  match a with
  | ⟨0, _⟩ => show win3_2.index t (0 : Fin 2) * 2000 + 1 * p.val = i.val; rw [e0, hi]; omega
  | ⟨1, _⟩ => show win3_2.index t (1 : Fin 2) * 1 + 1 * 0 = 0; rw [e1]

/-- The weight windows hold their whole arrays at every point. -/
theorem iblk_3_apply (c : Dev nD) (t : Fin cfg3.N) (a b : Fin 256) :
    (Gen.iblk3 V c 3 t : Vec Ideal S256x256 .bf16) (ix2 a b) = (V c main_v83 : S256x256.Idx → EReal) (ix2 a b) := by
  obtain ⟨-, -, -, -, -, -, e0, e1, -⟩ := idx_facts t
  unfold Gen.iblk3
  rw [View.read_apply]
  show V c main_v83 _ = V c main_v83 _
  refine congrArg (V c main_v83) (funext fun k => Fin.ext ?_)
  match k with
  | ⟨0, _⟩ => show win3_3.index t (0 : Fin 2) * 256 + 1 * a.val = a.val; rw [e0]; omega
  | ⟨1, _⟩ => show win3_3.index t (1 : Fin 2) * 256 + 1 * b.val = b.val; rw [e1]; omega

theorem iblk_4_apply (c : Dev nD) (t : Fin cfg3.N) (a b : Fin 256) :
    (Gen.iblk3 V c 4 t : Vec Ideal S256x256 .bf16) (ix2 a b) = (V c main_v85 : S256x256.Idx → EReal) (ix2 a b) := by
  obtain ⟨-, -, -, -, -, -, -, -, e0, e1, -⟩ := idx_facts t
  unfold Gen.iblk3
  rw [View.read_apply]
  show V c main_v85 _ = V c main_v85 _
  refine congrArg (V c main_v85) (funext fun k => Fin.ext ?_)
  match k with
  | ⟨0, _⟩ => show win3_4.index t (0 : Fin 2) * 256 + 1 * a.val = a.val; rw [e0]; omega
  | ⟨1, _⟩ => show win3_4.index t (1 : Fin 2) * 256 + 1 * b.val = b.val; rw [e1]; omega

/-! ## What a point writes back -/

/-- The row of the arrays that row `p` of the blocks at point `t` is. -/
def rowOf (t : Fin cfg3.N) (p : Fin 2000) : Fin 50000 :=
  ⟨t.val * 2000 + p.val, by have h : t.val < 25 := Nat.lt_of_lt_of_eq t.isLt Gen.N_3
                            have := p.isLt; omega⟩

/-- The body's first result on the blocks of point `t`, at `(p, q)`. -/
theorem point_x (c : Dev nD) (t : Fin cfg3.N) (p : Fin 2000) (q : Fin 256) :
    Gen.k3_pay2 (Gen.iblk3 V c 2 t) (Gen.iblk3 V c 0 t) (Gen.iblk3 V c 1 t) (Gen.iblk3 V c 3 t) (Gen.iblk3 V c 4 t) (ix2 p q)
      = Cert.Tag.blockX (V c main_v70_0) (V c main_v81) (V c main_v15) (V c main_v83) (V c main_v85) (ix2 (rowOf t p) q) :=
  pay2_eq_blockX (V c main_v70_0) (V c main_v81) (V c main_v15) (V c main_v83) (V c main_v85)
    (Gen.iblk3 V c 2 t) (Gen.iblk3 V c 0 t) (Gen.iblk3 V c 1 t) (Gen.iblk3 V c 3 t) (Gen.iblk3 V c 4 t) (rowOf t p) p
    (fun k => iblk_0_apply V c t p k (rowOf t p) rfl) (fun k => iblk_1_apply V c t p k (rowOf t p) rfl)
    (iblk_2_apply V c t p (rowOf t p) rfl) (fun a b => iblk_3_apply V c t a b) (fun a b => iblk_4_apply V c t a b) q

/-- The body's second result on the blocks of point `t`, at `(p, q)`. -/
theorem point_xn (c : Dev nD) (t : Fin cfg3.N) (p : Fin 2000) (q : Fin 256) :
    Gen.k3_pay3 (Gen.iblk3 V c 2 t) (Gen.iblk3 V c 0 t) (Gen.iblk3 V c 1 t) (Gen.iblk3 V c 3 t) (Gen.iblk3 V c 4 t) (ix2 p q)
      = Cert.Tag.blockXn (V c main_v70_0) (V c main_v81) (V c main_v15) (V c main_v83) (V c main_v85) (ix2 (rowOf t p) q) := by
  refine (pay3_apply _ _ _ _ _ p q).trans ?_
  rw [Cert.Tag.blockXn_apply]
  exact congrArg₂ (· * ·) (point_x V c t p q) (iblk_2_apply V c t p (rowOf t p) rfl)

/-- What point `t` writes back to the first output is block `t` of the first output's formula. -/
theorem flushed5_eq (c : Dev nD) (t : Fin cfg3.N) :
    (Gen.dat3 (F := Ideal) V c).flushed 5 t = ((cfg3.win 5).blk t).view.read (Elt Ideal)
      (Cert.Tag.blockX (V c main_v70_0) (V c main_v81) (V c main_v15) (V c main_v83) (V c main_v85)) := by
  show (cfg3.win 5).cut (grid3.coords t) ((Gen.dat3 V c).after 5 t) = _
  rw [Gen.after3_5]
  unfold Gen.out3_5
  rw [View.canon_unit_zero hz]
  simp only [View.ld_unit_zero (S := S2000x256) hz, View.ld_unit_zero (S := S2000x1) hz, View.ld_unit_zero (S := S256x256) hz]
  obtain ⟨-, -, -, -, -, -, -, -, -, -, e0, e1, -⟩ := idx_facts t
  funext j
  obtain ⟨p, q, rfl⟩ : ∃ (p : Fin 2000) (q : Fin 256), j = ix2 p q := ⟨j 0, j 1, eq_ix2 j⟩
  refine (point_x V c t p q).trans ?_
  rw [View.read_apply]
  refine congrArg (Cert.Tag.blockX (V c main_v70_0) (V c main_v81) (V c main_v15) (V c main_v83) (V c main_v85))
    (funext fun a => Fin.ext ?_)
  match a with
  | ⟨0, _⟩ => show t.val * 2000 + p.val = win3_5.index t (0 : Fin 2) * 2000 + 1 * p.val; rw [e0]; omega
  | ⟨1, _⟩ => show q.val = win3_5.index t (1 : Fin 2) * 256 + 1 * q.val; rw [e1]; omega

/-- What point `t` writes back to the second output is block `t` of the second output's formula. -/
theorem flushed6_eq (c : Dev nD) (t : Fin cfg3.N) :
    (Gen.dat3 (F := Ideal) V c).flushed 6 t = ((cfg3.win 6).blk t).view.read (Elt Ideal)
      (Cert.Tag.blockXn (V c main_v70_0) (V c main_v81) (V c main_v15) (V c main_v83) (V c main_v85)) := by
  show (cfg3.win 6).cut (grid3.coords t) ((Gen.dat3 V c).after 6 t) = _
  rw [Gen.after3_6]
  unfold Gen.out3_6
  rw [View.canon_unit_zero hz]
  simp only [View.ld_unit_zero (S := S2000x256) hz, View.ld_unit_zero (S := S2000x1) hz, View.ld_unit_zero (S := S256x256) hz]
  obtain ⟨-, -, -, -, -, -, -, -, -, -, -, -, e0, e1⟩ := idx_facts t
  funext j
  obtain ⟨p, q, rfl⟩ : ∃ (p : Fin 2000) (q : Fin 256), j = ix2 p q := ⟨j 0, j 1, eq_ix2 j⟩
  refine (point_xn V c t p q).trans ?_
  rw [View.read_apply]
  refine congrArg (Cert.Tag.blockXn (V c main_v70_0) (V c main_v81) (V c main_v15) (V c main_v83) (V c main_v85))
    (funext fun a => Fin.ext ?_)
  match a with
  | ⟨0, _⟩ => show t.val * 2000 + p.val = win3_6.index t (0 : Fin 2) * 2000 + 1 * p.val; rw [e0]; omega
  | ⟨1, _⟩ => show q.val = win3_6.index t (1 : Fin 2) * 256 + 1 * q.val; rw [e1]; omega

/-! ## The blocks cover the outputs -/

/-- An index of the first output is in point `t`'s block iff each coordinate is in the block's range on its axis. -/
theorem mem_blk5 (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v86_0).slice (win3_5.rect t)).set ↔ _
  rw [View.set_slice_whole, Rect.mem_set_unit]
  exact Iff.rfl

theorem mem_blk6 (t : Fin cfg3.N) (i : S50000x256.Idx) :
    i ∈ ((cfg3.win 6).blk t).view.set ↔ ∀ a : Fin 2, win3_6.index t a * S2000x256.size a ≤ (i a).val
      ∧ (i a).val < win3_6.index t a * S2000x256.size a + S2000x256.size a := by
  show i ∈ ((View.whole main_v86_1).slice (win3_6.rect t)).set ↔ _
  rw [View.set_slice_whole, Rect.mem_set_unit]
  exact Iff.rfl

/-- The point whose blocks hold row `r`: `r / 2000`. -/
def pointOf (i : S50000x256.Idx) : Fin cfg3.N :=
  ⟨(i 0).val / 2000, by rw [show cfg3.N = 25 from Gen.N_3]; have := idx2_lt0 i; omega⟩

/-- Every index of the first output is in the block of its row's point. -/
theorem cover5 (i : S50000x256.Idx) :
    ∃ t : Fin cfg3.N, (cfg3.win 5).flush t = true ∧ i ∈ ((cfg3.win 5).blk t).view.set := by
  refine ⟨pointOf i, Gen.flush3_5 _, ?_⟩
  obtain ⟨-, -, -, -, -, -, -, -, -, -, e0, e1, -⟩ := idx_facts (pointOf i)
  have h0 : (i 0).val < 50000 := idx2_lt0 i
  have h1 : (i 1).val < 256 := idx2_lt1 i
  have hp : (pointOf i).val = (i 0).val / 2000 := rfl
  rw [mem_blk5]
  intro a
  match a with
  | ⟨0, _⟩ => show win3_5.index (pointOf i) (0 : Fin 2) * 2000 ≤ (i 0).val ∧ (i 0).val < win3_5.index (pointOf i) (0 : Fin 2) * 2000 + 2000
              rw [e0, hp]; omega
  | ⟨1, _⟩ => show win3_5.index (pointOf i) (1 : Fin 2) * 256 ≤ (i 1).val ∧ (i 1).val < win3_5.index (pointOf i) (1 : Fin 2) * 256 + 256
              rw [e1]; omega

theorem cover6 (i : S50000x256.Idx) :
    ∃ t : Fin cfg3.N, (cfg3.win 6).flush t = true ∧ i ∈ ((cfg3.win 6).blk t).view.set := by
  refine ⟨pointOf i, Gen.flush3_6 _, ?_⟩
  obtain ⟨-, -, -, -, -, -, -, -, -, -, -, -, e0, e1⟩ := idx_facts (pointOf i)
  have h0 : (i 0).val < 50000 := idx2_lt0 i
  have h1 : (i 1).val < 256 := idx2_lt1 i
  have hp : (pointOf i).val = (i 0).val / 2000 := rfl
  rw [mem_blk6]
  intro a
  match a with
  | ⟨0, _⟩ => show win3_6.index (pointOf i) (0 : Fin 2) * 2000 ≤ (i 0).val ∧ (i 0).val < win3_6.index (pointOf i) (0 : Fin 2) * 2000 + 2000
              rw [e0, hp]; omega
  | ⟨1, _⟩ => show win3_6.index (pointOf i) (1 : Fin 2) * 256 ≤ (i 1).val ∧ (i 1).val < win3_6.index (pointOf i) (1 : Fin 2) * 256 + 256
              rw [e1]; omega

end R3

/-! ## The two outputs after the launch -/

/-- After launch 3 the first output holds `x · w0 + (agg ⊙ d) · w1` of the five operand arrays as the launch found
    them. -/
theorem region3_x (V : (c : Dev nD) → (b : Ref sig .tc) → Buf (Elt Ideal) ((c : Thread nD τ).loc b)) (c : Dev nD) :
    (Gen.dat3 (F := Ideal) V c).arrAt 5 cfg3.N
      = Cert.Tag.blockX (V c main_v70_0) (V c main_v81) (V c main_v15) (V c main_v83) (V c main_v85) :=
  (Gen.dat3 (F := Ideal) V c).arrAt_eq_of_cover 5 _ (fun t _ => R3.flushed5_eq V c t) R3.cover5

/-- And the second output holds the first scaled row by row by the column operand. -/
theorem region3_xn (V : (c : Dev nD) → (b : Ref sig .tc) → Buf (Elt Ideal) ((c : Thread nD τ).loc b)) (c : Dev nD) :
    (Gen.dat3 (F := Ideal) V c).arrAt 6 cfg3.N
      = Cert.Tag.blockXn (V c main_v70_0) (V c main_v81) (V c main_v15) (V c main_v83) (V c main_v85) :=
  (Gen.dat3 (F := Ideal) V c).arrAt_eq_of_cover 6 _ (fun t _ => R3.flushed6_eq V c t) R3.cover6

end Cert.KernelIdeal.KBlock

end
-- ==== Proof.KBlock4.lean ====
/-
  Launch 4 of the dense kernel, read as arrays.

  The launch runs the kernel body at 25 grid points. Point `t` stages rows `2000 t … 2000 t + 1999` of the node
  matrix, of the aggregate and of the column operand, and the two 256 × 256 weight matrices whole. Over the extended
  reals the roundings to the narrow format on the way into the products are the identity, so the body leaves, in rows
  `2000 t …` of the first output, `x · w0 + (agg ⊙ d) · w1` — two matrix products into zero accumulators, `d` the
  column operand spread along each row — and, in the same rows of the second output, that result scaled row by row
  by `d`. Row `r` of either output lies in the block of point `r / 2000`, so the blocks cover the outputs, and after
  the launch each output is its formula of the five operand arrays as the launch found them, whatever those were.
-/
import proofs.«141509_j41120016892381_2_alg».proof.Proof.Spec
import proofs.«141509_j41120016892381_2_alg».proof.Proof.Gen.KernelIdeal.Frame
import proofs.«141509_j41120016892381_2_alg».proof.Proof.LibPlainMatmul
import Idealize.ShloMosaic.Lib.Pipeline.Value

noncomputable section

namespace Cert.KernelIdeal.KBlock

open Cert.KernelIdeal Idealize.ShloMosaic Idealize.ShloMosaic.TcCoe Idealize.ShloMosaic.ValueIdx Idealize.SL.Sem
open Idealize.ShloMosaic.Pipeline (Dat)
open scoped BigOperators

namespace R4

/-! ## The body's two results at an index -/

/-- The column block spread along the row reads, at `(p, q)`, the column at `p`. -/
theorem bcast_col_apply {α : Type} (d : S2000x1.Idx → α) (h : S2000x1.Broadcasts S2000x256) (p : Fin 2000) (q : Fin 256) :
    broadcastTo S2000x256 d h (ix2 p q) = d (ix2 p (0 : Fin 1)) := by
  refine broadcastTo_apply d h (ix2 p q) (ix2 p (0 : Fin 1)) fun a => ?_
  match a with
  | ⟨0, _⟩ => rfl
  | ⟨1, _⟩ => rfl

/-- The first result at `(p, q)`: row `p` of `x` against column `q` of `w0`, plus row `p` of `agg` scaled by `d p` against
    column `q` of `w1`. -/
theorem pay2_apply (d : Vec Ideal S2000x1 .f32) (x agg : Vec Ideal S2000x256 .f32) (w0 w1 : Vec Ideal S256x256 .bf16)
    (p : Fin 2000) (q : Fin 256) :
    Gen.k4_pay2 d x agg w0 w1 (ix2 p q)
      = (∑ k : Fin 256, x (ix2 p k) * w0 (ix2 k q)) + ∑ k : Fin 256, (agg (ix2 p k) * d (ix2 p (0 : Fin 1))) * w1 (ix2 k q) := by
  unfold Gen.k4_pay2 Gen.k4_pay1
  rw [addf_apply]
  refine congrArg₂ (· + ·) ?_ ?_
  · refine (Cert.LibPlainMatmul.matmul_zero_plain _ _ _ p q).trans ?_
    refine Finset.sum_congr rfl fun k _ => ?_
    simp only [truncf_apply, shapeCast_self]
  · refine (Cert.LibPlainMatmul.matmul_zero_plain _ _ _ p q).trans ?_
    refine Finset.sum_congr rfl fun k _ => ?_
    simp only [truncf_apply, mulf_apply, shapeCast_self, bcast_col_apply]

/-- The second result at `(p, q)`: the first scaled by `d p`. -/
theorem pay3_apply (d : Vec Ideal S2000x1 .f32) (x agg : Vec Ideal S2000x256 .f32) (w0 w1 : Vec Ideal S256x256 .bf16)
    (p : Fin 2000) (q : Fin 256) :
    Gen.k4_pay3 d x agg w0 w1 (ix2 p q) = Gen.k4_pay2 d x agg w0 w1 (ix2 p q) * d (ix2 p (0 : Fin 1)) := by
  unfold Gen.k4_pay3 Gen.k4_pay1
  simp only [truncf_apply, mulf_apply, shapeCast_self, bcast_col_apply]

/-- The first result at row `p` of blocks whose row `p` is row `i` of the operand arrays is the first output's
    formula at row `i`. -/
theorem pay2_eq_blockX (X AG : Cert.Tag.SX.Idx → EReal) (D2 : Cert.Tag.SN1.Idx → EReal) (W0 W1 : Cert.Tag.SD.Idx → EReal)
    (d : Vec Ideal S2000x1 .f32) (x agg : Vec Ideal S2000x256 .f32) (w0 w1 : Vec Ideal S256x256 .bf16)
    (i : Fin 50000) (p : Fin 2000)
    (hx : ∀ k : Fin 256, x (ix2 p k) = X (ix2 i k)) (hagg : ∀ k : Fin 256, agg (ix2 p k) = AG (ix2 i k))
    (hd : d (ix2 p (0 : Fin 1)) = D2 (ix2 i (0 : Fin 1)))
    (hw0 : ∀ a b : Fin 256, w0 (ix2 a b) = W0 (ix2 a b)) (hw1 : ∀ a b : Fin 256, w1 (ix2 a b) = W1 (ix2 a b)) (q : Fin 256) :
    Gen.k4_pay2 d x agg w0 w1 (ix2 p q) = Cert.Tag.blockX X AG D2 W0 W1 (ix2 i q) := by
  refine (pay2_apply d x agg w0 w1 p q).trans ?_
  unfold Cert.Tag.blockX
  rw [Cert.Tag.arr2_ix2]
  refine congrArg₂ (· + ·) ?_ ?_
  · exact Finset.sum_congr rfl fun k _ => by rw [hx, hw0]
  · exact Finset.sum_congr rfl fun k _ => by rw [hagg, hd, hw1]

/-! ## The staged blocks as rows of the operand arrays -/

variable (V : (c : Dev nD) → (b : Ref sig .tc) → Buf (Elt Ideal) ((c : Thread nD τ).loc b))

theorem hz : (![0, 0] : Fin 2 → Nat) = fun _ => 0 := funext fun a => by fin_cases a <;> rfl

/-- The windows' block positions over the grid: the row-blocked windows sit at block row `t`, the two weight windows
    at the origin. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Row `p` of the node matrix's block at point `t` is row `2000 t + p` of the matrix. -/
theorem iblk_0_apply (c : Dev nD) (t : Fin cfg4.N) (p : Fin 2000) (q : Fin 256) (i : Fin 50000)
    (hi : i.val = t.val * 2000 + p.val) :
    (Gen.iblk4 V c 0 t : Vec Ideal S2000x256 .f32) (ix2 p q) = (V c main_v86_0 : S50000x256.Idx → EReal) (ix2 i q) := by
  obtain ⟨e0, e1, -⟩ := idx_facts t
  unfold Gen.iblk4
  rw [View.read_apply]
  show V c main_v86_0 _ = V c main_v86_0 _
  refine congrArg (V c main_v86_0) (funext fun a => Fin.ext ?_)
  match a with
  | ⟨0, _⟩ => show win4_0.index t (0 : Fin 2) * 2000 + 1 * p.val = i.val; rw [e0, hi]; omega
  | ⟨1, _⟩ => show win4_0.index t (1 : Fin 2) * 256 + 1 * q.val = q.val; rw [e1]; omega

/-- The same for the aggregate. -/
theorem iblk_1_apply (c : Dev nD) (t : Fin cfg4.N) (p : Fin 2000) (q : Fin 256) (i : Fin 50000)
    (hi : i.val = t.val * 2000 + p.val) :
    (Gen.iblk4 V c 1 t : Vec Ideal S2000x256 .f32) (ix2 p q) = (V c main_v97 : S50000x256.Idx → EReal) (ix2 i q) := by
  obtain ⟨-, -, e0, e1, -⟩ := idx_facts t
  unfold Gen.iblk4
  rw [View.read_apply]
  show V c main_v97 _ = V c main_v97 _
  refine congrArg (V c main_v97) (funext fun a => Fin.ext ?_)
  match a with
  | ⟨0, _⟩ => show win4_1.index t (0 : Fin 2) * 2000 + 1 * p.val = i.val; rw [e0, hi]; omega
  | ⟨1, _⟩ => show win4_1.index t (1 : Fin 2) * 256 + 1 * q.val = q.val; rw [e1]; omega

/-- Entry `p` of the column operand's block at point `t` is entry `2000 t + p` of the column. -/
theorem iblk_2_apply (c : Dev nD) (t : Fin cfg4.N) (p : Fin 2000) (i : Fin 50000)
    (hi : i.val = t.val * 2000 + p.val) :
    (Gen.iblk4 V c 2 t : Vec Ideal S2000x1 .f32) (ix2 p (0 : Fin 1)) = (V c main_v15 : S50000x1.Idx → EReal) (ix2 i (0 : Fin 1)) := by
  obtain ⟨-, -, -, -, e0, e1, -⟩ := idx_facts t
  unfold Gen.iblk4
  rw [View.read_apply]
  show V c main_v15 _ = V c main_v15 _
  refine congrArg (V c main_v15) (funext fun a => Fin.ext ?_)
  match a with
  | ⟨0, _⟩ => show win4_2.index t (0 : Fin 2) * 2000 + 1 * p.val = i.val; rw [e0, hi]; omega
  | ⟨1, _⟩ => show win4_2.index t (1 : Fin 2) * 1 + 1 * 0 = 0; rw [e1]

/-- The weight windows hold their whole arrays at every point. -/
theorem iblk_3_apply (c : Dev nD) (t : Fin cfg4.N) (a b : Fin 256) :
    (Gen.iblk4 V c 3 t : Vec Ideal S256x256 .bf16) (ix2 a b) = (V c main_v99 : S256x256.Idx → EReal) (ix2 a b) := by
  obtain ⟨-, -, -, -, -, -, e0, e1, -⟩ := idx_facts t
  unfold Gen.iblk4
  rw [View.read_apply]
  show V c main_v99 _ = V c main_v99 _
  refine congrArg (V c main_v99) (funext fun k => Fin.ext ?_)
  match k with
  | ⟨0, _⟩ => show win4_3.index t (0 : Fin 2) * 256 + 1 * a.val = a.val; rw [e0]; omega
  | ⟨1, _⟩ => show win4_3.index t (1 : Fin 2) * 256 + 1 * b.val = b.val; rw [e1]; omega

theorem iblk_4_apply (c : Dev nD) (t : Fin cfg4.N) (a b : Fin 256) :
    (Gen.iblk4 V c 4 t : Vec Ideal S256x256 .bf16) (ix2 a b) = (V c main_v101 : S256x256.Idx → EReal) (ix2 a b) := by
  obtain ⟨-, -, -, -, -, -, -, -, e0, e1, -⟩ := idx_facts t
  unfold Gen.iblk4
  rw [View.read_apply]
  show V c main_v101 _ = V c main_v101 _
  refine congrArg (V c main_v101) (funext fun k => Fin.ext ?_)
  match k with
  | ⟨0, _⟩ => show win4_4.index t (0 : Fin 2) * 256 + 1 * a.val = a.val; rw [e0]; omega
  | ⟨1, _⟩ => show win4_4.index t (1 : Fin 2) * 256 + 1 * b.val = b.val; rw [e1]; omega

/-! ## What a point writes back -/

/-- The row of the arrays that row `p` of the blocks at point `t` is. -/
def rowOf (t : Fin cfg4.N) (p : Fin 2000) : Fin 50000 :=
  ⟨t.val * 2000 + p.val, by have h : t.val < 25 := Nat.lt_of_lt_of_eq t.isLt Gen.N_4
                            have := p.isLt; omega⟩

/-- The body's first result on the blocks of point `t`, at `(p, q)`. -/
theorem point_x (c : Dev nD) (t : Fin cfg4.N) (p : Fin 2000) (q : Fin 256) :
    Gen.k4_pay2 (Gen.iblk4 V c 2 t) (Gen.iblk4 V c 0 t) (Gen.iblk4 V c 1 t) (Gen.iblk4 V c 3 t) (Gen.iblk4 V c 4 t) (ix2 p q)
      = Cert.Tag.blockX (V c main_v86_0) (V c main_v97) (V c main_v15) (V c main_v99) (V c main_v101) (ix2 (rowOf t p) q) :=
  pay2_eq_blockX (V c main_v86_0) (V c main_v97) (V c main_v15) (V c main_v99) (V c main_v101)
    (Gen.iblk4 V c 2 t) (Gen.iblk4 V c 0 t) (Gen.iblk4 V c 1 t) (Gen.iblk4 V c 3 t) (Gen.iblk4 V c 4 t) (rowOf t p) p
    (fun k => iblk_0_apply V c t p k (rowOf t p) rfl) (fun k => iblk_1_apply V c t p k (rowOf t p) rfl)
    (iblk_2_apply V c t p (rowOf t p) rfl) (fun a b => iblk_3_apply V c t a b) (fun a b => iblk_4_apply V c t a b) q

/-- The body's second result on the blocks of point `t`, at `(p, q)`. -/
theorem point_xn (c : Dev nD) (t : Fin cfg4.N) (p : Fin 2000) (q : Fin 256) :
    Gen.k4_pay3 (Gen.iblk4 V c 2 t) (Gen.iblk4 V c 0 t) (Gen.iblk4 V c 1 t) (Gen.iblk4 V c 3 t) (Gen.iblk4 V c 4 t) (ix2 p q)
      = Cert.Tag.blockXn (V c main_v86_0) (V c main_v97) (V c main_v15) (V c main_v99) (V c main_v101) (ix2 (rowOf t p) q) := by
  refine (pay3_apply _ _ _ _ _ p q).trans ?_
  rw [Cert.Tag.blockXn_apply]
  exact congrArg₂ (· * ·) (point_x V c t p q) (iblk_2_apply V c t p (rowOf t p) rfl)

/-- What point `t` writes back to the first output is block `t` of the first output's formula. -/
theorem flushed5_eq (c : Dev nD) (t : Fin cfg4.N) :
    (Gen.dat4 (F := Ideal) V c).flushed 5 t = ((cfg4.win 5).blk t).view.read (Elt Ideal)
      (Cert.Tag.blockX (V c main_v86_0) (V c main_v97) (V c main_v15) (V c main_v99) (V c main_v101)) := by
  show (cfg4.win 5).cut (grid4.coords t) ((Gen.dat4 V c).after 5 t) = _
  rw [Gen.after4_5]
  unfold Gen.out4_5
  rw [View.canon_unit_zero hz]
  simp only [View.ld_unit_zero (S := S2000x256) hz, View.ld_unit_zero (S := S2000x1) hz, View.ld_unit_zero (S := S256x256) hz]
  obtain ⟨-, -, -, -, -, -, -, -, -, -, e0, e1, -⟩ := idx_facts t
  funext j
  obtain ⟨p, q, rfl⟩ : ∃ (p : Fin 2000) (q : Fin 256), j = ix2 p q := ⟨j 0, j 1, eq_ix2 j⟩
  refine (point_x V c t p q).trans ?_
  rw [View.read_apply]
  refine congrArg (Cert.Tag.blockX (V c main_v86_0) (V c main_v97) (V c main_v15) (V c main_v99) (V c main_v101))
    (funext fun a => Fin.ext ?_)
  match a with
  | ⟨0, _⟩ => show t.val * 2000 + p.val = win4_5.index t (0 : Fin 2) * 2000 + 1 * p.val; rw [e0]; omega
  | ⟨1, _⟩ => show q.val = win4_5.index t (1 : Fin 2) * 256 + 1 * q.val; rw [e1]; omega

/-- What point `t` writes back to the second output is block `t` of the second output's formula. -/
theorem flushed6_eq (c : Dev nD) (t : Fin cfg4.N) :
    (Gen.dat4 (F := Ideal) V c).flushed 6 t = ((cfg4.win 6).blk t).view.read (Elt Ideal)
      (Cert.Tag.blockXn (V c main_v86_0) (V c main_v97) (V c main_v15) (V c main_v99) (V c main_v101)) := by
  show (cfg4.win 6).cut (grid4.coords t) ((Gen.dat4 V c).after 6 t) = _
  rw [Gen.after4_6]
  unfold Gen.out4_6
  rw [View.canon_unit_zero hz]
  simp only [View.ld_unit_zero (S := S2000x256) hz, View.ld_unit_zero (S := S2000x1) hz, View.ld_unit_zero (S := S256x256) hz]
  obtain ⟨-, -, -, -, -, -, -, -, -, -, -, -, e0, e1⟩ := idx_facts t
  funext j
  obtain ⟨p, q, rfl⟩ : ∃ (p : Fin 2000) (q : Fin 256), j = ix2 p q := ⟨j 0, j 1, eq_ix2 j⟩
  refine (point_xn V c t p q).trans ?_
  rw [View.read_apply]
  refine congrArg (Cert.Tag.blockXn (V c main_v86_0) (V c main_v97) (V c main_v15) (V c main_v99) (V c main_v101))
    (funext fun a => Fin.ext ?_)
  match a with
  | ⟨0, _⟩ => show t.val * 2000 + p.val = win4_6.index t (0 : Fin 2) * 2000 + 1 * p.val; rw [e0]; omega
  | ⟨1, _⟩ => show q.val = win4_6.index t (1 : Fin 2) * 256 + 1 * q.val; rw [e1]; omega

/-! ## The blocks cover the outputs -/

/-- An index of the first output is in point `t`'s block iff each coordinate is in the block's range on its axis. -/
theorem mem_blk5 (t : Fin cfg4.N) (i : S50000x256.Idx) :
    i ∈ ((cfg4.win 5).blk t).view.set ↔ ∀ a : Fin 2, win4_5.index t a * S2000x256.size a ≤ (i a).val
      ∧ (i a).val < win4_5.index t a * S2000x256.size a + S2000x256.size a := by
  show i ∈ ((View.whole main_v102_0).slice (win4_5.rect t)).set ↔ _
  rw [View.set_slice_whole, Rect.mem_set_unit]
  exact Iff.rfl

theorem mem_blk6 (t : Fin cfg4.N) (i : S50000x256.Idx) :
    i ∈ ((cfg4.win 6).blk t).view.set ↔ ∀ a : Fin 2, win4_6.index t a * S2000x256.size a ≤ (i a).val
      ∧ (i a).val < win4_6.index t a * S2000x256.size a + S2000x256.size a := by
  show i ∈ ((View.whole main_v102_1).slice (win4_6.rect t)).set ↔ _
  rw [View.set_slice_whole, Rect.mem_set_unit]
  exact Iff.rfl

/-- The point whose blocks hold row `r`: `r / 2000`. -/
def pointOf (i : S50000x256.Idx) : Fin cfg4.N :=
  ⟨(i 0).val / 2000, by rw [show cfg4.N = 25 from Gen.N_4]; have := idx2_lt0 i; omega⟩

/-- Every index of the first output is in the block of its row's point. -/
theorem cover5 (i : S50000x256.Idx) :
    ∃ t : Fin cfg4.N, (cfg4.win 5).flush t = true ∧ i ∈ ((cfg4.win 5).blk t).view.set := by
  refine ⟨pointOf i, Gen.flush4_5 _, ?_⟩
  obtain ⟨-, -, -, -, -, -, -, -, -, -, e0, e1, -⟩ := idx_facts (pointOf i)
  have h0 : (i 0).val < 50000 := idx2_lt0 i
  have h1 : (i 1).val < 256 := idx2_lt1 i
  have hp : (pointOf i).val = (i 0).val / 2000 := rfl
  rw [mem_blk5]
  intro a
  match a with
  | ⟨0, _⟩ => show win4_5.index (pointOf i) (0 : Fin 2) * 2000 ≤ (i 0).val ∧ (i 0).val < win4_5.index (pointOf i) (0 : Fin 2) * 2000 + 2000
              rw [e0, hp]; omega
  | ⟨1, _⟩ => show win4_5.index (pointOf i) (1 : Fin 2) * 256 ≤ (i 1).val ∧ (i 1).val < win4_5.index (pointOf i) (1 : Fin 2) * 256 + 256
              rw [e1]; omega

theorem cover6 (i : S50000x256.Idx) :
    ∃ t : Fin cfg4.N, (cfg4.win 6).flush t = true ∧ i ∈ ((cfg4.win 6).blk t).view.set := by
  refine ⟨pointOf i, Gen.flush4_6 _, ?_⟩
  obtain ⟨-, -, -, -, -, -, -, -, -, -, -, -, e0, e1⟩ := idx_facts (pointOf i)
  have h0 : (i 0).val < 50000 := idx2_lt0 i
  have h1 : (i 1).val < 256 := idx2_lt1 i
  have hp : (pointOf i).val = (i 0).val / 2000 := rfl
  rw [mem_blk6]
  intro a
  match a with
  | ⟨0, _⟩ => show win4_6.index (pointOf i) (0 : Fin 2) * 2000 ≤ (i 0).val ∧ (i 0).val < win4_6.index (pointOf i) (0 : Fin 2) * 2000 + 2000
              rw [e0, hp]; omega
  | ⟨1, _⟩ => show win4_6.index (pointOf i) (1 : Fin 2) * 256 ≤ (i 1).val ∧ (i 1).val < win4_6.index (pointOf i) (1 : Fin 2) * 256 + 256
              rw [e1]; omega

end R4

/-! ## The two outputs after the launch -/

/-- After launch 4 the first output holds `x · w0 + (agg ⊙ d) · w1` of the five operand arrays as the launch found
    them. -/
theorem region4_x (V : (c : Dev nD) → (b : Ref sig .tc) → Buf (Elt Ideal) ((c : Thread nD τ).loc b)) (c : Dev nD) :
    (Gen.dat4 (F := Ideal) V c).arrAt 5 cfg4.N
      = Cert.Tag.blockX (V c main_v86_0) (V c main_v97) (V c main_v15) (V c main_v99) (V c main_v101) :=
  (Gen.dat4 (F := Ideal) V c).arrAt_eq_of_cover 5 _ (fun t _ => R4.flushed5_eq V c t) R4.cover5

/-- And the second output holds the first scaled row by row by the column operand. -/
theorem region4_xn (V : (c : Dev nD) → (b : Ref sig .tc) → Buf (Elt Ideal) ((c : Thread nD τ).loc b)) (c : Dev nD) :
    (Gen.dat4 (F := Ideal) V c).arrAt 6 cfg4.N
      = Cert.Tag.blockXn (V c main_v86_0) (V c main_v97) (V c main_v15) (V c main_v99) (V c main_v101) :=
  (Gen.dat4 (F := Ideal) V c).arrAt_eq_of_cover 6 _ (fun t _ => R4.flushed6_eq V c t) R4.cover6

end Cert.KernelIdeal.KBlock

end
-- ==== Proof.KPre.lean ====
/-
  The host prelude of the idealized kernel program, read back.

  Before the first launch the program has computed, from its arguments alone: the source and target lists, the
  inverse square-root degrees as a column, both weight stacks with their last two axes exchanged, the raw aggregate
  of the node matrix scaled by the inverse square-root degrees, and slice 0 of either weight stack.  Each statement
  below says which of these the named buffer holds when the first launch begins.

  The prelude is five stretches of operations.  Each stretch is read by itself, from arbitrary buffer contents: the
  buffers it writes as its operations' functions of the contents it starts from, the others unchanged.  The
  statements then follow boundary by boundary from the launch memory, every intermediate value kept under its name
  (the degree, the degree or one, its inverse square root) until the last step, where the inverse square-root
  degree is its own definition.
-/
import proofs.«141509_j41120016892381_2_alg».proof.Proof.Gen.KernelIdeal.Frame
import proofs.«141509_j41120016892381_2_alg».proof.Proof.KValueDefs
import Idealize.ShloMosaic.Lib.StableHlo.Run

set_option maxRecDepth 16384

noncomputable section

namespace Cert.KernelIdeal.KPre

open Cert.KernelIdeal Cert.KernelIdeal.Gen Cert.KernelIdeal.KValue
open Idealize.ShloMosaic Idealize.ShloMosaic.TcCoe Idealize.SL.Sem Idealize.ShloMosaic.StableHlo

/-! ## Each stretch of the prelude, read from arbitrary buffer contents -/

section Stretches
variable (W : Valuation τ sig (Elt Ideal))

/-- The vector of zeros over the nodes, and of ones. -/
abbrev zerosN : FVec Ideal S50000 .f32 := broadcastInDim S50000 ![] bcast_S_S50000 (constant (F := Ideal) S_ .f32 0x00000000#32)
abbrev onesN : FVec Ideal S50000 .f32 := broadcastInDim S50000 ![] bcast_S_S50000 (constant (F := Ideal) S_ .f32 0x3F800000#32)

/-! ### First stretch: the edge lists, the degree, and where it is positive -/

theorem s0_v1 : after (hostOps0 (F := Ideal)) W (Proc.devRef .tc main_v1) = row (W (Proc.devRef .tc main_arg1)) := by
  simp only [hostOps0]; after_results_simp; rfl
theorem s0_v3 : after (hostOps0 (F := Ideal)) W (Proc.devRef .tc main_v3) = col (W (Proc.devRef .tc main_arg1)) := by
  simp only [hostOps0]; after_results_simp; rfl
theorem s0_v7 : after (hostOps0 (F := Ideal)) W (Proc.devRef .tc main_v7) = deg (W (Proc.devRef .tc main_arg1)) := by
  simp only [hostOps0]; after_results_simp; rfl
theorem s0_v9 : after (hostOps0 (F := Ideal)) W (Proc.devRef .tc main_v9) = cmpf .ogt (deg (W (Proc.devRef .tc main_arg1))) zerosN := by
  simp only [hostOps0]; after_results_simp; rfl
theorem s0_v11 : after (hostOps0 (F := Ideal)) W (Proc.devRef .tc main_v11) = cmpf .ogt (deg (W (Proc.devRef .tc main_arg1))) zerosN := by
  simp only [hostOps0]; after_results_simp; rfl
theorem s0_cst_3 : after (hostOps0 (F := Ideal)) W (Proc.devRef .tc main_cst_3) = constant (F := Ideal) S_ .f32 0x3F800000#32 := by
  simp only [hostOps0]; after_results_simp
theorem s0_arg0 : after (hostOps0 (F := Ideal)) W (Proc.devRef .tc main_arg0) = W (Proc.devRef .tc main_arg0) := by
  simp only [hostOps0]; after_results_simp
theorem s0_arg2 : after (hostOps0 (F := Ideal)) W (Proc.devRef .tc main_arg2) = W (Proc.devRef .tc main_arg2) := by
  simp only [hostOps0]; after_results_simp
theorem s0_arg3 : after (hostOps0 (F := Ideal)) W (Proc.devRef .tc main_arg3) = W (Proc.devRef .tc main_arg3) := by
  simp only [hostOps0]; after_results_simp

/-! ### Second stretch: the degree, or one where it is not positive -/

theorem s1_v12 : after (hostOps0_1 (F := Ideal)) W (Proc.devRef .tc main_v12)
    = select (W (Proc.devRef .tc main_v11) : IVec S50000 1) (W (Proc.devRef .tc main_v7) : FVec Ideal S50000 .f32)
        (broadcastInDim S50000 ![] bcast_S_S50000 (W (Proc.devRef .tc main_cst_3) : FVec Ideal S_ .f32)) := by
  simp only [hostOps0_1]; after_results_simp; rfl
theorem s1_v9 : after (hostOps0_1 (F := Ideal)) W (Proc.devRef .tc main_v9) = W (Proc.devRef .tc main_v9) := by
  simp only [hostOps0_1]; after_results_simp
theorem s1_v1 : after (hostOps0_1 (F := Ideal)) W (Proc.devRef .tc main_v1) = W (Proc.devRef .tc main_v1) := by
  simp only [hostOps0_1]; after_results_simp
theorem s1_v3 : after (hostOps0_1 (F := Ideal)) W (Proc.devRef .tc main_v3) = W (Proc.devRef .tc main_v3) := by
  simp only [hostOps0_1]; after_results_simp
theorem s1_arg0 : after (hostOps0_1 (F := Ideal)) W (Proc.devRef .tc main_arg0) = W (Proc.devRef .tc main_arg0) := by
  simp only [hostOps0_1]; after_results_simp
theorem s1_arg2 : after (hostOps0_1 (F := Ideal)) W (Proc.devRef .tc main_arg2) = W (Proc.devRef .tc main_arg2) := by
  simp only [hostOps0_1]; after_results_simp
theorem s1_arg3 : after (hostOps0_1 (F := Ideal)) W (Proc.devRef .tc main_arg3) = W (Proc.devRef .tc main_arg3) := by
  simp only [hostOps0_1]; after_results_simp

/-! ### Third stretch: its inverse square root -/

theorem s2_v13 : after (hostOps0_2 (F := Ideal)) W (Proc.devRef .tc main_v13) = (Host.rsqrt (F := Ideal) (W (Proc.devRef .tc main_v12) : FVec Ideal S50000 .f32) : FVec Ideal S50000 .f32) := by
  simp only [hostOps0_2]; after_results_simp
theorem s2_cst_4 : after (hostOps0_2 (F := Ideal)) W (Proc.devRef .tc main_cst_4) = constant (F := Ideal) S_ .f32 0x00000000#32 := by
  simp only [hostOps0_2]; after_results_simp
theorem s2_v9 : after (hostOps0_2 (F := Ideal)) W (Proc.devRef .tc main_v9) = W (Proc.devRef .tc main_v9) := by
  simp only [hostOps0_2]; after_results_simp
theorem s2_v1 : after (hostOps0_2 (F := Ideal)) W (Proc.devRef .tc main_v1) = W (Proc.devRef .tc main_v1) := by
  simp only [hostOps0_2]; after_results_simp
theorem s2_v3 : after (hostOps0_2 (F := Ideal)) W (Proc.devRef .tc main_v3) = W (Proc.devRef .tc main_v3) := by
  simp only [hostOps0_2]; after_results_simp
theorem s2_arg0 : after (hostOps0_2 (F := Ideal)) W (Proc.devRef .tc main_arg0) = W (Proc.devRef .tc main_arg0) := by
  simp only [hostOps0_2]; after_results_simp
theorem s2_arg2 : after (hostOps0_2 (F := Ideal)) W (Proc.devRef .tc main_arg2) = W (Proc.devRef .tc main_arg2) := by
  simp only [hostOps0_2]; after_results_simp
theorem s2_arg3 : after (hostOps0_2 (F := Ideal)) W (Proc.devRef .tc main_arg3) = W (Proc.devRef .tc main_arg3) := by
  simp only [hostOps0_2]; after_results_simp

/-! ### Fourth stretch: zero where the degree is not positive -/

theorem s3_v14 : after (hostOps0_3 (F := Ideal)) W (Proc.devRef .tc main_v14)
    = select (W (Proc.devRef .tc main_v9) : IVec S50000 1) (W (Proc.devRef .tc main_v13) : FVec Ideal S50000 .f32)
        (broadcastInDim S50000 ![] bcast_S_S50000 (W (Proc.devRef .tc main_cst_4) : FVec Ideal S_ .f32)) := by
  simp only [hostOps0_3]; after_results_simp; rfl
theorem s3_v1 : after (hostOps0_3 (F := Ideal)) W (Proc.devRef .tc main_v1) = W (Proc.devRef .tc main_v1) := by
  simp only [hostOps0_3]; after_results_simp
theorem s3_v3 : after (hostOps0_3 (F := Ideal)) W (Proc.devRef .tc main_v3) = W (Proc.devRef .tc main_v3) := by
  simp only [hostOps0_3]; after_results_simp
theorem s3_arg0 : after (hostOps0_3 (F := Ideal)) W (Proc.devRef .tc main_arg0) = W (Proc.devRef .tc main_arg0) := by
  simp only [hostOps0_3]; after_results_simp
theorem s3_arg2 : after (hostOps0_3 (F := Ideal)) W (Proc.devRef .tc main_arg2) = W (Proc.devRef .tc main_arg2) := by
  simp only [hostOps0_3]; after_results_simp
theorem s3_arg3 : after (hostOps0_3 (F := Ideal)) W (Proc.devRef .tc main_arg3) = W (Proc.devRef .tc main_arg3) := by
  simp only [hostOps0_3]; after_results_simp

/-! ### Fifth stretch: the column, the exchanged weights and their first slices, the first raw aggregate -/

theorem s4_v15 : after (hostOps0_4 (F := Ideal)) W (Proc.devRef .tc main_v15) = dcol (W (Proc.devRef .tc main_v14)) := by
  simp only [hostOps0_4]; after_results_simp; rfl
theorem s4_v17 : after (hostOps0_4 (F := Ideal)) W (Proc.devRef .tc main_v17) = wT (W (Proc.devRef .tc main_arg2)) := by
  simp only [hostOps0_4]; after_results_simp; rfl
theorem s4_v19 : after (hostOps0_4 (F := Ideal)) W (Proc.devRef .tc main_v19) = wT (W (Proc.devRef .tc main_arg3)) := by
  simp only [hostOps0_4]; after_results_simp; rfl
theorem s4_v33 : after (hostOps0_4 (F := Ideal)) W (Proc.devRef .tc main_v33)
    = rawAgg (scaled (W (Proc.devRef .tc main_arg0)) (dcol (W (Proc.devRef .tc main_v14)))) (W (Proc.devRef .tc main_v1)) (W (Proc.devRef .tc main_v3)) := by
  simp only [hostOps0_4]; after_results_simp; rfl
theorem s4_v35 : after (hostOps0_4 (F := Ideal)) W (Proc.devRef .tc main_v35)
    = wslice 0 slices_S5x256x256_S1x256x256_0_0_0 (wT (W (Proc.devRef .tc main_arg2))) := by
  simp only [hostOps0_4]; after_results_simp; rfl
theorem s4_v37 : after (hostOps0_4 (F := Ideal)) W (Proc.devRef .tc main_v37)
    = wslice 0 slices_S5x256x256_S1x256x256_0_0_0 (wT (W (Proc.devRef .tc main_arg3))) := by
  simp only [hostOps0_4]; after_results_simp; rfl
theorem s4_arg0 : after (hostOps0_4 (F := Ideal)) W (Proc.devRef .tc main_arg0) = W (Proc.devRef .tc main_arg0) := by
  simp only [hostOps0_4]; after_results_simp
theorem s4_v1 : after (hostOps0_4 (F := Ideal)) W (Proc.devRef .tc main_v1) = W (Proc.devRef .tc main_v1) := by
  simp only [hostOps0_4]; after_results_simp
theorem s4_v3 : after (hostOps0_4 (F := Ideal)) W (Proc.devRef .tc main_v3) = W (Proc.devRef .tc main_v3) := by
  simp only [hostOps0_4]; after_results_simp

end Stretches

/-! ## The chain: from the launch memory through the five stretches -/

section Chain
variable (m : (ℓ : Loc nD τ sig) → Buf (Elt Ideal) ℓ) (ρ : Dev nD → PrngReg) (c : Dev nD)

/-! ### After the first stretch -/

theorem w1_v1 : W1 (F := Ideal) m ρ c (Proc.devRef .tc main_v1) = row (m ((c : Thread nD τ).loc main_arg1)) := s0_v1 (W0 m ρ c)
theorem w1_v3 : W1 (F := Ideal) m ρ c (Proc.devRef .tc main_v3) = col (m ((c : Thread nD τ).loc main_arg1)) := s0_v3 (W0 m ρ c)
theorem w1_v7 : W1 (F := Ideal) m ρ c (Proc.devRef .tc main_v7) = deg (m ((c : Thread nD τ).loc main_arg1)) := s0_v7 (W0 m ρ c)
theorem w1_v9 : W1 (F := Ideal) m ρ c (Proc.devRef .tc main_v9) = cmpf .ogt (deg (m ((c : Thread nD τ).loc main_arg1))) zerosN := s0_v9 (W0 m ρ c)
theorem w1_v11 : W1 (F := Ideal) m ρ c (Proc.devRef .tc main_v11) = cmpf .ogt (deg (m ((c : Thread nD τ).loc main_arg1))) zerosN := s0_v11 (W0 m ρ c)
theorem w1_cst_3 : W1 (F := Ideal) m ρ c (Proc.devRef .tc main_cst_3) = constant (F := Ideal) S_ .f32 0x3F800000#32 := s0_cst_3 (W0 m ρ c)
theorem w1_arg0 : W1 (F := Ideal) m ρ c (Proc.devRef .tc main_arg0) = m ((c : Thread nD τ).loc main_arg0) := s0_arg0 (W0 m ρ c)
theorem w1_arg2 : W1 (F := Ideal) m ρ c (Proc.devRef .tc main_arg2) = m ((c : Thread nD τ).loc main_arg2) := s0_arg2 (W0 m ρ c)
theorem w1_arg3 : W1 (F := Ideal) m ρ c (Proc.devRef .tc main_arg3) = m ((c : Thread nD τ).loc main_arg3) := s0_arg3 (W0 m ρ c)

/-! ### After the second -/

/-- The degree where it is positive, one elsewhere. -/
abbrev degOr1 (a1 : (⟨S2x800000, .i32⟩ : BufTy).Contents (Elt Ideal)) : FVec Ideal S50000 .f32 :=
  select (cmpf .ogt (deg a1) zerosN) (deg a1) onesN

theorem w2_v12 : W2 (F := Ideal) m ρ c (Proc.devRef .tc main_v12) = degOr1 (m ((c : Thread nD τ).loc main_arg1)) := by
  refine (s1_v12 (W1 m ρ c)).trans ?_
  rw [w1_v11, w1_v7, w1_cst_3]
theorem w2_v9 : W2 (F := Ideal) m ρ c (Proc.devRef .tc main_v9) = cmpf .ogt (deg (m ((c : Thread nD τ).loc main_arg1))) zerosN :=
  (s1_v9 (W1 m ρ c)).trans (w1_v9 m ρ c)
theorem w2_v1 : W2 (F := Ideal) m ρ c (Proc.devRef .tc main_v1) = row (m ((c : Thread nD τ).loc main_arg1)) := (s1_v1 (W1 m ρ c)).trans (w1_v1 m ρ c)
theorem w2_v3 : W2 (F := Ideal) m ρ c (Proc.devRef .tc main_v3) = col (m ((c : Thread nD τ).loc main_arg1)) := (s1_v3 (W1 m ρ c)).trans (w1_v3 m ρ c)
theorem w2_arg0 : W2 (F := Ideal) m ρ c (Proc.devRef .tc main_arg0) = m ((c : Thread nD τ).loc main_arg0) := (s1_arg0 (W1 m ρ c)).trans (w1_arg0 m ρ c)
theorem w2_arg2 : W2 (F := Ideal) m ρ c (Proc.devRef .tc main_arg2) = m ((c : Thread nD τ).loc main_arg2) := (s1_arg2 (W1 m ρ c)).trans (w1_arg2 m ρ c)
theorem w2_arg3 : W2 (F := Ideal) m ρ c (Proc.devRef .tc main_arg3) = m ((c : Thread nD τ).loc main_arg3) := (s1_arg3 (W1 m ρ c)).trans (w1_arg3 m ρ c)

/-! ### After the third -/

theorem w3_v13 : W3 (F := Ideal) m ρ c (Proc.devRef .tc main_v13)
    = (Host.rsqrt (F := Ideal) (degOr1 (m ((c : Thread nD τ).loc main_arg1))) : FVec Ideal S50000 .f32) := by
  refine (s2_v13 (W2 m ρ c)).trans ?_
  rw [w2_v12]
theorem w3_cst_4 : W3 (F := Ideal) m ρ c (Proc.devRef .tc main_cst_4) = constant (F := Ideal) S_ .f32 0x00000000#32 := s2_cst_4 (W2 m ρ c)
theorem w3_v9 : W3 (F := Ideal) m ρ c (Proc.devRef .tc main_v9) = cmpf .ogt (deg (m ((c : Thread nD τ).loc main_arg1))) zerosN :=
  (s2_v9 (W2 m ρ c)).trans (w2_v9 m ρ c)
theorem w3_v1 : W3 (F := Ideal) m ρ c (Proc.devRef .tc main_v1) = row (m ((c : Thread nD τ).loc main_arg1)) := (s2_v1 (W2 m ρ c)).trans (w2_v1 m ρ c)
theorem w3_v3 : W3 (F := Ideal) m ρ c (Proc.devRef .tc main_v3) = col (m ((c : Thread nD τ).loc main_arg1)) := (s2_v3 (W2 m ρ c)).trans (w2_v3 m ρ c)
theorem w3_arg0 : W3 (F := Ideal) m ρ c (Proc.devRef .tc main_arg0) = m ((c : Thread nD τ).loc main_arg0) := (s2_arg0 (W2 m ρ c)).trans (w2_arg0 m ρ c)
theorem w3_arg2 : W3 (F := Ideal) m ρ c (Proc.devRef .tc main_arg2) = m ((c : Thread nD τ).loc main_arg2) := (s2_arg2 (W2 m ρ c)).trans (w2_arg2 m ρ c)
theorem w3_arg3 : W3 (F := Ideal) m ρ c (Proc.devRef .tc main_arg3) = m ((c : Thread nD τ).loc main_arg3) := (s2_arg3 (W2 m ρ c)).trans (w2_arg3 m ρ c)

/-! ### After the fourth: the inverse square-root degrees -/

theorem w4_v14 : W4 (F := Ideal) m ρ c (Proc.devRef .tc main_v14) = dinv (m ((c : Thread nD τ).loc main_arg1)) := by
  refine (s3_v14 (W3 m ρ c)).trans ?_
  rw [w3_v9, w3_v13, w3_cst_4]
  rfl
theorem w4_v1 : W4 (F := Ideal) m ρ c (Proc.devRef .tc main_v1) = row (m ((c : Thread nD τ).loc main_arg1)) := (s3_v1 (W3 m ρ c)).trans (w3_v1 m ρ c)
theorem w4_v3 : W4 (F := Ideal) m ρ c (Proc.devRef .tc main_v3) = col (m ((c : Thread nD τ).loc main_arg1)) := (s3_v3 (W3 m ρ c)).trans (w3_v3 m ρ c)
theorem w4_arg0 : W4 (F := Ideal) m ρ c (Proc.devRef .tc main_arg0) = m ((c : Thread nD τ).loc main_arg0) := (s3_arg0 (W3 m ρ c)).trans (w3_arg0 m ρ c)
theorem w4_arg2 : W4 (F := Ideal) m ρ c (Proc.devRef .tc main_arg2) = m ((c : Thread nD τ).loc main_arg2) := (s3_arg2 (W3 m ρ c)).trans (w3_arg2 m ρ c)
theorem w4_arg3 : W4 (F := Ideal) m ρ c (Proc.devRef .tc main_arg3) = m ((c : Thread nD τ).loc main_arg3) := (s3_arg3 (W3 m ρ c)).trans (w3_arg3 m ρ c)

end Chain

/-! ## What the first launch finds -/

theorem pre_x (m : (ℓ : Loc nD τ sig) → Buf (Elt Ideal) ℓ) (ρ : Dev nD → PrngReg) (c : Dev nD) :
    W5 (F := Ideal) m ρ c (Proc.devRef .tc main_arg0) = m ((c : Thread nD τ).loc main_arg0) :=
  (s4_arg0 (W4 m ρ c)).trans (w4_arg0 m ρ c)

theorem pre_row (m : (ℓ : Loc nD τ sig) → Buf (Elt Ideal) ℓ) (ρ : Dev nD → PrngReg) (c : Dev nD) :
    W5 (F := Ideal) m ρ c (Proc.devRef .tc main_v1) = row (m ((c : Thread nD τ).loc main_arg1)) :=
  (s4_v1 (W4 m ρ c)).trans (w4_v1 m ρ c)

theorem pre_col (m : (ℓ : Loc nD τ sig) → Buf (Elt Ideal) ℓ) (ρ : Dev nD → PrngReg) (c : Dev nD) :
    W5 (F := Ideal) m ρ c (Proc.devRef .tc main_v3) = col (m ((c : Thread nD τ).loc main_arg1)) :=
  (s4_v3 (W4 m ρ c)).trans (w4_v3 m ρ c)

theorem pre_dcol (m : (ℓ : Loc nD τ sig) → Buf (Elt Ideal) ℓ) (ρ : Dev nD → PrngReg) (c : Dev nD) :
    W5 (F := Ideal) m ρ c (Proc.devRef .tc main_v15) = dcol (dinv (m ((c : Thread nD τ).loc main_arg1))) := by
  refine (s4_v15 (W4 m ρ c)).trans ?_
  rw [w4_v14]

theorem pre_wT0 (m : (ℓ : Loc nD τ sig) → Buf (Elt Ideal) ℓ) (ρ : Dev nD → PrngReg) (c : Dev nD) :
    W5 (F := Ideal) m ρ c (Proc.devRef .tc main_v17) = wT (m ((c : Thread nD τ).loc main_arg2)) := by
  refine (s4_v17 (W4 m ρ c)).trans ?_
  rw [w4_arg2]

theorem pre_wT1 (m : (ℓ : Loc nD τ sig) → Buf (Elt Ideal) ℓ) (ρ : Dev nD → PrngReg) (c : Dev nD) :
    W5 (F := Ideal) m ρ c (Proc.devRef .tc main_v19) = wT (m ((c : Thread nD τ).loc main_arg3)) := by
  refine (s4_v19 (W4 m ρ c)).trans ?_
  rw [w4_arg3]

theorem pre_agg (m : (ℓ : Loc nD τ sig) → Buf (Elt Ideal) ℓ) (ρ : Dev nD → PrngReg) (c : Dev nD) :
    W5 (F := Ideal) m ρ c (Proc.devRef .tc main_v33) = rawAgg (scaled (m ((c : Thread nD τ).loc main_arg0)) (dcol (dinv (m ((c : Thread nD τ).loc main_arg1))))) (row (m ((c : Thread nD τ).loc main_arg1))) (col (m ((c : Thread nD τ).loc main_arg1))) := by
  refine (s4_v33 (W4 m ρ c)).trans ?_
  rw [w4_arg0, w4_v14, w4_v1, w4_v3]

theorem pre_w0 (m : (ℓ : Loc nD τ sig) → Buf (Elt Ideal) ℓ) (ρ : Dev nD → PrngReg) (c : Dev nD) :
    W5 (F := Ideal) m ρ c (Proc.devRef .tc main_v35) = wslice 0 slices_S5x256x256_S1x256x256_0_0_0 (wT (m ((c : Thread nD τ).loc main_arg2))) := by
  refine (s4_v35 (W4 m ρ c)).trans ?_
  rw [w4_arg2]

theorem pre_w1 (m : (ℓ : Loc nD τ sig) → Buf (Elt Ideal) ℓ) (ρ : Dev nD → PrngReg) (c : Dev nD) :
    W5 (F := Ideal) m ρ c (Proc.devRef .tc main_v37) = wslice 0 slices_S5x256x256_S1x256x256_0_0_0 (wT (m ((c : Thread nD τ).loc main_arg3))) := by
  refine (s4_v37 (W4 m ρ c)).trans ?_
  rw [w4_arg3]

end Cert.KernelIdeal.KPre

end
-- ==== Proof.KValue.lean ====
/-
  The kernel program's result is the fifth iterate of the graph convolution.

  The prelude leaves, where the first launch reads them, the node matrix, the raw aggregate of the matrix scaled by
  the degree factors, the degree column and slice 0 of the exchanged weight stacks; each launch writes the dense
  kernel's two functions of its operands.  With those two families of facts the chain of the five launches gives the
  result buffer as the five steps applied to the argument matrix.
-/
import proofs.«141509_j41120016892381_2_alg».proof.Proof.KValueChain
import proofs.«141509_j41120016892381_2_alg».proof.Proof.KBlock0
import proofs.«141509_j41120016892381_2_alg».proof.Proof.KBlock1
import proofs.«141509_j41120016892381_2_alg».proof.Proof.KBlock2
import proofs.«141509_j41120016892381_2_alg».proof.Proof.KBlock3
import proofs.«141509_j41120016892381_2_alg».proof.Proof.KBlock4
import proofs.«141509_j41120016892381_2_alg».proof.Proof.KPre

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.SL.Sem

/-- Each launch writes the dense kernel's two functions of its operands. -/
theorem launches : Launches :=
  ⟨KBlock.region0_x, KBlock.region0_xn, KBlock.region1_x, KBlock.region1_xn, KBlock.region2_x, KBlock.region2_xn,
    KBlock.region3_x, KBlock.region3_xn, KBlock.region4_x⟩

/-- THE VALUE: the result buffer after the last launch holds the five steps applied to the argument matrix. -/
theorem value (m : (ℓ : Loc nD τ sig) → Buf (Elt Ideal) ℓ) (ρ : Dev nD → PrngReg) (c : Dev nD) :
    Gen.W14 (F := Ideal) m ρ c (Proc.devRef .tc main_v102_0)
      = Cert.Tag.iterK (m ((c : Thread nD τ).loc main_arg0)) (dinv (m ((c : Thread nD τ).loc main_arg1)))
          (rowN (m ((c : Thread nD τ).loc main_arg1))) (col (m ((c : Thread nD τ).loc main_arg1)))
          (m ((c : Thread nD τ).loc main_arg2)) (m ((c : Thread nD τ).loc main_arg3)) :=
  value_of m ρ c launches
    ⟨KPre.pre_row m ρ c, KPre.pre_col m ρ c, KPre.pre_dcol m ρ c, KPre.pre_wT0 m ρ c, KPre.pre_wT1 m ρ c⟩
    ⟨KPre.pre_x m ρ c,
     ⟨scaled (m ((c : Thread nD τ).loc main_arg0)) (dcol (dinv (m ((c : Thread nD τ).loc main_arg1)))),
      fun i q => by rw [scaled_apply, dcol_apply], KPre.pre_agg m ρ c⟩,
     KPre.pre_dcol m ρ c, KPre.pre_w0 m ρ c, KPre.pre_w1 m ρ c⟩

end Cert.KernelIdeal.KValue

end
-- ==== Proof.RefTerms.lean ====
/-
  The terms of the reference graph convolution, written with the program's own operations over its own constants:
  the two edge lists cut out of the edge array, an edge list with its negative entries moved up by the node count,
  the degree of every node and its inverse square root, the edge weights laid as a column, transposed slice `k` of a
  weight stack, and one step `x ↦ x · W0ₖᵀ + A · W1ₖᵀ` of the convolution.
-/
import proofs.«141509_j41120016892381_2_alg».proof.Proof.Gen.ReferenceIdeal

noncomputable section

namespace Cert.ReferenceIdeal.RValue

open Cert.ReferenceIdeal Cert.ReferenceIdeal.Gen Idealize.ShloMosaic

variable {F : FTy → Type} [FloatOps F]

/-- The first row of the edge array: the sources. -/
def row (a1 : IVec S2x800000 32) : IVec S800000 32 :=
  shapeCast S800000 (extractStridedSlice S1x800000 ![0, 0] a1 slices_S2x800000_S1x800000_0_0) shapeCasts_S1x800000_S800000

/-- The second row of the edge array: the targets. -/
def col (a1 : IVec S2x800000 32) : IVec S800000 32 :=
  shapeCast S800000 (extractStridedSlice S1x800000 ![1, 0] a1 slices_S2x800000_S1x800000_1_0) shapeCasts_S1x800000_S800000

/-- An edge list with every negative entry moved up by the node count. -/
def normIdx (r : IVec S800000 32) : IVec S800000 32 :=
  select (cmpi .slt r (broadcastInDim S800000 ![] bcast_S_S800000 (constantI S_ 32 0#32)))
    (addi r (broadcastInDim S800000 ![] bcast_S_S800000 (constantI S_ 32 50000#32))) r

/-- The normalized sources. -/
def rowN (a1 : IVec S2x800000 32) : IVec S800000 32 := normIdx (row a1)

/-- The normalized targets. -/
def colN (a1 : IVec S2x800000 32) : IVec S800000 32 := normIdx (col a1)

/-- The zero vector over the nodes. -/
def zeroN : FVec F S50000 .f32 := broadcastInDim S50000 ![] bcast_S_S50000 (constant S_ .f32 0x00000000#32)

/-- The degree of every node: a one added for every edge whose target entry is the node. -/
def degF (c : IVec S800000 32) : FVec F S50000 .f32 :=
  Host.scatterAdd scatter_S50000_S800000x1_S800000_n_0_0_1 (zeroN (F := F))
    (broadcastInDim S800000x1 ![0] bcast_S800000_S800000x1_0 c)
    (broadcastInDim S800000 ![] bcast_S_S800000 (constant S_ .f32 0x3F800000#32))

/-- The inverse square root of a positive degree, zero elsewhere. -/
def dinvOf (d : FVec F S50000 .f32) : FVec F S50000 .f32 :=
  select (cmpf .ogt d (zeroN (F := F)))
    (Host.rsqrt (select (cmpf .ogt d (zeroN (F := F))) d
      (broadcastInDim S50000 ![] bcast_S_S50000 (id (constant S_ .f32 0x3F800000#32)))))
    (broadcastInDim S50000 ![] bcast_S_S50000 (id (constant S_ .f32 0x00000000#32)))

/-- The inverse square-root degrees of the edge array's targets. -/
def dinvF (a1 : IVec S2x800000 32) : FVec F S50000 .f32 := dinvOf (degF (col a1))

/-- The edge weights `dinv (source) · dinv (target)`, laid as a column. -/
def normCol (dv : FVec F S50000 .f32) (r c : IVec S800000 32) : FVec F S800000x1 .f32 :=
  broadcastInDim S800000x1 ![0] bcast_S800000_S800000x1_0
    (mulf (Host.gather gather_S50000_S800000x1_S800000_n_0_n_n_0_1_1 dv (broadcastInDim S800000x1 ![0] bcast_S800000_S800000x1_0 (normIdx r)))
      (Host.gather gather_S50000_S800000x1_S800000_n_0_n_n_0_1_1 dv (broadcastInDim S800000x1 ![0] bcast_S800000_S800000x1_0 (normIdx c))))

/-- Slice `k` of a weight stack as a matrix, transposed. -/
def wT (w : FVec F S5x256x256 .f32) (k : Nat) (hk : S5x256x256.Slices ![k, 0, 0] S1x256x256) : FVec F S256x256 .f32 :=
  transpose S256x256 [1, 0] (shapeCast S256x256 (extractStridedSlice S1x256x256 ![k, 0, 0] w hk) shapeCasts_S1x256x256_S256x256)
    transposes_S256x256_S256x256_1_0

/-- The aggregate: the rows of `x` at the normalized sources, each scaled by its edge weight, added at the targets. -/
def aggT (x : FVec F S50000x256 .f32) (r c : IVec S800000 32) (n : FVec F S800000x1 .f32) : FVec F S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 c)
    (mulf (Host.gather gather_S50000x256_S800000x1_S800000x256_1_0_n_n_0_1_1256 x
        (broadcastInDim S800000x1 ![0] bcast_S800000_S800000x1_0 (normIdx r)))
      (broadcastInDim S800000x256 ![0, 1] bcast_S800000x1_S800000x256_0_1 n))

/-- One step: `x · W0ₖᵀ + A · W1ₖᵀ`. -/
def stepT (x : FVec F S50000x256 .f32) (r c : IVec S800000 32) (n : FVec F S800000x1 .f32)
    (w0 w1 : FVec F S5x256x256 .f32) (k : Nat) (hk : S5x256x256.Slices ![k, 0, 0] S1x256x256) : FVec F S50000x256 .f32 :=
  addf (Host.dotGeneral dot_S50000x256_S256x256_S50000x256_1_0_0_1_n_n none x (wT w0 k hk))
    (Host.dotGeneral dot_S50000x256_S256x256_S50000x256_1_0_0_1_n_n none (aggT x r c n) (wT w1 k hk))

end Cert.ReferenceIdeal.RValue

end
-- ==== Proof.RefSegs.lean ====
/-
  The reference's line of 165 host operations cut into six consecutive pieces — the operations before the first step
  and the five steps — and each piece read from ANY contents of the buffers: the buffer a piece ends in holds one small
  term of the contents the piece started from (at the edge lists, the edge weights, the two weight stacks and the
  previous node matrix), and the buffers a piece does not write keep their contents.  The composed term of the whole
  line is never formed.
-/
import proofs.«141509_j41120016892381_2_alg».proof.Proof.RefRunP
import proofs.«141509_j41120016892381_2_alg».proof.Proof.RefTerms

noncomputable section

namespace Cert.ReferenceIdeal.RValue

open Cert.ReferenceIdeal Cert.ReferenceIdeal.Gen Idealize.ShloMosaic Idealize.ShloMosaic.TcCoe Idealize.SL.Sem Idealize.ShloMosaic.StableHlo
open Cert.ReferenceIdeal.ValueP (ops)

variable {F : FTy → Type} [FloatOps F]

/-- The operations before the first step: the edge lists, the degrees and the edge weights. -/
abbrev pre : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x00000000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (cmpf .ogt : (⟨S50000, .f32⟩ : BufTy).Contents (Elt F) → (⟨S50000, .f32⟩ : BufTy).Contents (Elt F) → (⟨S50000, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v11) (TRef.of (T := ⟨S50000, .f32⟩) main_v7) (TRef.of (T := ⟨S50000, .f32⟩) main_call0_v1) (TRef.of (T := ⟨S50000, .f32⟩) main_v12) select,
    unary main_v12 main_v13 (Host.rsqrt : (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v9) (TRef.of (T := ⟨S50000, .f32⟩) main_v13) (TRef.of (T := ⟨S50000, .f32⟩) main_call1_v1) (TRef.of (T := ⟨S50000, .f32⟩) main_v14) select,
    nullary main_c (constantI S_ 32 0#32),
    unary main_c main_v15 (broadcastInDim S800000 ![] bcast_S_S800000 : (⟨S_, .i32⟩ : BufTy).Contents (Elt F) → (⟨S800000, .i32⟩ : BufTy).Contents (Elt F)),
    binary main_v1 main_v15 main_v16 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v17 (broadcastInDim S800000 ![] bcast_S_S800000 : (⟨S_, .i32⟩ : BufTy).Contents (Elt F) → (⟨S800000, .i32⟩ : BufTy).Contents (Elt F)),
    binary main_v1 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_v1 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_v14 main_v20 main_v21 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_6 (constantI S_ 32 0#32),
    unary main_c_6 main_v22 (broadcastInDim S800000 ![] bcast_S_S800000 : (⟨S_, .i32⟩ : BufTy).Contents (Elt F) → (⟨S800000, .i32⟩ : BufTy).Contents (Elt F)),
    binary main_v3 main_v22 main_v23 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v24 (broadcastInDim S800000 ![] bcast_S_S800000 : (⟨S_, .i32⟩ : BufTy).Contents (Elt F) → (⟨S800000, .i32⟩ : BufTy).Contents (Elt F)),
    binary main_v3 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v14 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v21 main_v28 main_v29 (mulf : (⟨S800000, .f32⟩ : BufTy).Contents (Elt F) → (⟨S800000, .f32⟩ : BufTy).Contents (Elt F) → (⟨S800000, .f32⟩ : BufTy).Contents (Elt F)),
    unary main_v29 main_v30 (broadcastInDim S800000x1 ![0] bcast_S800000_S800000x1_0 : (⟨S800000, .f32⟩ : BufTy).Contents (Elt F) → (⟨S800000x1, .f32⟩ : BufTy).Contents (Elt F)) ]

/-- The operations of step 0. -/
abbrev seg0 : List (HloOp τ sig (Elt F)) :=
  [ nullary main_c_8 (constantI S_ 32 0#32),
    unary main_c_8 main_v31 (broadcastInDim S800000 ![] bcast_S_S800000 : (⟨S_, .i32⟩ : BufTy).Contents (Elt F) → (⟨S800000, .i32⟩ : BufTy).Contents (Elt F)),
    binary main_v1 main_v31 main_v32 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v33 (broadcastInDim S800000 ![] bcast_S_S800000 : (⟨S_, .i32⟩ : BufTy).Contents (Elt F) → (⟨S800000, .i32⟩ : BufTy).Contents (Elt F)),
    binary main_v1 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v1 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_arg0 main_v36 main_v37 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v30 main_v38 (broadcastInDim S800000x256 ![0, 1] bcast_S800000x1_S800000x256_0_1 : (⟨S800000x1, .f32⟩ : BufTy).Contents (Elt F) → (⟨S800000x256, .f32⟩ : BufTy).Contents (Elt F)),
    binary main_v37 main_v38 main_v39 (mulf : (⟨S800000x256, .f32⟩ : BufTy).Contents (Elt F) → (⟨S800000x256, .f32⟩ : BufTy).Contents (Elt F) → (⟨S800000x256, .f32⟩ : BufTy).Contents (Elt F)),
    nullary main_cst_10 (constant S_ .f32 0x00000000#32),
    unary main_cst_10 main_v40 (broadcastInDim S50000x256 ![] bcast_S_S50000x256 : (⟨S_, .f32⟩ : BufTy).Contents (Elt F) → (⟨S50000x256, .f32⟩ : BufTy).Contents (Elt F)),
    unary main_v3 main_v41 (broadcastInDim S800000x1 ![0] bcast_S800000_S800000x1_0 : (⟨S800000, .i32⟩ : BufTy).Contents (Elt F) → (⟨S800000x1, .i32⟩ : BufTy).Contents (Elt F)),
    ternary main_v40 main_v41 main_v39 main_v42 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg2 main_v43 ((extractStridedSlice S1x256x256 ![0, 0, 0] · slices_S5x256x256_S1x256x256_0_0_0) : (⟨S5x256x256, .f32⟩ : BufTy).Contents (Elt F) → (⟨S1x256x256, .f32⟩ : BufTy).Contents (Elt F)),
    reshape main_v43 main_v44 rfl shapeCasts_S1x256x256_S256x256,
    unary main_v44 main_v45 ((transpose S256x256 [1, 0] · transposes_S256x256_S256x256_1_0) : (⟨S256x256, .f32⟩ : BufTy).Contents (Elt F) → (⟨S256x256, .f32⟩ : BufTy).Contents (Elt F)),
    binary main_arg0 main_v45 main_v46 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg3 main_v47 ((extractStridedSlice S1x256x256 ![0, 0, 0] · slices_S5x256x256_S1x256x256_0_0_0) : (⟨S5x256x256, .f32⟩ : BufTy).Contents (Elt F) → (⟨S1x256x256, .f32⟩ : BufTy).Contents (Elt F)),
    reshape main_v47 main_v48 rfl shapeCasts_S1x256x256_S256x256,
    unary main_v48 main_v49 ((transpose S256x256 [1, 0] · transposes_S256x256_S256x256_1_0) : (⟨S256x256, .f32⟩ : BufTy).Contents (Elt F) → (⟨S256x256, .f32⟩ : BufTy).Contents (Elt F)),
    binary main_v42 main_v49 main_v50 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v46 main_v50 main_v51 (addf : (⟨S50000x256, .f32⟩ : BufTy).Contents (Elt F) → (⟨S50000x256, .f32⟩ : BufTy).Contents (Elt F) → (⟨S50000x256, .f32⟩ : BufTy).Contents (Elt F)) ]

/-- The operations of step 1. -/
abbrev seg1 : List (HloOp τ sig (Elt F)) :=
  [ nullary main_c_11 (constantI S_ 32 0#32),
    unary main_c_11 main_v52 (broadcastInDim S800000 ![] bcast_S_S800000 : (⟨S_, .i32⟩ : BufTy).Contents (Elt F) → (⟨S800000, .i32⟩ : BufTy).Contents (Elt F)),
    binary main_v1 main_v52 main_v53 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v54 (broadcastInDim S800000 ![] bcast_S_S800000 : (⟨S_, .i32⟩ : BufTy).Contents (Elt F) → (⟨S800000, .i32⟩ : BufTy).Contents (Elt F)),
    binary main_v1 main_v54 main_v55 (addi : (⟨S800000, .i32⟩ : BufTy).Contents (Elt F) → (⟨S800000, .i32⟩ : BufTy).Contents (Elt F) → (⟨S800000, .i32⟩ : BufTy).Contents (Elt F)),
    ternary main_v53 main_v55 main_v1 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v56 main_v57 (broadcastInDim S800000x1 ![0] bcast_S800000_S800000x1_0 : (⟨S800000, .i32⟩ : BufTy).Contents (Elt F) → (⟨S800000x1, .i32⟩ : BufTy).Contents (Elt F)),
    binary main_v51 main_v57 main_v58 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v30 main_v59 (broadcastInDim S800000x256 ![0, 1] bcast_S800000x1_S800000x256_0_1 : (⟨S800000x1, .f32⟩ : BufTy).Contents (Elt F) → (⟨S800000x256, .f32⟩ : BufTy).Contents (Elt F)),
    binary main_v58 main_v59 main_v60 (mulf : (⟨S800000x256, .f32⟩ : BufTy).Contents (Elt F) → (⟨S800000x256, .f32⟩ : BufTy).Contents (Elt F) → (⟨S800000x256, .f32⟩ : BufTy).Contents (Elt F)),
    nullary main_cst_13 (constant S_ .f32 0x00000000#32),
    unary main_cst_13 main_v61 (broadcastInDim S50000x256 ![] bcast_S_S50000x256 : (⟨S_, .f32⟩ : BufTy).Contents (Elt F) → (⟨S50000x256, .f32⟩ : BufTy).Contents (Elt F)),
    unary main_v3 main_v62 (broadcastInDim S800000x1 ![0] bcast_S800000_S800000x1_0 : (⟨S800000, .i32⟩ : BufTy).Contents (Elt F) → (⟨S800000x1, .i32⟩ : BufTy).Contents (Elt F)),
    ternary main_v61 main_v62 main_v60 main_v63 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg2 main_v64 ((extractStridedSlice S1x256x256 ![1, 0, 0] · slices_S5x256x256_S1x256x256_1_0_0) : (⟨S5x256x256, .f32⟩ : BufTy).Contents (Elt F) → (⟨S1x256x256, .f32⟩ : BufTy).Contents (Elt F)),
    reshape main_v64 main_v65 rfl shapeCasts_S1x256x256_S256x256,
    unary main_v65 main_v66 ((transpose S256x256 [1, 0] · transposes_S256x256_S256x256_1_0) : (⟨S256x256, .f32⟩ : BufTy).Contents (Elt F) → (⟨S256x256, .f32⟩ : BufTy).Contents (Elt F)),
    binary main_v51 main_v66 main_v67 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg3 main_v68 ((extractStridedSlice S1x256x256 ![1, 0, 0] · slices_S5x256x256_S1x256x256_1_0_0) : (⟨S5x256x256, .f32⟩ : BufTy).Contents (Elt F) → (⟨S1x256x256, .f32⟩ : BufTy).Contents (Elt F)),
    reshape main_v68 main_v69 rfl shapeCasts_S1x256x256_S256x256,
    unary main_v69 main_v70 ((transpose S256x256 [1, 0] · transposes_S256x256_S256x256_1_0) : (⟨S256x256, .f32⟩ : BufTy).Contents (Elt F) → (⟨S256x256, .f32⟩ : BufTy).Contents (Elt F)),
    binary main_v63 main_v70 main_v71 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v67 main_v71 main_v72 (addf : (⟨S50000x256, .f32⟩ : BufTy).Contents (Elt F) → (⟨S50000x256, .f32⟩ : BufTy).Contents (Elt F) → (⟨S50000x256, .f32⟩ : BufTy).Contents (Elt F)) ]

/-- The operations of step 2. -/
abbrev seg2 : List (HloOp τ sig (Elt F)) :=
  [ nullary main_c_14 (constantI S_ 32 0#32),
    unary main_c_14 main_v73 (broadcastInDim S800000 ![] bcast_S_S800000 : (⟨S_, .i32⟩ : BufTy).Contents (Elt F) → (⟨S800000, .i32⟩ : BufTy).Contents (Elt F)),
    binary main_v1 main_v73 main_v74 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v75 (broadcastInDim S800000 ![] bcast_S_S800000 : (⟨S_, .i32⟩ : BufTy).Contents (Elt F) → (⟨S800000, .i32⟩ : BufTy).Contents (Elt F)),
    binary main_v1 main_v75 main_v76 (addi : (⟨S800000, .i32⟩ : BufTy).Contents (Elt F) → (⟨S800000, .i32⟩ : BufTy).Contents (Elt F) → (⟨S800000, .i32⟩ : BufTy).Contents (Elt F)),
    ternary main_v74 main_v76 main_v1 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v77 main_v78 (broadcastInDim S800000x1 ![0] bcast_S800000_S800000x1_0 : (⟨S800000, .i32⟩ : BufTy).Contents (Elt F) → (⟨S800000x1, .i32⟩ : BufTy).Contents (Elt F)),
    binary main_v72 main_v78 main_v79 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v30 main_v80 (broadcastInDim S800000x256 ![0, 1] bcast_S800000x1_S800000x256_0_1 : (⟨S800000x1, .f32⟩ : BufTy).Contents (Elt F) → (⟨S800000x256, .f32⟩ : BufTy).Contents (Elt F)),
    binary main_v79 main_v80 main_v81 (mulf : (⟨S800000x256, .f32⟩ : BufTy).Contents (Elt F) → (⟨S800000x256, .f32⟩ : BufTy).Contents (Elt F) → (⟨S800000x256, .f32⟩ : BufTy).Contents (Elt F)),
    nullary main_cst_16 (constant S_ .f32 0x00000000#32),
    unary main_cst_16 main_v82 (broadcastInDim S50000x256 ![] bcast_S_S50000x256 : (⟨S_, .f32⟩ : BufTy).Contents (Elt F) → (⟨S50000x256, .f32⟩ : BufTy).Contents (Elt F)),
    unary main_v3 main_v83 (broadcastInDim S800000x1 ![0] bcast_S800000_S800000x1_0 : (⟨S800000, .i32⟩ : BufTy).Contents (Elt F) → (⟨S800000x1, .i32⟩ : BufTy).Contents (Elt F)),
    ternary main_v82 main_v83 main_v81 main_v84 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg2 main_v85 ((extractStridedSlice S1x256x256 ![2, 0, 0] · slices_S5x256x256_S1x256x256_2_0_0) : (⟨S5x256x256, .f32⟩ : BufTy).Contents (Elt F) → (⟨S1x256x256, .f32⟩ : BufTy).Contents (Elt F)),
    reshape main_v85 main_v86 rfl shapeCasts_S1x256x256_S256x256,
    unary main_v86 main_v87 ((transpose S256x256 [1, 0] · transposes_S256x256_S256x256_1_0) : (⟨S256x256, .f32⟩ : BufTy).Contents (Elt F) → (⟨S256x256, .f32⟩ : BufTy).Contents (Elt F)),
    binary main_v72 main_v87 main_v88 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg3 main_v89 ((extractStridedSlice S1x256x256 ![2, 0, 0] · slices_S5x256x256_S1x256x256_2_0_0) : (⟨S5x256x256, .f32⟩ : BufTy).Contents (Elt F) → (⟨S1x256x256, .f32⟩ : BufTy).Contents (Elt F)),
    reshape main_v89 main_v90 rfl shapeCasts_S1x256x256_S256x256,
    unary main_v90 main_v91 ((transpose S256x256 [1, 0] · transposes_S256x256_S256x256_1_0) : (⟨S256x256, .f32⟩ : BufTy).Contents (Elt F) → (⟨S256x256, .f32⟩ : BufTy).Contents (Elt F)),
    binary main_v84 main_v91 main_v92 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v88 main_v92 main_v93 (addf : (⟨S50000x256, .f32⟩ : BufTy).Contents (Elt F) → (⟨S50000x256, .f32⟩ : BufTy).Contents (Elt F) → (⟨S50000x256, .f32⟩ : BufTy).Contents (Elt F)) ]

/-- The operations of step 3. -/
abbrev seg3 : List (HloOp τ sig (Elt F)) :=
  [ nullary main_c_17 (constantI S_ 32 0#32),
    unary main_c_17 main_v94 (broadcastInDim S800000 ![] bcast_S_S800000 : (⟨S_, .i32⟩ : BufTy).Contents (Elt F) → (⟨S800000, .i32⟩ : BufTy).Contents (Elt F)),
    binary main_v1 main_v94 main_v95 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v96 (broadcastInDim S800000 ![] bcast_S_S800000 : (⟨S_, .i32⟩ : BufTy).Contents (Elt F) → (⟨S800000, .i32⟩ : BufTy).Contents (Elt F)),
    binary main_v1 main_v96 main_v97 (addi : (⟨S800000, .i32⟩ : BufTy).Contents (Elt F) → (⟨S800000, .i32⟩ : BufTy).Contents (Elt F) → (⟨S800000, .i32⟩ : BufTy).Contents (Elt F)),
    ternary main_v95 main_v97 main_v1 main_v98 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v98 main_v99 (broadcastInDim S800000x1 ![0] bcast_S800000_S800000x1_0 : (⟨S800000, .i32⟩ : BufTy).Contents (Elt F) → (⟨S800000x1, .i32⟩ : BufTy).Contents (Elt F)),
    binary main_v93 main_v99 main_v100 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v30 main_v101 (broadcastInDim S800000x256 ![0, 1] bcast_S800000x1_S800000x256_0_1 : (⟨S800000x1, .f32⟩ : BufTy).Contents (Elt F) → (⟨S800000x256, .f32⟩ : BufTy).Contents (Elt F)),
    binary main_v100 main_v101 main_v102 (mulf : (⟨S800000x256, .f32⟩ : BufTy).Contents (Elt F) → (⟨S800000x256, .f32⟩ : BufTy).Contents (Elt F) → (⟨S800000x256, .f32⟩ : BufTy).Contents (Elt F)),
    nullary main_cst_19 (constant S_ .f32 0x00000000#32),
    unary main_cst_19 main_v103 (broadcastInDim S50000x256 ![] bcast_S_S50000x256 : (⟨S_, .f32⟩ : BufTy).Contents (Elt F) → (⟨S50000x256, .f32⟩ : BufTy).Contents (Elt F)),
    unary main_v3 main_v104 (broadcastInDim S800000x1 ![0] bcast_S800000_S800000x1_0 : (⟨S800000, .i32⟩ : BufTy).Contents (Elt F) → (⟨S800000x1, .i32⟩ : BufTy).Contents (Elt F)),
    ternary main_v103 main_v104 main_v102 main_v105 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg2 main_v106 ((extractStridedSlice S1x256x256 ![3, 0, 0] · slices_S5x256x256_S1x256x256_3_0_0) : (⟨S5x256x256, .f32⟩ : BufTy).Contents (Elt F) → (⟨S1x256x256, .f32⟩ : BufTy).Contents (Elt F)),
    reshape main_v106 main_v107 rfl shapeCasts_S1x256x256_S256x256,
    unary main_v107 main_v108 ((transpose S256x256 [1, 0] · transposes_S256x256_S256x256_1_0) : (⟨S256x256, .f32⟩ : BufTy).Contents (Elt F) → (⟨S256x256, .f32⟩ : BufTy).Contents (Elt F)),
    binary main_v93 main_v108 main_v109 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg3 main_v110 ((extractStridedSlice S1x256x256 ![3, 0, 0] · slices_S5x256x256_S1x256x256_3_0_0) : (⟨S5x256x256, .f32⟩ : BufTy).Contents (Elt F) → (⟨S1x256x256, .f32⟩ : BufTy).Contents (Elt F)),
    reshape main_v110 main_v111 rfl shapeCasts_S1x256x256_S256x256,
    unary main_v111 main_v112 ((transpose S256x256 [1, 0] · transposes_S256x256_S256x256_1_0) : (⟨S256x256, .f32⟩ : BufTy).Contents (Elt F) → (⟨S256x256, .f32⟩ : BufTy).Contents (Elt F)),
    binary main_v105 main_v112 main_v113 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v109 main_v113 main_v114 (addf : (⟨S50000x256, .f32⟩ : BufTy).Contents (Elt F) → (⟨S50000x256, .f32⟩ : BufTy).Contents (Elt F) → (⟨S50000x256, .f32⟩ : BufTy).Contents (Elt F)) ]

/-- The operations of step 4. -/
abbrev seg4 : List (HloOp τ sig (Elt F)) :=
  [ nullary main_c_20 (constantI S_ 32 0#32),
    unary main_c_20 main_v115 (broadcastInDim S800000 ![] bcast_S_S800000 : (⟨S_, .i32⟩ : BufTy).Contents (Elt F) → (⟨S800000, .i32⟩ : BufTy).Contents (Elt F)),
    binary main_v1 main_v115 main_v116 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v117 (broadcastInDim S800000 ![] bcast_S_S800000 : (⟨S_, .i32⟩ : BufTy).Contents (Elt F) → (⟨S800000, .i32⟩ : BufTy).Contents (Elt F)),
    binary main_v1 main_v117 main_v118 (addi : (⟨S800000, .i32⟩ : BufTy).Contents (Elt F) → (⟨S800000, .i32⟩ : BufTy).Contents (Elt F) → (⟨S800000, .i32⟩ : BufTy).Contents (Elt F)),
    ternary main_v116 main_v118 main_v1 main_v119 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v119 main_v120 (broadcastInDim S800000x1 ![0] bcast_S800000_S800000x1_0 : (⟨S800000, .i32⟩ : BufTy).Contents (Elt F) → (⟨S800000x1, .i32⟩ : BufTy).Contents (Elt F)),
    binary main_v114 main_v120 main_v121 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v30 main_v122 (broadcastInDim S800000x256 ![0, 1] bcast_S800000x1_S800000x256_0_1 : (⟨S800000x1, .f32⟩ : BufTy).Contents (Elt F) → (⟨S800000x256, .f32⟩ : BufTy).Contents (Elt F)),
    binary main_v121 main_v122 main_v123 (mulf : (⟨S800000x256, .f32⟩ : BufTy).Contents (Elt F) → (⟨S800000x256, .f32⟩ : BufTy).Contents (Elt F) → (⟨S800000x256, .f32⟩ : BufTy).Contents (Elt F)),
    nullary main_cst_22 (constant S_ .f32 0x00000000#32),
    unary main_cst_22 main_v124 (broadcastInDim S50000x256 ![] bcast_S_S50000x256 : (⟨S_, .f32⟩ : BufTy).Contents (Elt F) → (⟨S50000x256, .f32⟩ : BufTy).Contents (Elt F)),
    unary main_v3 main_v125 (broadcastInDim S800000x1 ![0] bcast_S800000_S800000x1_0 : (⟨S800000, .i32⟩ : BufTy).Contents (Elt F) → (⟨S800000x1, .i32⟩ : BufTy).Contents (Elt F)),
    ternary main_v124 main_v125 main_v123 main_v126 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg2 main_v127 ((extractStridedSlice S1x256x256 ![4, 0, 0] · slices_S5x256x256_S1x256x256_4_0_0) : (⟨S5x256x256, .f32⟩ : BufTy).Contents (Elt F) → (⟨S1x256x256, .f32⟩ : BufTy).Contents (Elt F)),
    reshape main_v127 main_v128 rfl shapeCasts_S1x256x256_S256x256,
    unary main_v128 main_v129 ((transpose S256x256 [1, 0] · transposes_S256x256_S256x256_1_0) : (⟨S256x256, .f32⟩ : BufTy).Contents (Elt F) → (⟨S256x256, .f32⟩ : BufTy).Contents (Elt F)),
    binary main_v114 main_v129 main_v130 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg3 main_v131 ((extractStridedSlice S1x256x256 ![4, 0, 0] · slices_S5x256x256_S1x256x256_4_0_0) : (⟨S5x256x256, .f32⟩ : BufTy).Contents (Elt F) → (⟨S1x256x256, .f32⟩ : BufTy).Contents (Elt F)),
    reshape main_v131 main_v132 rfl shapeCasts_S1x256x256_S256x256,
    unary main_v132 main_v133 ((transpose S256x256 [1, 0] · transposes_S256x256_S256x256_1_0) : (⟨S256x256, .f32⟩ : BufTy).Contents (Elt F) → (⟨S256x256, .f32⟩ : BufTy).Contents (Elt F)),
    binary main_v126 main_v133 main_v134 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v130 main_v134 main_v135 (addf : (⟨S50000x256, .f32⟩ : BufTy).Contents (Elt F) → (⟨S50000x256, .f32⟩ : BufTy).Contents (Elt F) → (⟨S50000x256, .f32⟩ : BufTy).Contents (Elt F)) ]

/-- The line is its six pieces, in order. -/
theorem ops_split : (ops : List (HloOp τ sig (Elt F))) = pre ++ (seg0 ++ (seg1 ++ (seg2 ++ (seg3 ++ seg4)))) := rfl

/-! ## The operations before the first step, from any contents -/

set_option maxRecDepth 8192 in
theorem pre_v1 (W : Valuation τ sig (Elt F)) : after pre W (Proc.devRef .tc main_v1) = row (W (Proc.devRef .tc main_arg1)) := by
  after_results_simp <;> rfl

set_option maxRecDepth 8192 in
theorem pre_v3 (W : Valuation τ sig (Elt F)) : after pre W (Proc.devRef .tc main_v3) = col (W (Proc.devRef .tc main_arg1)) := by
  after_results_simp <;> rfl

set_option maxRecDepth 8192 in
set_option maxHeartbeats 4000000 in
theorem pre_v30 (W : Valuation τ sig (Elt F)) :
    after pre W (Proc.devRef .tc main_v30)
      = normCol (dinvF (F := F) (W (Proc.devRef .tc main_arg1))) (row (W (Proc.devRef .tc main_arg1))) (col (W (Proc.devRef .tc main_arg1))) := by
  after_results_simp <;> rfl

set_option maxRecDepth 8192 in
theorem pre_main_arg0 (W : Valuation τ sig (Elt F)) : after pre W (Proc.devRef .tc main_arg0) = W (Proc.devRef .tc main_arg0) := by
  after_results_simp <;> rfl

set_option maxRecDepth 8192 in
theorem pre_main_arg2 (W : Valuation τ sig (Elt F)) : after pre W (Proc.devRef .tc main_arg2) = W (Proc.devRef .tc main_arg2) := by
  after_results_simp <;> rfl

set_option maxRecDepth 8192 in
theorem pre_main_arg3 (W : Valuation τ sig (Elt F)) : after pre W (Proc.devRef .tc main_arg3) = W (Proc.devRef .tc main_arg3) := by
  after_results_simp <;> rfl

/-! ## Step 0, from any contents -/

set_option maxRecDepth 8192 in
set_option maxHeartbeats 4000000 in
theorem seg0_out (W : Valuation τ sig (Elt F)) :
    after seg0 W (Proc.devRef .tc main_v51)
      = stepT (W (Proc.devRef .tc main_arg0)) (W (Proc.devRef .tc main_v1)) (W (Proc.devRef .tc main_v3)) (W (Proc.devRef .tc main_v30))
          (W (Proc.devRef .tc main_arg2)) (W (Proc.devRef .tc main_arg3)) 0 slices_S5x256x256_S1x256x256_0_0_0 := by
  after_results_simp <;> rfl

set_option maxRecDepth 8192 in
theorem seg0_main_v1 (W : Valuation τ sig (Elt F)) : after seg0 W (Proc.devRef .tc main_v1) = W (Proc.devRef .tc main_v1) := by
  after_results_simp <;> rfl

set_option maxRecDepth 8192 in
theorem seg0_main_v3 (W : Valuation τ sig (Elt F)) : after seg0 W (Proc.devRef .tc main_v3) = W (Proc.devRef .tc main_v3) := by
  after_results_simp <;> rfl

set_option maxRecDepth 8192 in
theorem seg0_main_v30 (W : Valuation τ sig (Elt F)) : after seg0 W (Proc.devRef .tc main_v30) = W (Proc.devRef .tc main_v30) := by
  after_results_simp <;> rfl

set_option maxRecDepth 8192 in
theorem seg0_main_arg2 (W : Valuation τ sig (Elt F)) : after seg0 W (Proc.devRef .tc main_arg2) = W (Proc.devRef .tc main_arg2) := by
  after_results_simp <;> rfl

set_option maxRecDepth 8192 in
theorem seg0_main_arg3 (W : Valuation τ sig (Elt F)) : after seg0 W (Proc.devRef .tc main_arg3) = W (Proc.devRef .tc main_arg3) := by
  after_results_simp <;> rfl

/-! ## Step 1, from any contents -/

set_option maxRecDepth 8192 in
set_option maxHeartbeats 4000000 in
theorem seg1_out (W : Valuation τ sig (Elt F)) :
    after seg1 W (Proc.devRef .tc main_v72)
      = stepT (W (Proc.devRef .tc main_v51)) (W (Proc.devRef .tc main_v1)) (W (Proc.devRef .tc main_v3)) (W (Proc.devRef .tc main_v30))
          (W (Proc.devRef .tc main_arg2)) (W (Proc.devRef .tc main_arg3)) 1 slices_S5x256x256_S1x256x256_1_0_0 := by
  after_results_simp <;> rfl

set_option maxRecDepth 8192 in
theorem seg1_main_v1 (W : Valuation τ sig (Elt F)) : after seg1 W (Proc.devRef .tc main_v1) = W (Proc.devRef .tc main_v1) := by
  after_results_simp <;> rfl

set_option maxRecDepth 8192 in
theorem seg1_main_v3 (W : Valuation τ sig (Elt F)) : after seg1 W (Proc.devRef .tc main_v3) = W (Proc.devRef .tc main_v3) := by
  after_results_simp <;> rfl

set_option maxRecDepth 8192 in
theorem seg1_main_v30 (W : Valuation τ sig (Elt F)) : after seg1 W (Proc.devRef .tc main_v30) = W (Proc.devRef .tc main_v30) := by
  after_results_simp <;> rfl

set_option maxRecDepth 8192 in
theorem seg1_main_arg2 (W : Valuation τ sig (Elt F)) : after seg1 W (Proc.devRef .tc main_arg2) = W (Proc.devRef .tc main_arg2) := by
  after_results_simp <;> rfl

set_option maxRecDepth 8192 in
theorem seg1_main_arg3 (W : Valuation τ sig (Elt F)) : after seg1 W (Proc.devRef .tc main_arg3) = W (Proc.devRef .tc main_arg3) := by
  after_results_simp <;> rfl

/-! ## Step 2, from any contents -/

set_option maxRecDepth 8192 in
set_option maxHeartbeats 4000000 in
theorem seg2_out (W : Valuation τ sig (Elt F)) :
    after seg2 W (Proc.devRef .tc main_v93)
      = stepT (W (Proc.devRef .tc main_v72)) (W (Proc.devRef .tc main_v1)) (W (Proc.devRef .tc main_v3)) (W (Proc.devRef .tc main_v30))
          (W (Proc.devRef .tc main_arg2)) (W (Proc.devRef .tc main_arg3)) 2 slices_S5x256x256_S1x256x256_2_0_0 := by
  after_results_simp <;> rfl

set_option maxRecDepth 8192 in
theorem seg2_main_v1 (W : Valuation τ sig (Elt F)) : after seg2 W (Proc.devRef .tc main_v1) = W (Proc.devRef .tc main_v1) := by
  after_results_simp <;> rfl

set_option maxRecDepth 8192 in
theorem seg2_main_v3 (W : Valuation τ sig (Elt F)) : after seg2 W (Proc.devRef .tc main_v3) = W (Proc.devRef .tc main_v3) := by
  after_results_simp <;> rfl

set_option maxRecDepth 8192 in
theorem seg2_main_v30 (W : Valuation τ sig (Elt F)) : after seg2 W (Proc.devRef .tc main_v30) = W (Proc.devRef .tc main_v30) := by
  after_results_simp <;> rfl

set_option maxRecDepth 8192 in
theorem seg2_main_arg2 (W : Valuation τ sig (Elt F)) : after seg2 W (Proc.devRef .tc main_arg2) = W (Proc.devRef .tc main_arg2) := by
  after_results_simp <;> rfl

set_option maxRecDepth 8192 in
theorem seg2_main_arg3 (W : Valuation τ sig (Elt F)) : after seg2 W (Proc.devRef .tc main_arg3) = W (Proc.devRef .tc main_arg3) := by
  after_results_simp <;> rfl

/-! ## Step 3, from any contents -/

set_option maxRecDepth 8192 in
set_option maxHeartbeats 4000000 in
theorem seg3_out (W : Valuation τ sig (Elt F)) :
    after seg3 W (Proc.devRef .tc main_v114)
      = stepT (W (Proc.devRef .tc main_v93)) (W (Proc.devRef .tc main_v1)) (W (Proc.devRef .tc main_v3)) (W (Proc.devRef .tc main_v30))
          (W (Proc.devRef .tc main_arg2)) (W (Proc.devRef .tc main_arg3)) 3 slices_S5x256x256_S1x256x256_3_0_0 := by
  after_results_simp <;> rfl

set_option maxRecDepth 8192 in
theorem seg3_main_v1 (W : Valuation τ sig (Elt F)) : after seg3 W (Proc.devRef .tc main_v1) = W (Proc.devRef .tc main_v1) := by
  after_results_simp <;> rfl

set_option maxRecDepth 8192 in
theorem seg3_main_v3 (W : Valuation τ sig (Elt F)) : after seg3 W (Proc.devRef .tc main_v3) = W (Proc.devRef .tc main_v3) := by
  after_results_simp <;> rfl

set_option maxRecDepth 8192 in
theorem seg3_main_v30 (W : Valuation τ sig (Elt F)) : after seg3 W (Proc.devRef .tc main_v30) = W (Proc.devRef .tc main_v30) := by
  after_results_simp <;> rfl

set_option maxRecDepth 8192 in
theorem seg3_main_arg2 (W : Valuation τ sig (Elt F)) : after seg3 W (Proc.devRef .tc main_arg2) = W (Proc.devRef .tc main_arg2) := by
  after_results_simp <;> rfl

set_option maxRecDepth 8192 in
theorem seg3_main_arg3 (W : Valuation τ sig (Elt F)) : after seg3 W (Proc.devRef .tc main_arg3) = W (Proc.devRef .tc main_arg3) := by
  after_results_simp <;> rfl

/-! ## Step 4, from any contents -/

set_option maxRecDepth 8192 in
set_option maxHeartbeats 4000000 in
theorem seg4_out (W : Valuation τ sig (Elt F)) :
    after seg4 W (Proc.devRef .tc main_v135)
      = stepT (W (Proc.devRef .tc main_v114)) (W (Proc.devRef .tc main_v1)) (W (Proc.devRef .tc main_v3)) (W (Proc.devRef .tc main_v30))
          (W (Proc.devRef .tc main_arg2)) (W (Proc.devRef .tc main_arg3)) 4 slices_S5x256x256_S1x256x256_4_0_0 := by
  after_results_simp <;> rfl

set_option maxRecDepth 8192 in
theorem seg4_main_v1 (W : Valuation τ sig (Elt F)) : after seg4 W (Proc.devRef .tc main_v1) = W (Proc.devRef .tc main_v1) := by
  after_results_simp <;> rfl

set_option maxRecDepth 8192 in
theorem seg4_main_v3 (W : Valuation τ sig (Elt F)) : after seg4 W (Proc.devRef .tc main_v3) = W (Proc.devRef .tc main_v3) := by
  after_results_simp <;> rfl

set_option maxRecDepth 8192 in
theorem seg4_main_v30 (W : Valuation τ sig (Elt F)) : after seg4 W (Proc.devRef .tc main_v30) = W (Proc.devRef .tc main_v30) := by
  after_results_simp <;> rfl

set_option maxRecDepth 8192 in
theorem seg4_main_arg2 (W : Valuation τ sig (Elt F)) : after seg4 W (Proc.devRef .tc main_arg2) = W (Proc.devRef .tc main_arg2) := by
  after_results_simp <;> rfl

set_option maxRecDepth 8192 in
theorem seg4_main_arg3 (W : Valuation τ sig (Elt F)) : after seg4 W (Proc.devRef .tc main_arg3) = W (Proc.devRef .tc main_arg3) := by
  after_results_simp <;> rfl

end Cert.ReferenceIdeal.RValue

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«141509_j41120016892381_2_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.LibVecIndex.lean ====
/-
  A gather and a scatter-add of a flat array, read at an index.

  A vector x : [N] gathered at a column of positions idx : [E, 1] gives the vector whose entry e is the entry
  of x numbered idx[e, 0] (read signed and clamped into [0, N - 1]).  Scatter-adding the entries of
  upd : [E] into x at those positions adds to every entry n of x the entries of upd whose position, read
  signed and not clamped, is n; a position outside [0, N) contributes nothing.
-/
import Idealize.ShloMosaic.PureOps.Ideal
import Idealize.ShloMosaic.Lib.ValueIdx

noncomputable section

open scoped BigOperators

namespace Cert.GNN.VecIndex

open Idealize.ShloMosaic Idealize.ShloMosaic.ValueIdx

/-- A sum over the indices of a flat array is the sum over its positions. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ (fun i => ?_)
  exact congrArg f (eq_ix1 i)

/-! ## The gather -/

section Gather
variable {α : Type}

/-- The dimension numbers of a flat gather: operand [N], start indices [E, 1] (the index vector on axis 1, of
    length one, naming operand axis 0), result [E], no offset axis, slices [1] with operand axis 0 collapsed. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT e: the operand at position idx[e, 0], read signed and clamped into [0, N - 1]. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## The scatter-add -/

section Scatter

/-- The dimension numbers of a flat scatter: operand [N], scatter indices [E, 1] (the index vector on axis 1, of
    length one, naming operand axis 0), updates [E], no window axis, operand axis 0 inserted. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update j starts at the position idx[j 0, 0], read signed. -/
theorem start_pos (idx : IVec ⟨2, ![E, 1]⟩ w) (j : (⟨1, ![E]⟩ : Shape).Idx) :
    (vecScatterDims N E wf).start j idx 0 = (idx (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The only axis is inserted: no window coordinate. -/
theorem window_pos (j : (⟨1, ![E]⟩ : Shape).Idx) : (vecScatterDims N E wf).window j 0 = 0 := by
  unfold ScatterDims.window
  rw [dif_neg (show ¬ (0 : Fin 1) ∈ (vecScatterDims N E wf).sKept from
    (by decide : (0 : Fin 1) ∉ (List.finRange 1).filter (fun a => a ∉ [(0 : Fin 1)])))]

/-- Update j lands at n exactly when its position, read signed, is n. -/
theorem resultIdx?_vec_eq_some_iff (idx : IVec ⟨2, ![E, 1]⟩ w) (j : (⟨1, ![E]⟩ : Shape).Idx) (n : Fin N) :
    (vecScatterDims N E wf).resultIdx? j idx = some (ix1 n) ↔
      (idx (ix2 (j 0) (0 : Fin 1))).toInt = (n.val : Int) := by
  unfold ScatterDims.resultIdx?
  constructor
  · intro h
    split at h
    · rename_i hh
      have h' := Option.some.inj h
      have h0 : ((vecScatterDims N E wf).start j idx 0 + ((vecScatterDims N E wf).window j 0 : Int)).toNat = n.val :=
        congrArg (fun f => (f 0).val) h'
      have hh0 := (hh 0).1
      rw [start_pos, window_pos] at h0 hh0
      omega
    · exact absurd h (by simp)
  · intro h0
    have hn := n.isLt
    rw [dif_pos]
    · congr 1
      funext a
      obtain rfl : a = 0 := Subsingleton.elim _ _
      refine Fin.ext ?_
      show ((vecScatterDims N E wf).start j idx 0 + ((vecScatterDims N E wf).window j 0 : Int)).toNat = n.val
      rw [start_pos, window_pos, h0]; omega
    · intro a
      obtain rfl : a = 0 := Subsingleton.elim _ _
      show 0 ≤ (vecScatterDims N E wf).start j idx 0 + ((vecScatterDims N E wf).window j 0 : Int) ∧
        (vecScatterDims N E wf).start j idx 0 + ((vecScatterDims N E wf).window j 0 : Int) < (N : Int)
      rw [start_pos, window_pos, h0]; omega

/-- THE FLAT SCATTER-ADD READ AT n: the operand's entry plus the update entries whose position, read signed, is n. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  rw [Finset.sum_filter, sum_idx1, Finset.sum_filter]
  refine Finset.sum_congr rfl (fun e _ => ?_)
  refine if_congr ?_ rfl rfl
  rw [resultIdx?_vec_eq_some_iff]
  exact Iff.rfl

/-- The same for Host.scatterAdd at the exact instance, which is that sum by definition. -/
theorem host_scatterAdd_vec_apply {φ : FTy} (x : FVec Ideal ⟨1, ![N]⟩ φ) (idx : IVec ⟨2, ![E, 1]⟩ w)
    (upd : FVec Ideal ⟨1, ![E]⟩ φ) (n : Fin N) :
    Host.scatterAdd (vecScatterDims N E wf) x idx upd (ix1 n)
      = x (ix1 n) + ∑ e ∈ Finset.univ.filter (fun e : Fin E => (idx (ix2 e (0 : Fin 1))).toInt = (n.val : Int)),
          upd (ix1 e) :=
  scatterAdd_vec_apply wf x idx upd n

end Scatter

end Cert.GNN.VecIndex

end
-- ==== Proof.RefStep.lean ====
/-
  One step of the reference graph convolution, read entry by entry over the extended reals.

  The step's term `x · W0ₖᵀ + A · W1ₖᵀ` — two host products, the aggregate `A` a scatter-add at the targets of the rows
  gathered at the normalized sources, each scaled by its edge weight — is, at every `(i, q)`, the plain double sum of
  the specification: a host product of a `[50000, 256]` by a `[256, 256]` matrix is a sum over the shared axis, the
  transposed slice `k` of a weight stack reads the stack at `(k, q, c)`, a scatter-add into the zero matrix is the sum
  over the edges whose target is the row, a row gather reads the row the list names, and the edge weight is the product
  of the inverse square-root degrees at the two ends of the edge.
-/
import proofs.«141509_j41120016892381_2_alg».proof.Proof.RefTerms
import proofs.«141509_j41120016892381_2_alg».proof.Proof.Spec
import proofs.«141509_j41120016892381_2_alg».proof.Proof.Edges
import proofs.«141509_j41120016892381_2_alg».proof.Proof.LibHostDot
import proofs.«141509_j41120016892381_2_alg».proof.Proof.LibVecIndex

noncomputable section

open scoped BigOperators

namespace Cert.ReferenceIdeal.RValue

open Cert.ReferenceIdeal Cert.ReferenceIdeal.Gen Idealize.ShloMosaic Idealize.ShloMosaic.ValueIdx Cert.Tag

/-- A node vector gathered at an edge list: entry `e` is the vector at the node the list names at `e`. -/
theorem gatherVec_apply (dv : FVec Ideal S50000 .f32) (idx : IVec S800000 32) (e : Fin 800000) :
    Host.gather gather_S50000_S800000x1_S800000_n_0_n_n_0_1_1 dv
        (broadcastInDim S800000x1 ![0] bcast_S800000_S800000x1_0 idx) (ix1 e)
      = dv (ix1 (src idx e)) := by
  refine (Cert.GNN.VecIndex.gather_vec_apply (N := 50000) (E := 800000) (by decide)
    gather_S50000_S800000x1_S800000_n_0_n_n_0_1_1_wf dv _ e).trans ?_
  refine congrArg (fun r => dv (ix1 r)) (Fin.ext ?_)
  show min (broadcastInDim S800000x1 ![0] bcast_S800000_S800000x1_0 idx (ix2 e (0 : Fin 1))).toInt.toNat (50000 - 1)
    = min (idx (ix1 e)).toInt.toNat 49999
  rw [edgeCol_apply bcast_S800000_S800000x1_0 idx e 0]

/-- The edge weight at edge `e`: the inverse square-root degrees at the edge's two ends, multiplied. -/
theorem normCol_apply (dv : FVec Ideal S50000 .f32) (r c : IVec S800000 32) (e : Fin 800000) :
    normCol dv r c (ix2 e (0 : Fin 1)) = dv (ix1 (src (normIdx r) e)) * dv (ix1 (src (normIdx c) e)) := by
  unfold normCol
  rw [edgeCol_apply bcast_S800000_S800000x1_0 _ e 0]
  show Host.gather gather_S50000_S800000x1_S800000_n_0_n_n_0_1_1 dv
        (broadcastInDim S800000x1 ![0] bcast_S800000_S800000x1_0 (normIdx r)) (ix1 e)
      * Host.gather gather_S50000_S800000x1_S800000_n_0_n_n_0_1_1 dv
        (broadcastInDim S800000x1 ![0] bcast_S800000_S800000x1_0 (normIdx c)) (ix1 e) = _
  rw [gatherVec_apply, gatherVec_apply]

/-- Transposed slice `k` of a weight stack at `(c, q)` is the stack at `(k, q, c)`. -/
theorem wT_apply (w : FVec Ideal S5x256x256 .f32) (k : Fin 5) (hk : S5x256x256.Slices ![k.val, 0, 0] S1x256x256) (c q : Fin 256) :
    wT w k.val hk (ix2 c q) = w (ix3 k q c) :=
  sliceT_apply w k.val k.isLt hk shapeCasts_S1x256x256_S256x256 transposes_S256x256_S256x256_1_0 c q

/-- The aggregate at `(i, q)`: the sum, over the edges whose target is `i`, of the source rows at `q`, each scaled by
    its edge weight. -/
theorem aggT_apply (x : FVec Ideal S50000x256 .f32) (dv : FVec Ideal S50000 .f32) (r c : IVec S800000 32)
    (i : Fin 50000) (q : Fin 256) :
    aggT x r c (normCol dv r c) (ix2 i q) = aggR x dv (normIdx r) (normIdx c) c i q := by
  unfold aggT aggR
  rw [scatterRows_apply scatter_S50000x256_S800000x1_S800000x256_1_0_0_1 rfl bcast_S800000_S800000x1_0 bcast_S_S50000x256 c _ i q]
  refine Finset.sum_congr rfl fun e _ => ?_
  show Host.gather gather_S50000x256_S800000x1_S800000x256_1_0_n_n_0_1_1256 x
        (broadcastInDim S800000x1 ![0] bcast_S800000_S800000x1_0 (normIdx r)) (ix2 e q)
      * broadcastInDim S800000x256 ![0, 1] bcast_S800000x1_S800000x256_0_1 (normCol dv r c) (ix2 e q) = _
  rw [gatherRows_apply gather_S50000x256_S800000x1_S800000x256_1_0_n_n_0_1_1256 rfl bcast_S800000_S800000x1_0 x (normIdx r) e q,
    edgeRep_apply bcast_S800000x1_S800000x256_0_1 _ e q, normCol_apply]

/-- THE STEP: the program's term for one step is the specification's step. -/
theorem stepT_eq (x : FVec Ideal S50000x256 .f32) (dv : FVec Ideal S50000 .f32) (r c : IVec S800000 32)
    (w0 w1 : FVec Ideal S5x256x256 .f32) (k : Fin 5) (hk : S5x256x256.Slices ![k.val, 0, 0] S1x256x256) :
    stepT x r c (normCol dv r c) w0 w1 k.val hk = stepR x dv (normIdx r) (normIdx c) c w0 w1 k := by
  refine ext2 fun i q => ?_
  unfold stepR
  rw [arr2_ix2]
  unfold stepT nextAt
  show FloatOps.dotGeneral dot_S50000x256_S256x256_S50000x256_1_0_0_1_n_n none .single x (wT w0 k.val hk) (ix2 i q)
      + FloatOps.dotGeneral dot_S50000x256_S256x256_S50000x256_1_0_0_1_n_n none .single (aggT x r c (normCol dv r c)) (wT w1 k.val hk) (ix2 i q) = _
  refine congrArg₂ (· + ·)
    ((Cert.LibHostDot.dotGeneral_plain dot_S50000x256_S256x256_S50000x256_1_0_0_1_n_n_wf .single x (wT w0 k.val hk) i q).trans
      (Finset.sum_congr rfl fun c' _ => ?_))
    ((Cert.LibHostDot.dotGeneral_plain dot_S50000x256_S256x256_S50000x256_1_0_0_1_n_n_wf .single
        (aggT x r c (normCol dv r c)) (wT w1 k.val hk) i q).trans
      (Finset.sum_congr rfl fun c' _ => ?_))
  · rw [wT_apply]
  · rw [wT_apply, aggT_apply]

end Cert.ReferenceIdeal.RValue

end
-- ==== Proof.Norm.lean ====
/-
  An edge list's entries are normalized before a gather reads them: a negative entry has the node count added.
  For an entry that names a node `i` outright (read signed, it is `i`), normalization changes nothing, and the
  clamped reading of the normalized entry is `i` again.
-/
import proofs.«141509_j41120016892381_2_alg».proof.Proof.Spec

noncomputable section

namespace Cert.Tag

open Idealize.ShloMosaic Idealize.ShloMosaic.ValueIdx

/-- The clamped reading of `select (v < z) (v + k) v` at an entry that is a node number `i`, for `z` the zero vector. -/
theorem src_select (v z k : IVec SE 32) (hz : ∀ j, z j = 0#32) (e : Fin 800000) (i : Fin 50000)
    (h : (v (ix1 e)).toInt = (i.val : Int)) : src (select (cmpi .slt v z) (addi v k) v) e = i := by
  have hlt : ¬ (v (ix1 e)).toInt < 0 := by rw [h]; omega
  have hsel : select (cmpi .slt v z) (addi v k) v (ix1 e) = v (ix1 e) := by
    show Scalar.select (IntOp.cmpi .slt (v (ix1 e)) (z (ix1 e))) (IntOp.addi (v (ix1 e)) (k (ix1 e))) (v (ix1 e)) = v (ix1 e)
    rw [hz]
    have hc : IntOp.cmpi .slt (v (ix1 e)) 0#32 = 0#1 := by
      show BitVec.ofBool ((v (ix1 e)).slt 0#32) = 0#1
      have : (v (ix1 e)).slt 0#32 = false := by
        rw [BitVec.slt_eq_decide]
        simpa using hlt
      rw [this]; rfl
    rw [hc, select_zero]
  refine Fin.ext ?_
  show min (select (cmpi .slt v z) (addi v k) v (ix1 e)).toInt.toNat 49999 = i.val
  rw [hsel, h]
  have := i.isLt
  simp only [Int.toNat_natCast]
  omega

end Cert.Tag

end
-- ==== Proof.RefValue.lean ====
/-
  THE REFERENCE'S VALUE.  On every device the reference's result buffer ends holding the five steps of the
  specification's graph convolution, `Cert.Tag.iterR`, of the launch contents of its four arguments: the node matrix,
  the inverse square-root degrees `dinv` of the edge array's targets, the normalized sources `rowN` and targets `colN`,
  the targets `col`, and the two weight stacks.  The line of 165 operations is read piece by piece — what the
  operations before the first step leave in the buffers of the edge lists and the edge weights, then each step from
  the contents the previous one left — and each step's term is the specification's step; the composed term of the
  whole line is never formed.
-/
import proofs.«141509_j41120016892381_2_alg».proof.Proof.RefSegs
import proofs.«141509_j41120016892381_2_alg».proof.Proof.RefStep
import proofs.«141509_j41120016892381_2_alg».proof.Proof.LibFoldSteps
import proofs.«141509_j41120016892381_2_alg».proof.Proof.Norm

noncomputable section

namespace Cert.ReferenceIdeal.RValue

open Cert.ReferenceIdeal Cert.ReferenceIdeal.Gen Idealize.ShloMosaic Idealize.ShloMosaic.TcCoe Idealize.SL.Sem Idealize.ShloMosaic.StableHlo
open Idealize.ShloMosaic.ValueIdx Cert.Tag
open Cert.ReferenceIdeal.ValueP (ops)

/-- The inverse square-root degrees of the edge array's targets, over the extended reals. -/
def dinv (a1 : IVec S2x800000 32) : SN.Idx → EReal := dinvF (F := Ideal) a1

/-- The degree of every node of the edge array, over the extended reals. -/
def deg (a1 : IVec S2x800000 32) : SN.Idx → EReal := degF (F := Ideal) (col a1)

/-- The vector of ones the degree is replaced by where it is not positive. -/
def oneN : SN.Idx → EReal :=
  broadcastInDim S50000 ![] bcast_S_S50000 (id (constant (F := Ideal) S_ .f32 0x3F800000#32))

/-- The vector of zeros `dinv` holds where the degree is not positive. -/
def zeroB : SN.Idx → EReal :=
  broadcastInDim S50000 ![] bcast_S_S50000 (id (constant (F := Ideal) S_ .f32 0x00000000#32))

/-- The inverse square root of a positive degree, zero elsewhere, at a node: for ANY degree vector. -/
theorem dinvOf_apply (d : FVec Ideal S50000 .f32) (j : SN.Idx) :
    dinvOf d j = Scalar.select (Ideal.cmp .ogt (d j) (zeroN (F := Ideal) j))
      (Ideal.rsqrt (Scalar.select (Ideal.cmp .ogt (d j) (zeroN (F := Ideal) j)) (d j) (oneN j))) (zeroB j) := rfl

/-- `dinv` at a node: the inverse square root of a positive degree, zero elsewhere. -/
theorem dinv_apply (a1 : IVec S2x800000 32) (j : SN.Idx) :
    dinv a1 j = Scalar.select (Ideal.cmp .ogt (deg a1 j) 0)
      (Ideal.rsqrt (Scalar.select (Ideal.cmp .ogt (deg a1 j) 0) (deg a1 j) (oneN j))) 0 := by
  have hz : zeroN (F := Ideal) j = 0 := Ideal.ofBits_zero_f32
  have hz' : zeroB j = 0 := Ideal.ofBits_zero_f32
  have h := dinvOf_apply (deg a1) j
  rw [hz, hz'] at h
  exact h

/-- `dinv` is a nonnegative real at every node. -/
theorem dinv_real (a1 : IVec S2x800000 32) (j : SN.Idx) : ∃ r : ℝ, 0 ≤ r ∧ dinv a1 j = (r : EReal) := by
  rw [dinv_apply]
  exact Cert.Tag.dinv_real _ _

/-- A normalized edge list at an entry: the entry, moved up by the node count when it is negative. -/
theorem normIdx_apply (v : IVec S800000 32) (j : S800000.Idx) :
    normIdx v j = Scalar.select (IntOp.cmpi .slt (v j) 0#32) (IntOp.addi (v j) 50000#32) (v j) := rfl

theorem rowN_apply (a1 : IVec S2x800000 32) (j : S800000.Idx) :
    rowN a1 j = Scalar.select (IntOp.cmpi .slt (row a1 j) 0#32) (IntOp.addi (row a1 j) 50000#32) (row a1 j) := rfl

theorem colN_apply (a1 : IVec S2x800000 32) (j : S800000.Idx) :
    colN a1 j = Scalar.select (IntOp.cmpi .slt (col a1 j) 0#32) (IntOp.addi (col a1 j) 50000#32) (col a1 j) := rfl

/-- At an edge whose target entry names the node `i` outright, the normalized target names `i` too. -/
theorem src_colN (a1 : IVec S2x800000 32) (e : Fin 800000) (i : Fin 50000)
    (h : (col a1 (ix1 e)).toInt = (i.val : Int)) : src (colN a1) e = i :=
  Cert.Tag.src_select (col a1) _ _ (fun _ => rfl) e i h

/-- What every step finds in the buffers it only reads: the two edge lists, the edge weights laid as a column, and the
    two weight stacks. -/
structure Ctx (W : Valuation τ sig (Elt Ideal)) (a1 : IVec S2x800000 32) (w0 w1 : FVec Ideal S5x256x256 .f32) : Prop where
  v1 : W (Proc.devRef .tc main_v1) = row a1
  v3 : W (Proc.devRef .tc main_v3) = col a1
  v30 : W (Proc.devRef .tc main_v30) = normCol (F := Ideal) (dinv a1) (row a1) (col a1)
  a2 : W (Proc.devRef .tc main_arg2) = w0
  a3 : W (Proc.devRef .tc main_arg3) = w1

/-- The operations before the first step establish it, from any contents. -/
theorem pre_ctx (V : Valuation τ sig (Elt Ideal)) :
    Ctx (after pre V) (V (Proc.devRef .tc main_arg1)) (V (Proc.devRef .tc main_arg2)) (V (Proc.devRef .tc main_arg3)) :=
  ⟨pre_v1 V, pre_v3 V, pre_v30 V, pre_main_arg2 V, pre_main_arg3 V⟩

/-- Step 0 leaves the edge lists, the edge weights and the weight stacks where it found them. -/
theorem seg0_ctx {W : Valuation τ sig (Elt Ideal)} {a1 : IVec S2x800000 32} {w0 w1 : FVec Ideal S5x256x256 .f32}
    (h : Ctx W a1 w0 w1) : Ctx (after seg0 W) a1 w0 w1 :=
  ⟨(seg0_main_v1 W).trans h.v1, (seg0_main_v3 W).trans h.v3, (seg0_main_v30 W).trans h.v30,
    (seg0_main_arg2 W).trans h.a2, (seg0_main_arg3 W).trans h.a3⟩

/-- Step 0 ends with the specification's step 0 of the node matrix it started from. -/
theorem seg0_val {W : Valuation τ sig (Elt Ideal)} {a1 : IVec S2x800000 32} {w0 w1 : FVec Ideal S5x256x256 .f32}
    (h : Ctx W a1 w0 w1) {x : FVec Ideal S50000x256 .f32} (hx : W (Proc.devRef .tc main_arg0) = x) :
    after seg0 W (Proc.devRef .tc main_v51) = stepR x (dinv a1) (rowN a1) (colN a1) (col a1) w0 w1 0 := by
  rw [seg0_out, hx, h.v1, h.v3, h.v30, h.a2, h.a3]
  exact stepT_eq x (dinv a1) (row a1) (col a1) w0 w1 0 _

/-- Step 1 leaves the edge lists, the edge weights and the weight stacks where it found them. -/
theorem seg1_ctx {W : Valuation τ sig (Elt Ideal)} {a1 : IVec S2x800000 32} {w0 w1 : FVec Ideal S5x256x256 .f32}
    (h : Ctx W a1 w0 w1) : Ctx (after seg1 W) a1 w0 w1 :=
  ⟨(seg1_main_v1 W).trans h.v1, (seg1_main_v3 W).trans h.v3, (seg1_main_v30 W).trans h.v30,
    (seg1_main_arg2 W).trans h.a2, (seg1_main_arg3 W).trans h.a3⟩

/-- Step 1 ends with the specification's step 1 of the node matrix it started from. -/
theorem seg1_val {W : Valuation τ sig (Elt Ideal)} {a1 : IVec S2x800000 32} {w0 w1 : FVec Ideal S5x256x256 .f32}
    (h : Ctx W a1 w0 w1) {x : FVec Ideal S50000x256 .f32} (hx : W (Proc.devRef .tc main_v51) = x) :
    after seg1 W (Proc.devRef .tc main_v72) = stepR x (dinv a1) (rowN a1) (colN a1) (col a1) w0 w1 1 := by
  rw [seg1_out, hx, h.v1, h.v3, h.v30, h.a2, h.a3]
  exact stepT_eq x (dinv a1) (row a1) (col a1) w0 w1 1 _

/-- Step 2 leaves the edge lists, the edge weights and the weight stacks where it found them. -/
theorem seg2_ctx {W : Valuation τ sig (Elt Ideal)} {a1 : IVec S2x800000 32} {w0 w1 : FVec Ideal S5x256x256 .f32}
    (h : Ctx W a1 w0 w1) : Ctx (after seg2 W) a1 w0 w1 :=
  ⟨(seg2_main_v1 W).trans h.v1, (seg2_main_v3 W).trans h.v3, (seg2_main_v30 W).trans h.v30,
    (seg2_main_arg2 W).trans h.a2, (seg2_main_arg3 W).trans h.a3⟩

/-- Step 2 ends with the specification's step 2 of the node matrix it started from. -/
theorem seg2_val {W : Valuation τ sig (Elt Ideal)} {a1 : IVec S2x800000 32} {w0 w1 : FVec Ideal S5x256x256 .f32}
    (h : Ctx W a1 w0 w1) {x : FVec Ideal S50000x256 .f32} (hx : W (Proc.devRef .tc main_v72) = x) :
    after seg2 W (Proc.devRef .tc main_v93) = stepR x (dinv a1) (rowN a1) (colN a1) (col a1) w0 w1 2 := by
  rw [seg2_out, hx, h.v1, h.v3, h.v30, h.a2, h.a3]
  exact stepT_eq x (dinv a1) (row a1) (col a1) w0 w1 2 _

/-- Step 3 leaves the edge lists, the edge weights and the weight stacks where it found them. -/
theorem seg3_ctx {W : Valuation τ sig (Elt Ideal)} {a1 : IVec S2x800000 32} {w0 w1 : FVec Ideal S5x256x256 .f32}
    (h : Ctx W a1 w0 w1) : Ctx (after seg3 W) a1 w0 w1 :=
  ⟨(seg3_main_v1 W).trans h.v1, (seg3_main_v3 W).trans h.v3, (seg3_main_v30 W).trans h.v30,
    (seg3_main_arg2 W).trans h.a2, (seg3_main_arg3 W).trans h.a3⟩

/-- Step 3 ends with the specification's step 3 of the node matrix it started from. -/
theorem seg3_val {W : Valuation τ sig (Elt Ideal)} {a1 : IVec S2x800000 32} {w0 w1 : FVec Ideal S5x256x256 .f32}
    (h : Ctx W a1 w0 w1) {x : FVec Ideal S50000x256 .f32} (hx : W (Proc.devRef .tc main_v93) = x) :
    after seg3 W (Proc.devRef .tc main_v114) = stepR x (dinv a1) (rowN a1) (colN a1) (col a1) w0 w1 3 := by
  rw [seg3_out, hx, h.v1, h.v3, h.v30, h.a2, h.a3]
  exact stepT_eq x (dinv a1) (row a1) (col a1) w0 w1 3 _

/-- Step 4 leaves the edge lists, the edge weights and the weight stacks where it found them. -/
theorem seg4_ctx {W : Valuation τ sig (Elt Ideal)} {a1 : IVec S2x800000 32} {w0 w1 : FVec Ideal S5x256x256 .f32}
    (h : Ctx W a1 w0 w1) : Ctx (after seg4 W) a1 w0 w1 :=
  ⟨(seg4_main_v1 W).trans h.v1, (seg4_main_v3 W).trans h.v3, (seg4_main_v30 W).trans h.v30,
    (seg4_main_arg2 W).trans h.a2, (seg4_main_arg3 W).trans h.a3⟩

/-- Step 4 ends with the specification's step 4 of the node matrix it started from. -/
theorem seg4_val {W : Valuation τ sig (Elt Ideal)} {a1 : IVec S2x800000 32} {w0 w1 : FVec Ideal S5x256x256 .f32}
    (h : Ctx W a1 w0 w1) {x : FVec Ideal S50000x256 .f32} (hx : W (Proc.devRef .tc main_v114) = x) :
    after seg4 W (Proc.devRef .tc main_v135) = stepR x (dinv a1) (rowN a1) (colN a1) (col a1) w0 w1 4 := by
  rw [seg4_out, hx, h.v1, h.v3, h.v30, h.a2, h.a3]
  exact stepT_eq x (dinv a1) (row a1) (col a1) w0 w1 4 _

/-- THE LINE'S RESULT, from any contents `V` of the buffers: the five steps of the specification. -/
theorem fold_value (V : Valuation τ sig (Elt Ideal)) :
    after (ops (F := Ideal)) V (Proc.devRef .tc main_v135)
      = iterR (V (Proc.devRef .tc main_arg0)) (dinv (V (Proc.devRef .tc main_arg1))) (rowN (V (Proc.devRef .tc main_arg1))) (colN (V (Proc.devRef .tc main_arg1)))
            (col (V (Proc.devRef .tc main_arg1))) (V (Proc.devRef .tc main_arg2)) (V (Proc.devRef .tc main_arg3)) := by
  have c0 := pre_ctx V
  have y0 := seg0_val c0 (pre_main_arg0 V)
  have c1 := seg0_ctx c0
  have y1 := seg1_val c1 y0
  have c2 := seg1_ctx c1
  have y2 := seg2_val c2 y1
  have c3 := seg2_ctx c2
  have y3 := seg3_val c3 y2
  have c4 := seg3_ctx c3
  have y4 := seg4_val c4 y3
  refine (congrArg (fun l => after l V (Proc.devRef .tc main_v135)) (ops_split (F := Ideal))).trans ?_
  simp only [Cert.LibFoldSteps.after_append]
  exact y4

/-- THE RUN: on every device, from any memory with zero counters, every weakly fair execution of the reference
    terminates with its result buffer at the five steps of the specification of its arguments' launch contents, and
    the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v135)
          = iterR (m ((c.tc : Thread nD τ).loc main_arg0)) (dinv (m ((c.tc : Thread nD τ).loc main_arg1))) (rowN (m ((c.tc : Thread nD τ).loc main_arg1))) (colN (m ((c.tc : Thread nD τ).loc main_arg1)))
            (col (m ((c.tc : Thread nD τ).loc main_arg1))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨(h c).1.trans (fold_value (launchContents m c)), (h c).2⟩)
    (Cert.ReferenceIdeal.ValueP.run (F := Ideal) m ρ)

end Cert.ReferenceIdeal.RValue

end
-- ==== Proof.Bridge.lean ====
/-
  The two programs compute their edge and degree terms by the same operations: the source and target lists, the
  sources with their negative entries moved up, the degrees and their inverse square roots are the same arrays,
  whichever program's text they are read from.
-/
import proofs.«141509_j41120016892381_2_alg».proof.Proof.KValueDefs
import proofs.«141509_j41120016892381_2_alg».proof.Proof.RefValue

noncomputable section

namespace Cert.Bridge

open Idealize.ShloMosaic

theorem row_eq (a1 : IVec Cert.KernelIdeal.S2x800000 32) :
    Cert.KernelIdeal.KValue.row a1 = Cert.ReferenceIdeal.RValue.row a1 := rfl

theorem col_eq (a1 : IVec Cert.KernelIdeal.S2x800000 32) :
    Cert.KernelIdeal.KValue.col a1 = Cert.ReferenceIdeal.RValue.col a1 := rfl

theorem rowNOf_eq (r : IVec Cert.KernelIdeal.S800000 32) :
    Cert.KernelIdeal.KValue.rowNOf r = Cert.ReferenceIdeal.RValue.normIdx r := rfl

theorem rowN_eq (a1 : IVec Cert.KernelIdeal.S2x800000 32) :
    Cert.KernelIdeal.KValue.rowN a1 = Cert.ReferenceIdeal.RValue.rowN a1 := by
  unfold Cert.KernelIdeal.KValue.rowN Cert.ReferenceIdeal.RValue.rowN
  rw [rowNOf_eq, row_eq]

/-- The degree, for a target list that is a variable. -/
theorem degOf_eq (c : IVec Cert.KernelIdeal.S800000 32) :
    Host.scatterAdd Cert.KernelIdeal.scatter_S50000_S800000x1_S800000_n_0_0_1
      (broadcastInDim Cert.KernelIdeal.S50000 ![] Cert.KernelIdeal.Gen.bcast_S_S50000 (constant (F := Ideal) Cert.KernelIdeal.S_ .f32 0x00000000#32))
      (broadcastInDim Cert.KernelIdeal.S800000x1 ![0] Cert.KernelIdeal.Gen.bcast_S800000_S800000x1_0 c)
      (broadcastInDim Cert.KernelIdeal.S800000 ![] Cert.KernelIdeal.Gen.bcast_S_S800000 (constant (F := Ideal) Cert.KernelIdeal.S_ .f32 0x3F800000#32))
    = Cert.ReferenceIdeal.RValue.degF (F := Ideal) c := rfl

theorem deg_eq (a1 : IVec Cert.KernelIdeal.S2x800000 32) :
    Cert.KernelIdeal.KValue.deg a1 = Cert.ReferenceIdeal.RValue.degF (F := Ideal) (Cert.ReferenceIdeal.RValue.col a1) := by
  unfold Cert.KernelIdeal.KValue.deg
  rw [col_eq]
  exact degOf_eq _

/-- The inverse square-root degree, for a degree vector that is a variable. -/
theorem dinvOf_eq (d : FVec Ideal Cert.KernelIdeal.S50000 .f32) :
    (select (cmpf .ogt d (broadcastInDim Cert.KernelIdeal.S50000 ![] Cert.KernelIdeal.Gen.bcast_S_S50000 (constant (F := Ideal) Cert.KernelIdeal.S_ .f32 0x00000000#32)))
      (Host.rsqrt (select (cmpf .ogt d (broadcastInDim Cert.KernelIdeal.S50000 ![] Cert.KernelIdeal.Gen.bcast_S_S50000 (constant (F := Ideal) Cert.KernelIdeal.S_ .f32 0x00000000#32)))
        d (broadcastInDim Cert.KernelIdeal.S50000 ![] Cert.KernelIdeal.Gen.bcast_S_S50000 (constant (F := Ideal) Cert.KernelIdeal.S_ .f32 0x3F800000#32))))
      (broadcastInDim Cert.KernelIdeal.S50000 ![] Cert.KernelIdeal.Gen.bcast_S_S50000 (constant (F := Ideal) Cert.KernelIdeal.S_ .f32 0x00000000#32)) : FVec Ideal Cert.KernelIdeal.S50000 .f32)
    = Cert.ReferenceIdeal.RValue.dinvOf (F := Ideal) d := rfl

theorem dinv_eq (a1 : IVec Cert.KernelIdeal.S2x800000 32) :
    Cert.KernelIdeal.KValue.dinv a1 = Cert.ReferenceIdeal.RValue.dinv a1 := by
  unfold Cert.KernelIdeal.KValue.dinv
  rw [deg_eq]
  exact dinvOf_eq _

end Cert.Bridge

end
-- ==== Proof.lean ====
/-
  Five rounds of a normalized graph convolution, x ↦ x · W0ₖᵀ + A(x) · W1ₖᵀ, where A(x) adds into every node the rows of
  x at the sources of the edges that target it, each weighted by dinv (source) · dinv (target), dinv the inverse
  square root of the in-degree.

  The reference applies the weight dinv (source) · dinv (target) edge by edge.  The kernel program scales the node
  matrix by dinv once, sums the scaled rows per target on the host, and lets the dense Pallas kernel multiply the sum
  by dinv (target) before its two matrix products; it also emits the next round's scaled matrix.  Over the extended
  reals the two agree because dinv is a nonnegative real at every node whatever the degree (1 / √deg at a positive
  real degree, 0 otherwise), and multiplication by a nonnegative real distributes over any finite sum of extended
  reals; associativity of the product does the rest.  No finiteness of the inputs is used.

  The kernel program's result is read off its frame run: each launch's output array is the dense step of its five
  operand arrays (block by block, the blocks tiling the rows), each host stretch between launches is read from the
  launch's exit contents, and the five rounds compose.  The reference's result is its straight line of host
  operations read in six stretches.  Both are the five-fold iterate of one step function of the arguments.
-/
import proofs.«141509_j41120016892381_2_alg».proof.Defs
import proofs.«141509_j41120016892381_2_alg».proof.Proof.Gen.Kernel
import proofs.«141509_j41120016892381_2_alg».proof.Proof.Gen.Kernel.Frame
import proofs.«141509_j41120016892381_2_alg».proof.Proof.Gen.KernelIdeal
import proofs.«141509_j41120016892381_2_alg».proof.Proof.Gen.KernelIdeal.Frame
import proofs.«141509_j41120016892381_2_alg».proof.Proof.Gen.ReferenceIdeal
import proofs.«141509_j41120016892381_2_alg».proof.Proof.Gen.Pre_finite_inputs
import proofs.«141509_j41120016892381_2_alg».proof.Proof.KRun
import proofs.«141509_j41120016892381_2_alg».proof.Proof.KValue
import proofs.«141509_j41120016892381_2_alg».proof.Proof.RefValue
import proofs.«141509_j41120016892381_2_alg».proof.Proof.Bridge

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run (Cert.ReferenceIdeal.defs (F := Ideal)) _ _).mono (fun _ h c => (h c).2) (Cert.ReferenceIdeal.RValue.run_value m ρ)

/-- The idealization rewrote nothing. -/
theorem preserves : Cert.preserves_Kernel_KernelIdeal := trivial

/-- Both idealized programs end with the five-fold iterate of the convolution step at the arguments: the kernel
    program's with the weight split around the sum, the reference's with the weight inside it; the two iterates are
    equal because the inverse square-root degree is a nonnegative real. -/
theorem algebraic : Cert.algebraic_KernelIdeal_ReferenceIdeal := by
  intro m ρ m' ρ' _ hagree
  refine ⟨fun c => Cert.Tag.iterK (m ((c.tc : Thread Cert.KernelIdeal.nD Cert.KernelIdeal.τ).loc Cert.KernelIdeal.main_arg0)) (Cert.KernelIdeal.KValue.dinv (m ((c.tc : Thread Cert.KernelIdeal.nD Cert.KernelIdeal.τ).loc Cert.KernelIdeal.main_arg1)))
      (Cert.KernelIdeal.KValue.rowN (m ((c.tc : Thread Cert.KernelIdeal.nD Cert.KernelIdeal.τ).loc Cert.KernelIdeal.main_arg1))) (Cert.KernelIdeal.KValue.col (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run (Cert.KernelIdeal.defs (F := Ideal)) _ _).mono
      (fun r h c => ⟨(h c).1.trans (Cert.KernelIdeal.KValue.value m ρ c), (h c).2⟩) (Cert.KernelIdeal.KRun.run (F := Ideal) m ρ)
  · refine (θ_run (Cert.ReferenceIdeal.defs (F := Ideal)) _ _).mono (fun r h c => ⟨(h c).1.trans ?_, (h c).2⟩)
      (Cert.ReferenceIdeal.RValue.run_value m' ρ')
    rw [(hagree c).1, (hagree c).2.1, (hagree c).2.2.1, (hagree c).2.2.2]
    show Cert.Tag.iterR _ _ _ _ _ _ _ = Cert.Tag.iterK _ _ _ _ _ _
    rw [Cert.Bridge.dinv_eq, Cert.Bridge.rowN_eq, Cert.Bridge.col_eq]
    exact (Cert.Tag.iterK_eq_iterR _ _ _ _ _ _ _ (Cert.ReferenceIdeal.RValue.dinv_real _) (Cert.ReferenceIdeal.RValue.src_colN _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
